-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v150)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v150) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v185) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x64 : Shape := ⟨2, ![200000, 64]⟩
abbrev S50000x64 : Shape := ⟨2, ![50000, 64]⟩
abbrev S2x400000 : Shape := ⟨2, ![2, 400000]⟩
abbrev S192x64 : Shape := ⟨2, ![192, 64]⟩
abbrev S64 : Shape := ⟨1, ![64]⟩
abbrev S64x64 : Shape := ⟨2, ![64, 64]⟩
abbrev S128x64 : Shape := ⟨2, ![128, 64]⟩
abbrev S_ : Shape := ⟨0, ![]⟩

class Facts : Prop where
  bcast_S_S200000x64 : S_.BroadcastsInDim S200000x64 (![] : Fin 0 → Fin S200000x64.rank)
  reducesTo_S200000x64_S_d0_1 : S200000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S192x64 : S_.BroadcastsInDim S192x64 (![] : Fin 0 → Fin S192x64.rank)
  reducesTo_S192x64_S_d0_1 : S192x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S128x64 : S_.BroadcastsInDim S128x64 (![] : Fin 0 → Fin S128x64.rank)
  reducesTo_S128x64_S_d0_1 : S128x64.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg14 : FVec F S64 .f32) (main_arg15 : FVec F S128x64 .f32) (main_arg16 : FVec F S64 .f32) (main_v48 : IVec S_ 1) (main_v49 : FVec F S128x64 .f32) (main_v50 : FVec F S128x64 .f32) : IVec S_ 1 :=
  let main_v51 : IVec S128x64 1 := cmpf .olt main_v49 main_v50
  let main_c_19 : IVec S_ 1 := constantI S_ 1 1#1
  let main_v52 : IVec S_ 1 := (fun x v => Host.reduce IntOp.andi x v reducesTo_S128x64_S_d0_1 h_S_) main_v51 main_c_19
  let main_v53 : IVec S_ 1 := andi main_v48 main_v52
  let main_v54 : FVec F S64 .f32 := Host.absf main_arg14
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S128x64 .f32 := Host.absf main_arg15
  let main_cst_22 : FVec F S_ .f32 := constant S_ .f32 0x7F800000#32
  let main_v60 : FVec F S128x64 .f32 := broadcastInDim S128x64 ![] bcast_S_S128x64 main_cst_22
  let main_v61 : IVec S128x64 1 := cmpf .olt main_v59 main_v60
  let main_c_23 : IVec S_ 1 := constantI S_ 1 1#1
  let main_v62 : IVec S_ 1 := (fun x v => Host.reduce IntOp.andi x v reducesTo_S128x64_S_d0_1 h_S_) main_v61 main_c_23
  let main_v63 : IVec S_ 1 := andi main_v58 main_v62
  let main_v64 : FVec F S64 .f32 := Host.absf main_arg16
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_v63 main_v67

def fn_part2 {F : FTy → Type} [FloatOps F] (main_arg10 : FVec F S64 .f32) (main_arg11 : FVec F S128x64 .f32) (main_arg12 : FVec F S64 .f32) (main_arg13 : FVec F S128x64 .f32) (main_arg14 : FVec F S64 .f32) (main_arg15 : FVec F S128x64 .f32) (main_arg16 : FVec F S64 .f32) (main_v33 : IVec S_ 1) : IVec S_ 1 :=
  let main_v34 : FVec F S64 .f32 := Host.absf main_arg10
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S128x64 .f32 := Host.absf main_arg11
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg12
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S128x64 .f32 := Host.absf main_arg13
  let main_cst_18 : FVec F S_ .f32 := constant S_ .f32 0x7F800000#32
  let main_v50 : FVec F S128x64 .f32 := broadcastInDim S128x64 ![] bcast_S_S128x64 main_cst_18
  fn_part3 (F := F) main_arg14 main_arg15 main_arg16 main_v48 main_v49 main_v50

def fn_part1 {F : FTy → Type} [FloatOps F] (main_arg7 : FVec F S192x64 .f32) (main_arg8 : FVec F S64 .f32) (main_arg9 : FVec F S64x64 .f32) (main_arg10 : FVec F S64 .f32) (main_arg11 : FVec F S128x64 .f32) (main_arg12 : FVec F S64 .f32) (main_arg13 : FVec F S128x64 .f32) (main_arg14 : FVec F S64 .f32) (main_arg15 : FVec F S128x64 .f32) (main_arg16 : FVec F S64 .f32) (main_v13 : IVec S_ 1) (main_v16 : IVec S50000x64 1) : IVec S_ 1 :=
  let main_c_5 : IVec S_ 1 := constantI S_ 1 1#1
  let main_v17 : IVec S_ 1 := (fun x v => Host.reduce IntOp.andi x v reducesTo_S50000x64_S_d0_1 h_S_) main_v16 main_c_5
  let main_v18 : IVec S_ 1 := andi main_v13 main_v17
  let main_v19 : FVec F S192x64 .f32 := Host.absf main_arg7
  let main_cst_6 : FVec F S_ .f32 := constant S_ .f32 0x7F800000#32
  let main_v20 : FVec F S192x64 .f32 := broadcastInDim S192x64 ![] bcast_S_S192x64 main_cst_6
  let main_v21 : IVec S192x64 1 := cmpf .olt main_v19 main_v20
  let main_c_7 : IVec S_ 1 := constantI S_ 1 1#1
  let main_v22 : IVec S_ 1 := (fun x v => Host.reduce IntOp.andi x v reducesTo_S192x64_S_d0_1 h_S_) main_v21 main_c_7
  let main_v23 : IVec S_ 1 := andi main_v18 main_v22
  let main_v24 : FVec F S64 .f32 := Host.absf main_arg8
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg9
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg10 main_arg11 main_arg12 main_arg13 main_arg14 main_arg15 main_arg16 main_v33

def fn {F : FTy → Type} [FloatOps F] (main_arg0 : FVec F S200000x64 .f32) (main_arg1 : FVec F S200000x64 .f32) (main_arg2 : FVec F S200000x64 .f32) (main_arg3 : FVec F S50000x64 .f32) (main_arg4 : IVec S2x400000 32) (main_arg5 : IVec S2x400000 32) (main_arg6 : IVec S2x400000 32) (main_arg7 : FVec F S192x64 .f32) (main_arg8 : FVec F S64 .f32) (main_arg9 : FVec F S64x64 .f32) (main_arg10 : FVec F S64 .f32) (main_arg11 : FVec F S128x64 .f32) (main_arg12 : FVec F S64 .f32) (main_arg13 : FVec F S128x64 .f32) (main_arg14 : FVec F S64 .f32) (main_arg15 : FVec F S128x64 .f32) (main_arg16 : FVec F S64 .f32) : IVec S_ 1 :=
  let main_v0 : FVec F S200000x64 .f32 := Host.absf main_arg0
  let main_cst : FVec F S_ .f32 := constant S_ .f32 0x7F800000#32
  let main_v1 : FVec F S200000x64 .f32 := broadcastInDim S200000x64 ![] bcast_S_S200000x64 main_cst
  let main_v2 : IVec S200000x64 1 := cmpf .olt main_v0 main_v1
  let main_c : IVec S_ 1 := constantI S_ 1 1#1
  let main_v3 : IVec S_ 1 := (fun x v => Host.reduce IntOp.andi x v reducesTo_S200000x64_S_d0_1 h_S_) main_v2 main_c
  let main_v4 : FVec F S200000x64 .f32 := Host.absf main_arg1
  let main_cst_0 : FVec F S_ .f32 := constant S_ .f32 0x7F800000#32
  let main_v5 : FVec F S200000x64 .f32 := broadcastInDim S200000x64 ![] bcast_S_S200000x64 main_cst_0
  let main_v6 : IVec S200000x64 1 := cmpf .olt main_v4 main_v5
  let main_c_1 : IVec S_ 1 := constantI S_ 1 1#1
  let main_v7 : IVec S_ 1 := (fun x v => Host.reduce IntOp.andi x v reducesTo_S200000x64_S_d0_1 h_S_) main_v6 main_c_1
  let main_v8 : IVec S_ 1 := andi main_v3 main_v7
  let main_v9 : FVec F S200000x64 .f32 := Host.absf main_arg2
  let main_cst_2 : FVec F S_ .f32 := constant S_ .f32 0x7F800000#32
  let main_v10 : FVec F S200000x64 .f32 := broadcastInDim S200000x64 ![] bcast_S_S200000x64 main_cst_2
  let main_v11 : IVec S200000x64 1 := cmpf .olt main_v9 main_v10
  let main_c_3 : IVec S_ 1 := constantI S_ 1 1#1
  let main_v12 : IVec S_ 1 := (fun x v => Host.reduce IntOp.andi x v reducesTo_S200000x64_S_d0_1 h_S_) main_v11 main_c_3
  let main_v13 : IVec S_ 1 := andi main_v8 main_v12
  let main_v14 : FVec F S50000x64 .f32 := Host.absf main_arg3
  let main_cst_4 : FVec F S_ .f32 := constant S_ .f32 0x7F800000#32
  let main_v15 : FVec F S50000x64 .f32 := broadcastInDim S50000x64 ![] bcast_S_S50000x64 main_cst_4
  let main_v16 : IVec S50000x64 1 := cmpf .olt main_v14 main_v15
  fn_part1 (F := F) main_arg7 main_arg8 main_arg9 main_arg10 main_arg11 main_arg12 main_arg13 main_arg14 main_arg15 main_arg16 main_v13 main_v16
-- ==== Kernel.lean ====
abbrev S200000x64 : Shape := ⟨2, ![200000, 64]⟩
abbrev S50000x64 : Shape := ⟨2, ![50000, 64]⟩
abbrev S2x400000 : Shape := ⟨2, ![2, 400000]⟩
abbrev S192x64 : Shape := ⟨2, ![192, 64]⟩
abbrev S64 : Shape := ⟨1, ![64]⟩
abbrev S64x64 : Shape := ⟨2, ![64, 64]⟩
abbrev S128x64 : Shape := ⟨2, ![128, 64]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x64 : Shape := ⟨2, ![400000, 64]⟩
abbrev S50000x192 : Shape := ⟨2, ![50000, 192]⟩
abbrev S1x64 : Shape := ⟨2, ![1, 64]⟩
abbrev S5000x192 : Shape := ⟨2, ![5000, 192]⟩
abbrev S5000x64 : Shape := ⟨2, ![5000, 64]⟩
abbrev S400000x128 : Shape := ⟨2, ![400000, 128]⟩
abbrev S1x400000x128 : Shape := ⟨3, ![1, 400000, 128]⟩
abbrev S3x400000x128 : Shape := ⟨3, ![3, 400000, 128]⟩
abbrev S1x128x64 : Shape := ⟨3, ![1, 128, 64]⟩
abbrev S3x128x64 : Shape := ⟨3, ![3, 128, 64]⟩
abbrev S3x64 : Shape := ⟨2, ![3, 64]⟩
abbrev S3x1x64 : Shape := ⟨3, ![3, 1, 64]⟩
abbrev S3x400000x64 : Shape := ⟨3, ![3, 400000, 64]⟩
abbrev S1x10000x128 : Shape := ⟨3, ![1, 10000, 128]⟩
abbrev S1x1x64 : Shape := ⟨3, ![1, 1, 64]⟩
abbrev S1x10000x64 : Shape := ⟨3, ![1, 10000, 64]⟩
abbrev S10000x128 : Shape := ⟨2, ![10000, 128]⟩
abbrev S10000x64 : Shape := ⟨2, ![10000, 64]⟩
abbrev S1x400000x64 : Shape := ⟨3, ![1, 400000, 64]⟩
abbrev S200000x1 : Shape := ⟨2, ![200000, 1]⟩
abbrev S1x200000x64 : Shape := ⟨3, ![1, 200000, 64]⟩
abbrev S3x200000x64 : Shape := ⟨3, ![3, 200000, 64]⟩

abbrev nBuf : Space → Nat
  | .hbm => 195
  | .vmem => 16
  | .smem => 0
  | _ => 0

abbrev hbmTy0_0 (i : Nat) : BufTy := match i % 128 with
  | 0 => ⟨S200000x64, .f32⟩
  | 1 => ⟨S200000x64, .f32⟩
  | 2 => ⟨S200000x64, .f32⟩
  | 3 => ⟨S50000x64, .f32⟩
  | 4 => ⟨S2x400000, .i32⟩
  | 5 => ⟨S2x400000, .i32⟩
  | 6 => ⟨S2x400000, .i32⟩
  | 7 => ⟨S192x64, .f32⟩
  | 8 => ⟨S64, .f32⟩
  | 9 => ⟨S64x64, .f32⟩
  | 10 => ⟨S64, .f32⟩
  | 11 => ⟨S128x64, .f32⟩
  | 12 => ⟨S64, .f32⟩
  | 13 => ⟨S128x64, .f32⟩
  | 14 => ⟨S64, .f32⟩
  | 15 => ⟨S128x64, .f32⟩
  | 16 => ⟨S64, .f32⟩
  | 17 => ⟨S1x400000, .i32⟩
  | 18 => ⟨S400000, .i32⟩
  | 19 => ⟨S_, .i32⟩
  | 20 => ⟨S400000, .i32⟩
  | 21 => ⟨S400000, .i1⟩
  | 22 => ⟨S_, .i32⟩
  | 23 => ⟨S400000, .i32⟩
  | 24 => ⟨S400000, .i32⟩
  | 25 => ⟨S400000, .i32⟩
  | 26 => ⟨S400000x1, .i32⟩
  | 27 => ⟨S400000x64, .f32⟩
  | 28 => ⟨S1x400000, .i32⟩
  | 29 => ⟨S400000, .i32⟩
  | 30 => ⟨S_, .f32⟩
  | 31 => ⟨S50000x64, .f32⟩
  | 32 => ⟨S400000x1, .i32⟩
  | 33 => ⟨S50000x64, .f32⟩
  | 34 => ⟨S1x400000, .i32⟩
  | 35 => ⟨S400000, .i32⟩
  | 36 => ⟨S_, .i32⟩
  | 37 => ⟨S400000, .i32⟩
  | 38 => ⟨S400000, .i1⟩
  | 39 => ⟨S_, .i32⟩
  | 40 => ⟨S400000, .i32⟩
  | 41 => ⟨S400000, .i32⟩
  | 42 => ⟨S400000, .i32⟩
  | 43 => ⟨S400000x1, .i32⟩
  | 44 => ⟨S400000x64, .f32⟩
  | 45 => ⟨S1x400000, .i32⟩
  | 46 => ⟨S400000, .i32⟩
  | 47 => ⟨S_, .f32⟩
  | 48 => ⟨S50000x64, .f32⟩
  | 49 => ⟨S400000x1, .i32⟩
  | 50 => ⟨S50000x64, .f32⟩
  | 51 => ⟨S1x400000, .i32⟩
  | 52 => ⟨S400000, .i32⟩
  | 53 => ⟨S_, .i32⟩
  | 54 => ⟨S400000, .i32⟩
  | 55 => ⟨S400000, .i1⟩
  | 56 => ⟨S_, .i32⟩
  | 57 => ⟨S400000, .i32⟩
  | 58 => ⟨S400000, .i32⟩
  | 59 => ⟨S400000, .i32⟩
  | 60 => ⟨S400000x1, .i32⟩
  | 61 => ⟨S400000x64, .f32⟩
  | 62 => ⟨S1x400000, .i32⟩
  | 63 => ⟨S400000, .i32⟩
  | 64 => ⟨S_, .f32⟩
  | 65 => ⟨S50000x64, .f32⟩
  | 66 => ⟨S400000x1, .i32⟩
  | 67 => ⟨S50000x64, .f32⟩
  | 68 => ⟨S50000x192, .f32⟩
  | 69 => ⟨S1x64, .f32⟩
  | 70 => ⟨S1x64, .f32⟩
  | 71 => ⟨S50000x64, .f32⟩
  | 72 => ⟨S1x400000, .i32⟩
  | 73 => ⟨S400000, .i32⟩
  | 74 => ⟨S_, .i32⟩
  | 75 => ⟨S400000, .i32⟩
  | 76 => ⟨S400000, .i1⟩
  | 77 => ⟨S_, .i32⟩
  | 78 => ⟨S400000, .i32⟩
  | 79 => ⟨S400000, .i32⟩
  | 80 => ⟨S400000, .i32⟩
  | 81 => ⟨S400000x1, .i32⟩
  | 82 => ⟨S400000x64, .f32⟩
  | 83 => ⟨S1x400000, .i32⟩
  | 84 => ⟨S400000, .i32⟩
  | 85 => ⟨S_, .i32⟩
  | 86 => ⟨S400000, .i32⟩
  | 87 => ⟨S400000, .i1⟩
  | 88 => ⟨S_, .i32⟩
  | 89 => ⟨S400000, .i32⟩
  | 90 => ⟨S400000, .i32⟩
  | 91 => ⟨S400000, .i32⟩
  | 92 => ⟨S400000x1, .i32⟩
  | 93 => ⟨S400000x64, .f32⟩
  | 94 => ⟨S1x400000, .i32⟩
  | 95 => ⟨S400000, .i32⟩
  | 96 => ⟨S_, .i32⟩
  | 97 => ⟨S400000, .i32⟩
  | 98 => ⟨S400000, .i1⟩
  | 99 => ⟨S_, .i32⟩
  | 100 => ⟨S400000, .i32⟩
  | 101 => ⟨S400000, .i32⟩
  | 102 => ⟨S400000, .i32⟩
  | 103 => ⟨S400000x1, .i32⟩
  | 104 => ⟨S400000x64, .f32⟩
  | 105 => ⟨S400000x128, .f32⟩
  | 106 => ⟨S400000x128, .bf16⟩
  | 107 => ⟨S400000x128, .f32⟩
  | 108 => ⟨S400000x128, .bf16⟩
  | 109 => ⟨S400000x128, .f32⟩
  | 110 => ⟨S400000x128, .bf16⟩
  | 111 => ⟨S1x400000x128, .bf16⟩
  | 112 => ⟨S1x400000x128, .bf16⟩
  | 113 => ⟨S1x400000x128, .bf16⟩
  | 114 => ⟨S3x400000x128, .bf16⟩
  | 115 => ⟨S1x128x64, .f32⟩
  | 116 => ⟨S1x128x64, .f32⟩
  | 117 => ⟨S1x128x64, .f32⟩
  | 118 => ⟨S3x128x64, .f32⟩
  | 119 => ⟨S1x64, .f32⟩
  | 120 => ⟨S1x64, .f32⟩
  | 121 => ⟨S1x64, .f32⟩
  | 122 => ⟨S3x64, .f32⟩
  | 123 => ⟨S3x1x64, .f32⟩
  | 124 => ⟨S3x400000x64, .bf16⟩
  | 125 => ⟨S1x400000x64, .bf16⟩
  | 126 => ⟨S400000x64, .bf16⟩
  | 127 => ⟨S400000x64, .f32⟩
  | _ => ⟨S200000x64, .f32⟩

abbrev hbmTy0_1 (i : Nat) : BufTy := match i % 128 with
  | 0 => ⟨S1x400000, .i32⟩
  | 1 => ⟨S400000, .i32⟩
  | 2 => ⟨S_, .f32⟩
  | 3 => ⟨S200000x64, .f32⟩
  | 4 => ⟨S400000x1, .i32⟩
  | 5 => ⟨S200000x64, .f32⟩
  | 6 => ⟨S_, .f32⟩
  | 7 => ⟨S400000x1, .f32⟩
  | 8 => ⟨S1x400000, .i32⟩
  | 9 => ⟨S400000, .i32⟩
  | 10 => ⟨S_, .f32⟩
  | 11 => ⟨S200000x1, .f32⟩
  | 12 => ⟨S400000x1, .i32⟩
  | 13 => ⟨S200000x1, .f32⟩
  | 14 => ⟨S_, .f32⟩
  | 15 => ⟨S200000x1, .f32⟩
  | 16 => ⟨S200000x1, .f32⟩
  | 17 => ⟨S200000x64, .f32⟩
  | 18 => ⟨S200000x64, .f32⟩
  | 19 => ⟨S1x400000x64, .bf16⟩
  | 20 => ⟨S400000x64, .bf16⟩
  | 21 => ⟨S400000x64, .f32⟩
  | 22 => ⟨S1x400000, .i32⟩
  | 23 => ⟨S400000, .i32⟩
  | 24 => ⟨S_, .f32⟩
  | 25 => ⟨S200000x64, .f32⟩
  | 26 => ⟨S400000x1, .i32⟩
  | 27 => ⟨S200000x64, .f32⟩
  | 28 => ⟨S_, .f32⟩
  | 29 => ⟨S400000x1, .f32⟩
  | 30 => ⟨S1x400000, .i32⟩
  | 31 => ⟨S400000, .i32⟩
  | 32 => ⟨S_, .f32⟩
  | 33 => ⟨S200000x1, .f32⟩
  | 34 => ⟨S400000x1, .i32⟩
  | 35 => ⟨S200000x1, .f32⟩
  | 36 => ⟨S_, .f32⟩
  | 37 => ⟨S200000x1, .f32⟩
  | 38 => ⟨S200000x1, .f32⟩
  | 39 => ⟨S200000x64, .f32⟩
  | 40 => ⟨S200000x64, .f32⟩
  | 41 => ⟨S1x400000x64, .bf16⟩
  | 42 => ⟨S400000x64, .bf16⟩
  | 43 => ⟨S400000x64, .f32⟩
  | 44 => ⟨S1x400000, .i32⟩
  | 45 => ⟨S400000, .i32⟩
  | 46 => ⟨S_, .f32⟩
  | 47 => ⟨S200000x64, .f32⟩
  | 48 => ⟨S400000x1, .i32⟩
  | 49 => ⟨S200000x64, .f32⟩
  | 50 => ⟨S_, .f32⟩
  | 51 => ⟨S400000x1, .f32⟩
  | 52 => ⟨S1x400000, .i32⟩
  | 53 => ⟨S400000, .i32⟩
  | 54 => ⟨S_, .f32⟩
  | 55 => ⟨S200000x1, .f32⟩
  | 56 => ⟨S400000x1, .i32⟩
  | 57 => ⟨S200000x1, .f32⟩
  | 58 => ⟨S_, .f32⟩
  | 59 => ⟨S200000x1, .f32⟩
  | 60 => ⟨S200000x1, .f32⟩
  | 61 => ⟨S200000x64, .f32⟩
  | 62 => ⟨S200000x64, .f32⟩
  | 63 => ⟨S1x200000x64, .f32⟩
  | 64 => ⟨S1x200000x64, .f32⟩
  | 65 => ⟨S1x200000x64, .f32⟩
  | 66 => ⟨S3x200000x64, .f32⟩
  | _ => ⟨S200000x64, .f32⟩

abbrev hbmTy (i : Nat) : BufTy := match i / 128 with
  | 0 => hbmTy0_0 i
  | 1 => hbmTy0_1 i
  | _ => ⟨S200000x64, .f32⟩

abbrev bufTy : (tb : Table) → Fin (tcTables nBuf tb) → BufTy
  | .hbm, ⟨i, _⟩ => hbmTy i
  | .local _ .vmem, ⟨0, _⟩ => ⟨S5000x192, .f32⟩
  | .local _ .vmem, ⟨1, _⟩ => ⟨S5000x192, .f32⟩
  | .local _ .vmem, ⟨2, _⟩ => ⟨S192x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S5000x64, .f32⟩
  | .local _ .vmem, ⟨7, _⟩ => ⟨S5000x64, .f32⟩
  | .local _ .vmem, ⟨8, _⟩ => ⟨S1x10000x128, .bf16⟩
  | .local _ .vmem, ⟨9, _⟩ => ⟨S1x10000x128, .bf16⟩
  | .local _ .vmem, ⟨10, _⟩ => ⟨S1x128x64, .f32⟩
  | .local _ .vmem, ⟨11, _⟩ => ⟨S1x128x64, .f32⟩
  | .local _ .vmem, ⟨12, _⟩ => ⟨S1x1x64, .f32⟩
  | .local _ .vmem, ⟨13, _⟩ => ⟨S1x1x64, .f32⟩
  | .local _ .vmem, ⟨14, _⟩ => ⟨S1x10000x64, .bf16⟩
  | .local _ .vmem, ⟨15, _⟩ => ⟨S1x10000x64, .bf16⟩
  | _, _ => ⟨S200000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_c : Ref sig .tc := ⟨.hbm, 19, rfl⟩
abbrev main_v2 : Ref sig .tc := ⟨.hbm, 20, rfl⟩
abbrev main_v3 : Ref sig .tc := ⟨.hbm, 21, rfl⟩
abbrev main_c_0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_c_1 : Ref sig .tc := ⟨.hbm, 36, rfl⟩
abbrev main_v16 : Ref sig .tc := ⟨.hbm, 37, rfl⟩
abbrev main_v17 : Ref sig .tc := ⟨.hbm, 38, rfl⟩
abbrev main_c_2 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_3 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_c_4 : Ref sig .tc := ⟨.hbm, 53, rfl⟩
abbrev main_v30 : Ref sig .tc := ⟨.hbm, 54, rfl⟩
abbrev main_v31 : Ref sig .tc := ⟨.hbm, 55, rfl⟩
abbrev main_c_5 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_6 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_c_7 : Ref sig .tc := ⟨.hbm, 74, rfl⟩
abbrev main_v48 : Ref sig .tc := ⟨.hbm, 75, rfl⟩
abbrev main_v49 : Ref sig .tc := ⟨.hbm, 76, rfl⟩
abbrev main_c_8 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_c_9 : Ref sig .tc := ⟨.hbm, 85, rfl⟩
abbrev main_v57 : Ref sig .tc := ⟨.hbm, 86, rfl⟩
abbrev main_v58 : Ref sig .tc := ⟨.hbm, 87, rfl⟩
abbrev main_c_10 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_c_11 : Ref sig .tc := ⟨.hbm, 96, rfl⟩
abbrev main_v66 : Ref sig .tc := ⟨.hbm, 97, rfl⟩
abbrev main_v67 : Ref sig .tc := ⟨.hbm, 98, rfl⟩
abbrev main_c_12 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_cst_13 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_cst_14 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_cst_15 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_cst_16 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_cst_17 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_cst_18 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_cst_19 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_cst_20 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_cst_21 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_cst_22 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_cst_23 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_cst_24 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S192x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![3, 40], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x10000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x128x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x10000x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  slices_S2x400000_S1x400000_0_0 : S2x400000.Slices ![0, 0] S1x400000
  shapeCasts_S1x400000_S400000 : S1x400000.ShapeCasts S400000
  bcast_S_S400000 : S_.BroadcastsInDim S400000 (![] : Fin 0 → Fin S400000.rank)
  bcast_S400000_S400000x1_0 : S400000.BroadcastsInDim S400000x1 (![0] : Fin 1 → Fin S400000x1.rank)
  slices_S2x400000_S1x400000_1_0 : S2x400000.Slices ![1, 0] S1x400000
  bcast_S_S50000x64 : S_.BroadcastsInDim S50000x64 (![] : Fin 0 → Fin S50000x64.rank)
  concatenates_S50000x64_S50000x64_S50000x64_S50000x192_d1 : Shape.Concatenates [S50000x64, S50000x64, S50000x64] S50000x192 1
  shapeCasts_S64_S1x64 : S64.ShapeCasts S1x64
  inb_S5000x192_S5000x192_0_0 : ∀ a, (![0, 0] : Fin 2 → Nat) a + S5000x192.size a ≤ S5000x192.size a
  h_S5000x192 : 0 < S5000x192.numel
  shapeCasts_S5000x192_S5000x192 : S5000x192.ShapeCasts S5000x192
  bitsLt_bf16_f32 : FTy.bits .bf16 < FTy.bits .f32
  inb_S192x64_S192x64_0_0 : ∀ a, (![0, 0] : Fin 2 → Nat) a + S192x64.size a ≤ S192x64.size a
  h_S192x64 : 0 < S192x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  inb_S5000x64_S5000x64_0_0 : ∀ a, (![0, 0] : Fin 2 → Nat) a + S5000x64.size a ≤ S5000x64.size a
  h_S5000x64 : 0 < S5000x64.numel
  concatenates_S400000x64_S400000x64_S400000x128_d1 : Shape.Concatenates [S400000x64, S400000x64] S400000x128 1
  bcast_S400000x128_S1x400000x128_1_2 : S400000x128.BroadcastsInDim S1x400000x128 (![1, 2] : Fin 2 → Fin S1x400000x128.rank)
  concatenates_S1x400000x128_S1x400000x128_S1x400000x128_S3x400000x128_d0 : Shape.Concatenates [S1x400000x128, S1x400000x128, S1x400000x128] S3x400000x128 0
  bcast_S128x64_S1x128x64_1_2 : S128x64.BroadcastsInDim S1x128x64 (![1, 2] : Fin 2 → Fin S1x128x64.rank)
  concatenates_S1x128x64_S1x128x64_S1x128x64_S3x128x64_d0 : Shape.Concatenates [S1x128x64, S1x128x64, S1x128x64] S3x128x64 0
  bcast_S64_S1x64_1 : S64.BroadcastsInDim S1x64 (![1] : Fin 1 → Fin S1x64.rank)
  concatenates_S1x64_S1x64_S1x64_S3x64_d0 : Shape.Concatenates [S1x64, S1x64, S1x64] S3x64 0
  shapeCasts_S3x64_S3x1x64 : S3x64.ShapeCasts S3x1x64
  inb_S1x10000x128_S1x10000x128_0_0_0 : ∀ a, (![0, 0, 0] : Fin 3 → Nat) a + S1x10000x128.size a ≤ S1x10000x128.size a
  h_S1x10000x128 : 0 < S1x10000x128.numel
  shapeCasts_S1x10000x128_S10000x128 : S1x10000x128.ShapeCasts S10000x128
  slices_S10000x128_o0_64_S10000x64 : S10000x128.Slices ![0, 64] S10000x64
  inb_S1x128x64_S1x128x64_0_0_0 : ∀ a, (![0, 0, 0] : Fin 3 → Nat) a + S1x128x64.size a ≤ S1x128x64.size a
  h_S1x128x64 : 0 < S1x128x64.numel
  shapeCasts_S1x128x64_S128x64 : S1x128x64.ShapeCasts S128x64
  inb_S1x1x64_S1x1x64_0_0_0 : ∀ a, (![0, 0, 0] : Fin 3 → Nat) a + S1x1x64.size a ≤ S1x1x64.size a
  h_S1x1x64 : 0 < S1x1x64.numel
  shapeCasts_S1x1x64_S1x64 : S1x1x64.ShapeCasts S1x64
  broadcasts_S1x64_S10000x64 : S1x64.Broadcasts S10000x64
  inb_S1x10000x64_S1x10000x64_0_0_0 : ∀ a, (![0, 0, 0] : Fin 3 → Nat) a + S1x10000x64.size a ≤ S1x10000x64.size a
  h_S1x10000x64 : 0 < S1x10000x64.numel
  shapeCasts_S1x10000x64_S10000x64 : S1x10000x64.ShapeCasts S10000x64
  shapeCasts_S10000x64_S1x10000x64 : S10000x64.ShapeCasts S1x10000x64
  packedbf16_S1x10000x64_S1x10000x64_0_0_0 : (Rect.unit (s := S1x10000x64) ![0, 0, 0] S1x10000x64.size inb_S1x10000x64_S1x10000x64_0_0_0).PackedRows (EltTy.packing .bf16)
  slices_S3x400000x64_S1x400000x64_0_0_0 : S3x400000x64.Slices ![0, 0, 0] S1x400000x64
  shapeCasts_S1x400000x64_S400000x64 : S1x400000x64.ShapeCasts S400000x64
  bcast_S_S200000x64 : S_.BroadcastsInDim S200000x64 (![] : Fin 0 → Fin S200000x64.rank)
  bcast_S_S400000x1 : S_.BroadcastsInDim S400000x1 (![] : Fin 0 → Fin S400000x1.rank)
  bcast_S_S200000x1 : S_.BroadcastsInDim S200000x1 (![] : Fin 0 → Fin S200000x1.rank)
  bcast_S200000x1_S200000x64_0_1 : S200000x1.BroadcastsInDim S200000x64 (![0, 1] : Fin 2 → Fin S200000x64.rank)
  slices_S3x400000x64_S1x400000x64_1_0_0 : S3x400000x64.Slices ![1, 0, 0] S1x400000x64
  slices_S3x400000x64_S1x400000x64_2_0_0 : S3x400000x64.Slices ![2, 0, 0] S1x400000x64
  bcast_S200000x64_S1x200000x64_1_2 : S200000x64.BroadcastsInDim S1x200000x64 (![1, 2] : Fin 2 → Fin S1x200000x64.rank)
  concatenates_S1x200000x64_S1x200000x64_S1x200000x64_S3x200000x64_d0 : Shape.Concatenates [S1x200000x64, S1x200000x64, S1x200000x64] S3x200000x64 0
  gather_S200000x64_S400000x1_S400000x64_1_0_n_n_0_1_164_wf : GatherDims.WF S200000x64 S400000x1 S400000x64 [1] [0] [] [0] [] 1 ![1, 64]
  scatter_S50000x64_S400000x1_S400000x64_1_0_0_1_wf : ScatterDims.WF S50000x64 S400000x1 S400000x64 [1] [0] [0] 1
  dot_S5000x192_S192x64_S5000x64_1_0_0_1_n_n_wf : DotDims.WF S5000x192 S192x64 S5000x64 [1] [0] [0] [1] [] []
  dot_S5000x64_S64x64_S5000x64_1_0_0_1_n_n_wf : DotDims.WF S5000x64 S64x64 S5000x64 [1] [0] [0] [1] [] []
  gather_S50000x64_S400000x1_S400000x64_1_0_n_n_0_1_164_wf : GatherDims.WF S50000x64 S400000x1 S400000x64 [1] [0] [] [0] [] 1 ![1, 64]
  dot_S10000x128_S128x64_S10000x64_1_0_0_1_n_n_wf : DotDims.WF S10000x128 S128x64 S10000x64 [1] [0] [0] [1] [] []
  scatter_S200000x64_S400000x1_S400000x64_1_0_0_1_wf : ScatterDims.WF S200000x64 S400000x1 S400000x64 [1] [0] [0] 1
  scatter_S200000x1_S400000x1_S400000x1_1_0_0_1_wf : ScatterDims.WF S200000x1 S400000x1 S400000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x192.size a ≤ S50000x192.size a
  hwx0_0 : ∀ i : grid0.Coords, EltTy.bits .f32 = 32 ∨ (Rect.block (s := S50000x192) S5000x192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S192x64.size a ≤ S192x64.size a
  hwx0_1 : ∀ i : grid0.Coords, EltTy.bits .f32 = 32 ∨ (Rect.block (s := S192x64) S192x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S50000x64.size a
  hwx0_5 : ∀ i : grid0.Coords, EltTy.bits .f32 = 32 ∨ (Rect.block (s := S50000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x10000x128.size a ≤ S3x400000x128.size a
  hwx1_0 : ∀ i : grid1.Coords, EltTy.bits .bf16 = 32 ∨ (Rect.block (s := S3x400000x128) S1x10000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x128x64.size a ≤ S3x128x64.size a
  hwx1_1 : ∀ i : grid1.Coords, EltTy.bits .f32 = 32 ∨ (Rect.block (s := S3x128x64) S1x128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x64.size a ≤ S3x1x64.size a
  hwx1_2 : ∀ i : grid1.Coords, EltTy.bits .f32 = 32 ∨ (Rect.block (s := S3x1x64) S1x1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x10000x64.size a ≤ S3x400000x64.size a
  hwx1_3 : ∀ i : grid1.Coords, EltTy.bits .bf16 = 32 ∨ (Rect.block (s := S3x400000x64) S1x10000x64.size (cc1_transform_3 i) (hinb1_3 i)).WholeWords (EltTy.packing .bf16)

variable [Facts₀]

def gather_S200000x64_S400000x1_S400000x64_1_0_n_n_0_1_164 : GatherDims S200000x64 S400000x1 S400000x64 where
  offsetDims := [1]
  collapsedSliceDims := [0]
  operandBatchingDims := []
  startIndicesBatchingDims := []
  startIndexMap := [0]
  indexVectorDim := 1
  sliceSizes := ![1, 64]
  wf := gather_S200000x64_S400000x1_S400000x64_1_0_n_n_0_1_164_wf
def scatter_S50000x64_S400000x1_S400000x64_1_0_0_1 : ScatterDims S50000x64 S400000x1 S400000x64 where
  updateWindowDims := [1]
  insertedWindowDims := [0]
  scatterDimsToOperandDims := [0]
  indexVectorDim := 1
  wf := scatter_S50000x64_S400000x1_S400000x64_1_0_0_1_wf
def dot_S5000x192_S192x64_S5000x64_1_0_0_1_n_n : DotDims S5000x192 S192x64 S5000x64 where
  lhsContracting := [1]
  rhsContracting := [0]
  lhsNonContracting := [0]
  rhsNonContracting := [1]
  lhsBatch := []
  rhsBatch := []
  wf := dot_S5000x192_S192x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S400000x1_S400000x64_1_0_n_n_0_1_164 : GatherDims S50000x64 S400000x1 S400000x64 where
  offsetDims := [1]
  collapsedSliceDims := [0]
  operandBatchingDims := []
  startIndicesBatchingDims := []
  startIndexMap := [0]
  indexVectorDim := 1
  sliceSizes := ![1, 64]
  wf := gather_S50000x64_S400000x1_S400000x64_1_0_n_n_0_1_164_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def scatter_S200000x64_S400000x1_S400000x64_1_0_0_1 : ScatterDims S200000x64 S400000x1 S400000x64 where
  updateWindowDims := [1]
  insertedWindowDims := [0]
  scatterDimsToOperandDims := [0]
  indexVectorDim := 1
  wf := scatter_S200000x64_S400000x1_S400000x64_1_0_0_1_wf
def scatter_S200000x1_S400000x1_S400000x1_1_0_0_1 : ScatterDims S200000x1 S400000x1 S400000x1 where
  updateWindowDims := [1]
  insertedWindowDims := [0]
  scatterDimsToOperandDims := [0]
  indexVectorDim := 1
  wf := scatter_S200000x1_S400000x1_S400000x1_1_0_0_1_wf

abbrev win0_0 : Pipeline.Window sig grid0 :=
  Pipeline.Window.ofSpec (Memref.whole main_v42) S5000x192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S192x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v43) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg9) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v44) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v45) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v82) S1x10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v86) S1x128x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v91) S1x1x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v92) S1x10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S200000x64 : Shape := ⟨2, ![200000, 64]⟩
abbrev S50000x64 : Shape := ⟨2, ![50000, 64]⟩
abbrev S2x400000 : Shape := ⟨2, ![2, 400000]⟩
abbrev S192x64 : Shape := ⟨2, ![192, 64]⟩
abbrev S64 : Shape := ⟨1, ![64]⟩
abbrev S64x64 : Shape := ⟨2, ![64, 64]⟩
abbrev S128x64 : Shape := ⟨2, ![128, 64]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x64 : Shape := ⟨2, ![400000, 64]⟩
abbrev S50000x192 : Shape := ⟨2, ![50000, 192]⟩
abbrev S1x64 : Shape := ⟨2, ![1, 64]⟩
abbrev S400000x128 : Shape := ⟨2, ![400000, 128]⟩
abbrev S200000x1 : Shape := ⟨2, ![200000, 1]⟩
abbrev S1x200000x64 : Shape := ⟨3, ![1, 200000, 64]⟩
abbrev S3x200000x64 : Shape := ⟨3, ![3, 200000, 64]⟩

abbrev nBuf : Space → Nat
  | .hbm => 242
  | .vmem => 0
  | .smem => 0
  | _ => 0

abbrev hbmTy0_0 (i : Nat) : BufTy := match i % 128 with
  | 0 => ⟨S200000x64, .f32⟩
  | 1 => ⟨S200000x64, .f32⟩
  | 2 => ⟨S200000x64, .f32⟩
  | 3 => ⟨S50000x64, .f32⟩
  | 4 => ⟨S2x400000, .i32⟩
  | 5 => ⟨S2x400000, .i32⟩
  | 6 => ⟨S2x400000, .i32⟩
  | 7 => ⟨S192x64, .f32⟩
  | 8 => ⟨S64, .f32⟩
  | 9 => ⟨S64x64, .f32⟩
  | 10 => ⟨S64, .f32⟩
  | 11 => ⟨S128x64, .f32⟩
  | 12 => ⟨S64, .f32⟩
  | 13 => ⟨S128x64, .f32⟩
  | 14 => ⟨S64, .f32⟩
  | 15 => ⟨S128x64, .f32⟩
  | 16 => ⟨S64, .f32⟩
  | 17 => ⟨S1x400000, .i32⟩
  | 18 => ⟨S400000, .i32⟩
  | 19 => ⟨S_, .i32⟩
  | 20 => ⟨S400000, .i32⟩
  | 21 => ⟨S400000, .i1⟩
  | 22 => ⟨S_, .i32⟩
  | 23 => ⟨S400000, .i32⟩
  | 24 => ⟨S400000, .i32⟩
  | 25 => ⟨S400000, .i32⟩
  | 26 => ⟨S400000x1, .i32⟩
  | 27 => ⟨S400000x64, .f32⟩
  | 28 => ⟨S1x400000, .i32⟩
  | 29 => ⟨S400000, .i32⟩
  | 30 => ⟨S_, .f32⟩
  | 31 => ⟨S50000x64, .f32⟩
  | 32 => ⟨S400000x1, .i32⟩
  | 33 => ⟨S50000x64, .f32⟩
  | 34 => ⟨S1x400000, .i32⟩
  | 35 => ⟨S400000, .i32⟩
  | 36 => ⟨S_, .i32⟩
  | 37 => ⟨S400000, .i32⟩
  | 38 => ⟨S400000, .i1⟩
  | 39 => ⟨S_, .i32⟩
  | 40 => ⟨S400000, .i32⟩
  | 41 => ⟨S400000, .i32⟩
  | 42 => ⟨S400000, .i32⟩
  | 43 => ⟨S400000x1, .i32⟩
  | 44 => ⟨S400000x64, .f32⟩
  | 45 => ⟨S1x400000, .i32⟩
  | 46 => ⟨S400000, .i32⟩
  | 47 => ⟨S_, .f32⟩
  | 48 => ⟨S50000x64, .f32⟩
  | 49 => ⟨S400000x1, .i32⟩
  | 50 => ⟨S50000x64, .f32⟩
  | 51 => ⟨S1x400000, .i32⟩
  | 52 => ⟨S400000, .i32⟩
  | 53 => ⟨S_, .i32⟩
  | 54 => ⟨S400000, .i32⟩
  | 55 => ⟨S400000, .i1⟩
  | 56 => ⟨S_, .i32⟩
  | 57 => ⟨S400000, .i32⟩
  | 58 => ⟨S400000, .i32⟩
  | 59 => ⟨S400000, .i32⟩
  | 60 => ⟨S400000x1, .i32⟩
  | 61 => ⟨S400000x64, .f32⟩
  | 62 => ⟨S1x400000, .i32⟩
  | 63 => ⟨S400000, .i32⟩
  | 64 => ⟨S_, .f32⟩
  | 65 => ⟨S50000x64, .f32⟩
  | 66 => ⟨S400000x1, .i32⟩
  | 67 => ⟨S50000x64, .f32⟩
  | 68 => ⟨S50000x192, .f32⟩
  | 69 => ⟨S50000x64, .f32⟩
  | 70 => ⟨S1x64, .f32⟩
  | 71 => ⟨S50000x64, .f32⟩
  | 72 => ⟨S50000x64, .f32⟩
  | 73 => ⟨S50000x64, .f32⟩
  | 74 => ⟨S50000x64, .f32⟩
  | 75 => ⟨S1x64, .f32⟩
  | 76 => ⟨S50000x64, .f32⟩
  | 77 => ⟨S50000x64, .f32⟩
  | 78 => ⟨S50000x64, .f32⟩
  | 79 => ⟨S1x400000, .i32⟩
  | 80 => ⟨S400000, .i32⟩
  | 81 => ⟨S_, .i32⟩
  | 82 => ⟨S400000, .i32⟩
  | 83 => ⟨S400000, .i1⟩
  | 84 => ⟨S_, .i32⟩
  | 85 => ⟨S400000, .i32⟩
  | 86 => ⟨S400000, .i32⟩
  | 87 => ⟨S400000, .i32⟩
  | 88 => ⟨S400000x1, .i32⟩
  | 89 => ⟨S400000x64, .f32⟩
  | 90 => ⟨S1x400000, .i32⟩
  | 91 => ⟨S400000, .i32⟩
  | 92 => ⟨S_, .i32⟩
  | 93 => ⟨S400000, .i32⟩
  | 94 => ⟨S400000, .i1⟩
  | 95 => ⟨S_, .i32⟩
  | 96 => ⟨S400000, .i32⟩
  | 97 => ⟨S400000, .i32⟩
  | 98 => ⟨S400000, .i32⟩
  | 99 => ⟨S400000x1, .i32⟩
  | 100 => ⟨S400000x64, .f32⟩
  | 101 => ⟨S400000x128, .f32⟩
  | 102 => ⟨S400000x64, .f32⟩
  | 103 => ⟨S1x64, .f32⟩
  | 104 => ⟨S400000x64, .f32⟩
  | 105 => ⟨S400000x64, .f32⟩
  | 106 => ⟨S400000x64, .f32⟩
  | 107 => ⟨S400000x64, .f32⟩
  | 108 => ⟨S_, .f32⟩
  | 109 => ⟨S400000x64, .f32⟩
  | 110 => ⟨S400000x64, .f32⟩
  | 111 => ⟨S_, .f32⟩
  | 112 => ⟨S400000x64, .f32⟩
  | 113 => ⟨S400000x64, .f32⟩
  | 114 => ⟨S400000x64, .f32⟩
  | 115 => ⟨S1x400000, .i32⟩
  | 116 => ⟨S400000, .i32⟩
  | 117 => ⟨S_, .f32⟩
  | 118 => ⟨S200000x64, .f32⟩
  | 119 => ⟨S400000x1, .i32⟩
  | 120 => ⟨S200000x64, .f32⟩
  | 121 => ⟨S_, .f32⟩
  | 122 => ⟨S400000x1, .f32⟩
  | 123 => ⟨S_, .f32⟩
  | 124 => ⟨S200000x1, .f32⟩
  | 125 => ⟨S400000x1, .i32⟩
  | 126 => ⟨S200000x1, .f32⟩
  | 127 => ⟨S_, .f32⟩
  | _ => ⟨S200000x64, .f32⟩

abbrev hbmTy0_1 (i : Nat) : BufTy := match i % 128 with
  | 0 => ⟨S200000x1, .f32⟩
  | 1 => ⟨S200000x1, .f32⟩
  | 2 => ⟨S200000x64, .f32⟩
  | 3 => ⟨S200000x64, .f32⟩
  | 4 => ⟨S1x400000, .i32⟩
  | 5 => ⟨S400000, .i32⟩
  | 6 => ⟨S_, .i32⟩
  | 7 => ⟨S400000, .i32⟩
  | 8 => ⟨S400000, .i1⟩
  | 9 => ⟨S_, .i32⟩
  | 10 => ⟨S400000, .i32⟩
  | 11 => ⟨S400000, .i32⟩
  | 12 => ⟨S400000, .i32⟩
  | 13 => ⟨S400000x1, .i32⟩
  | 14 => ⟨S400000x64, .f32⟩
  | 15 => ⟨S1x400000, .i32⟩
  | 16 => ⟨S400000, .i32⟩
  | 17 => ⟨S_, .i32⟩
  | 18 => ⟨S400000, .i32⟩
  | 19 => ⟨S400000, .i1⟩
  | 20 => ⟨S_, .i32⟩
  | 21 => ⟨S400000, .i32⟩
  | 22 => ⟨S400000, .i32⟩
  | 23 => ⟨S400000, .i32⟩
  | 24 => ⟨S400000x1, .i32⟩
  | 25 => ⟨S400000x64, .f32⟩
  | 26 => ⟨S400000x128, .f32⟩
  | 27 => ⟨S400000x64, .f32⟩
  | 28 => ⟨S1x64, .f32⟩
  | 29 => ⟨S400000x64, .f32⟩
  | 30 => ⟨S400000x64, .f32⟩
  | 31 => ⟨S400000x64, .f32⟩
  | 32 => ⟨S400000x64, .f32⟩
  | 33 => ⟨S_, .f32⟩
  | 34 => ⟨S400000x64, .f32⟩
  | 35 => ⟨S400000x64, .f32⟩
  | 36 => ⟨S_, .f32⟩
  | 37 => ⟨S400000x64, .f32⟩
  | 38 => ⟨S400000x64, .f32⟩
  | 39 => ⟨S400000x64, .f32⟩
  | 40 => ⟨S1x400000, .i32⟩
  | 41 => ⟨S400000, .i32⟩
  | 42 => ⟨S_, .f32⟩
  | 43 => ⟨S200000x64, .f32⟩
  | 44 => ⟨S400000x1, .i32⟩
  | 45 => ⟨S200000x64, .f32⟩
  | 46 => ⟨S_, .f32⟩
  | 47 => ⟨S400000x1, .f32⟩
  | 48 => ⟨S_, .f32⟩
  | 49 => ⟨S200000x1, .f32⟩
  | 50 => ⟨S400000x1, .i32⟩
  | 51 => ⟨S200000x1, .f32⟩
  | 52 => ⟨S_, .f32⟩
  | 53 => ⟨S200000x1, .f32⟩
  | 54 => ⟨S200000x1, .f32⟩
  | 55 => ⟨S200000x64, .f32⟩
  | 56 => ⟨S200000x64, .f32⟩
  | 57 => ⟨S1x400000, .i32⟩
  | 58 => ⟨S400000, .i32⟩
  | 59 => ⟨S_, .i32⟩
  | 60 => ⟨S400000, .i32⟩
  | 61 => ⟨S400000, .i1⟩
  | 62 => ⟨S_, .i32⟩
  | 63 => ⟨S400000, .i32⟩
  | 64 => ⟨S400000, .i32⟩
  | 65 => ⟨S400000, .i32⟩
  | 66 => ⟨S400000x1, .i32⟩
  | 67 => ⟨S400000x64, .f32⟩
  | 68 => ⟨S1x400000, .i32⟩
  | 69 => ⟨S400000, .i32⟩
  | 70 => ⟨S_, .i32⟩
  | 71 => ⟨S400000, .i32⟩
  | 72 => ⟨S400000, .i1⟩
  | 73 => ⟨S_, .i32⟩
  | 74 => ⟨S400000, .i32⟩
  | 75 => ⟨S400000, .i32⟩
  | 76 => ⟨S400000, .i32⟩
  | 77 => ⟨S400000x1, .i32⟩
  | 78 => ⟨S400000x64, .f32⟩
  | 79 => ⟨S400000x128, .f32⟩
  | 80 => ⟨S400000x64, .f32⟩
  | 81 => ⟨S1x64, .f32⟩
  | 82 => ⟨S400000x64, .f32⟩
  | 83 => ⟨S400000x64, .f32⟩
  | 84 => ⟨S400000x64, .f32⟩
  | 85 => ⟨S400000x64, .f32⟩
  | 86 => ⟨S_, .f32⟩
  | 87 => ⟨S400000x64, .f32⟩
  | 88 => ⟨S400000x64, .f32⟩
  | 89 => ⟨S_, .f32⟩
  | 90 => ⟨S400000x64, .f32⟩
  | 91 => ⟨S400000x64, .f32⟩
  | 92 => ⟨S400000x64, .f32⟩
  | 93 => ⟨S1x400000, .i32⟩
  | 94 => ⟨S400000, .i32⟩
  | 95 => ⟨S_, .f32⟩
  | 96 => ⟨S200000x64, .f32⟩
  | 97 => ⟨S400000x1, .i32⟩
  | 98 => ⟨S200000x64, .f32⟩
  | 99 => ⟨S_, .f32⟩
  | 100 => ⟨S400000x1, .f32⟩
  | 101 => ⟨S_, .f32⟩
  | 102 => ⟨S200000x1, .f32⟩
  | 103 => ⟨S400000x1, .i32⟩
  | 104 => ⟨S200000x1, .f32⟩
  | 105 => ⟨S_, .f32⟩
  | 106 => ⟨S200000x1, .f32⟩
  | 107 => ⟨S200000x1, .f32⟩
  | 108 => ⟨S200000x64, .f32⟩
  | 109 => ⟨S200000x64, .f32⟩
  | 110 => ⟨S1x200000x64, .f32⟩
  | 111 => ⟨S1x200000x64, .f32⟩
  | 112 => ⟨S1x200000x64, .f32⟩
  | 113 => ⟨S3x200000x64, .f32⟩
  | _ => ⟨S200000x64, .f32⟩

abbrev hbmTy (i : Nat) : BufTy := match i / 128 with
  | 0 => hbmTy0_0 i
  | 1 => hbmTy0_1 i
  | _ => ⟨S200000x64, .f32⟩

abbrev bufTy : (tb : Table) → Fin (tcTables nBuf tb) → BufTy
  | .hbm, ⟨i, _⟩ => hbmTy i
  | _, _ => ⟨S200000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_c : Ref sig .tc := ⟨.hbm, 19, rfl⟩
abbrev main_v2 : Ref sig .tc := ⟨.hbm, 20, rfl⟩
abbrev main_v3 : Ref sig .tc := ⟨.hbm, 21, rfl⟩
abbrev main_c_0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_c_1 : Ref sig .tc := ⟨.hbm, 36, rfl⟩
abbrev main_v16 : Ref sig .tc := ⟨.hbm, 37, rfl⟩
abbrev main_v17 : Ref sig .tc := ⟨.hbm, 38, rfl⟩
abbrev main_c_2 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_3 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_c_4 : Ref sig .tc := ⟨.hbm, 53, rfl⟩
abbrev main_v30 : Ref sig .tc := ⟨.hbm, 54, rfl⟩
abbrev main_v31 : Ref sig .tc := ⟨.hbm, 55, rfl⟩
abbrev main_c_5 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_6 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_c_7 : Ref sig .tc := ⟨.hbm, 81, rfl⟩
abbrev main_v55 : Ref sig .tc := ⟨.hbm, 82, rfl⟩
abbrev main_v56 : Ref sig .tc := ⟨.hbm, 83, rfl⟩
abbrev main_c_8 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_c_9 : Ref sig .tc := ⟨.hbm, 92, rfl⟩
abbrev main_v64 : Ref sig .tc := ⟨.hbm, 93, rfl⟩
abbrev main_v65 : Ref sig .tc := ⟨.hbm, 94, rfl⟩
abbrev main_c_10 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_11 : Ref sig .tc := ⟨.hbm, 108, rfl⟩
abbrev main_v78 : Ref sig .tc := ⟨.hbm, 109, rfl⟩
abbrev main_v79 : Ref sig .tc := ⟨.hbm, 110, rfl⟩
abbrev main_cst_12 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_cst_13 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_cst_14 : Ref sig .tc := ⟨.hbm, 121, rfl⟩
abbrev main_v88 : Ref sig .tc := ⟨.hbm, 122, rfl⟩
abbrev main_cst_15 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_cst_16 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_c_17 : Ref sig .tc := ⟨.hbm, 134, rfl⟩
abbrev main_v98 : Ref sig .tc := ⟨.hbm, 135, rfl⟩
abbrev main_v99 : Ref sig .tc := ⟨.hbm, 136, rfl⟩
abbrev main_c_18 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_c_19 : Ref sig .tc := ⟨.hbm, 145, rfl⟩
abbrev main_v107 : Ref sig .tc := ⟨.hbm, 146, rfl⟩
abbrev main_v108 : Ref sig .tc := ⟨.hbm, 147, rfl⟩
abbrev main_c_20 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_cst_21 : Ref sig .tc := ⟨.hbm, 161, rfl⟩
abbrev main_v121 : Ref sig .tc := ⟨.hbm, 162, rfl⟩
abbrev main_v122 : Ref sig .tc := ⟨.hbm, 163, rfl⟩
abbrev main_cst_22 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_cst_23 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_cst_24 : Ref sig .tc := ⟨.hbm, 174, rfl⟩
abbrev main_v131 : Ref sig .tc := ⟨.hbm, 175, rfl⟩
abbrev main_cst_25 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_cst_26 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_c_27 : Ref sig .tc := ⟨.hbm, 187, rfl⟩
abbrev main_v141 : Ref sig .tc := ⟨.hbm, 188, rfl⟩
abbrev main_v142 : Ref sig .tc := ⟨.hbm, 189, rfl⟩
abbrev main_c_28 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_c_29 : Ref sig .tc := ⟨.hbm, 198, rfl⟩
abbrev main_v150 : Ref sig .tc := ⟨.hbm, 199, rfl⟩
abbrev main_v151 : Ref sig .tc := ⟨.hbm, 200, rfl⟩
abbrev main_c_30 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_cst_31 : Ref sig .tc := ⟨.hbm, 214, rfl⟩
abbrev main_v164 : Ref sig .tc := ⟨.hbm, 215, rfl⟩
abbrev main_v165 : Ref sig .tc := ⟨.hbm, 216, rfl⟩
abbrev main_cst_32 : Ref sig .tc := ⟨.hbm, 217, rfl⟩
abbrev main_v166 : Ref sig .tc := ⟨.hbm, 218, rfl⟩
abbrev main_v167 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩
abbrev main_cst_33 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_cst_34 : Ref sig .tc := ⟨.hbm, 227, rfl⟩
abbrev main_v174 : Ref sig .tc := ⟨.hbm, 228, rfl⟩
abbrev main_cst_35 : Ref sig .tc := ⟨.hbm, 229, rfl⟩
abbrev main_v175 : Ref sig .tc := ⟨.hbm, 230, rfl⟩
abbrev main_v176 : Ref sig .tc := ⟨.hbm, 231, rfl⟩
abbrev main_v177 : Ref sig .tc := ⟨.hbm, 232, rfl⟩
abbrev main_cst_36 : Ref sig .tc := ⟨.hbm, 233, rfl⟩
abbrev main_v178 : Ref sig .tc := ⟨.hbm, 234, rfl⟩
abbrev main_v179 : Ref sig .tc := ⟨.hbm, 235, rfl⟩
abbrev main_v180 : Ref sig .tc := ⟨.hbm, 236, rfl⟩
abbrev main_v181 : Ref sig .tc := ⟨.hbm, 237, rfl⟩
abbrev main_v182 : Ref sig .tc := ⟨.hbm, 238, rfl⟩
abbrev main_v183 : Ref sig .tc := ⟨.hbm, 239, rfl⟩
abbrev main_v184 : Ref sig .tc := ⟨.hbm, 240, rfl⟩
abbrev main_v185 : Ref sig .tc := ⟨.hbm, 241, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  bcast_S_S400000 : S_.BroadcastsInDim S400000 (![] : Fin 0 → Fin S400000.rank)
  bcast_S400000_S400000x1_0 : S400000.BroadcastsInDim S400000x1 (![0] : Fin 1 → Fin S400000x1.rank)
  slices_S2x400000_S1x400000_1_0 : S2x400000.Slices ![1, 0] S1x400000
  bcast_S_S50000x64 : S_.BroadcastsInDim S50000x64 (![] : Fin 0 → Fin S50000x64.rank)
  concatenates_S50000x64_S50000x64_S50000x64_S50000x192_d1 : Shape.Concatenates [S50000x64, S50000x64, S50000x64] S50000x192 1
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  concatenates_S400000x64_S400000x64_S400000x128_d1 : Shape.Concatenates [S400000x64, S400000x64] S400000x128 1
  bcast_S1x64_S400000x64_0_1 : S1x64.BroadcastsInDim S400000x64 (![0, 1] : Fin 2 → Fin S400000x64.rank)
  bcast_S_S400000x64 : S_.BroadcastsInDim S400000x64 (![] : Fin 0 → Fin S400000x64.rank)
  bcast_S_S200000x64 : S_.BroadcastsInDim S200000x64 (![] : Fin 0 → Fin S200000x64.rank)
  bcast_S_S400000x1 : S_.BroadcastsInDim S400000x1 (![] : Fin 0 → Fin S400000x1.rank)
  bcast_S_S200000x1 : S_.BroadcastsInDim S200000x1 (![] : Fin 0 → Fin S200000x1.rank)
  bcast_S200000x1_S200000x64_0_1 : S200000x1.BroadcastsInDim S200000x64 (![0, 1] : Fin 2 → Fin S200000x64.rank)
  bcast_S200000x64_S1x200000x64_1_2 : S200000x64.BroadcastsInDim S1x200000x64 (![1, 2] : Fin 2 → Fin S1x200000x64.rank)
  concatenates_S1x200000x64_S1x200000x64_S1x200000x64_S3x200000x64_d0 : Shape.Concatenates [S1x200000x64, S1x200000x64, S1x200000x64] S3x200000x64 0
  gather_S200000x64_S400000x1_S400000x64_1_0_n_n_0_1_164_wf : GatherDims.WF S200000x64 S400000x1 S400000x64 [1] [0] [] [0] [] 1 ![1, 64]
  scatter_S50000x64_S400000x1_S400000x64_1_0_0_1_wf : ScatterDims.WF S50000x64 S400000x1 S400000x64 [1] [0] [0] 1
  dot_S50000x192_S192x64_S50000x64_1_0_0_1_n_n_wf : DotDims.WF S50000x192 S192x64 S50000x64 [1] [0] [0] [1] [] []
  dot_S50000x64_S64x64_S50000x64_1_0_0_1_n_n_wf : DotDims.WF S50000x64 S64x64 S50000x64 [1] [0] [0] [1] [] []
  gather_S50000x64_S400000x1_S400000x64_1_0_n_n_0_1_164_wf : GatherDims.WF S50000x64 S400000x1 S400000x64 [1] [0] [] [0] [] 1 ![1, 64]
  dot_S400000x128_S128x64_S400000x64_1_0_0_1_n_n_wf : DotDims.WF S400000x128 S128x64 S400000x64 [1] [0] [0] [1] [] []
  scatter_S200000x64_S400000x1_S400000x64_1_0_0_1_wf : ScatterDims.WF S200000x64 S400000x1 S400000x64 [1] [0] [0] 1
  scatter_S200000x1_S400000x1_S400000x1_1_0_0_1_wf : ScatterDims.WF S200000x1 S400000x1 S400000x1 [1] [0] [0] 1

variable [Facts₀]

def gather_S200000x64_S400000x1_S400000x64_1_0_n_n_0_1_164 : GatherDims S200000x64 S400000x1 S400000x64 where
  offsetDims := [1]
  collapsedSliceDims := [0]
  operandBatchingDims := []
  startIndicesBatchingDims := []
  startIndexMap := [0]
  indexVectorDim := 1
  sliceSizes := ![1, 64]
  wf := gather_S200000x64_S400000x1_S400000x64_1_0_n_n_0_1_164_wf
def scatter_S50000x64_S400000x1_S400000x64_1_0_0_1 : ScatterDims S50000x64 S400000x1 S400000x64 where
  updateWindowDims := [1]
  insertedWindowDims := [0]
  scatterDimsToOperandDims := [0]
  indexVectorDim := 1
  wf := scatter_S50000x64_S400000x1_S400000x64_1_0_0_1_wf
def dot_S50000x192_S192x64_S50000x64_1_0_0_1_n_n : DotDims S50000x192 S192x64 S50000x64 where
  lhsContracting := [1]
  rhsContracting := [0]
  lhsNonContracting := [0]
  rhsNonContracting := [1]
  lhsBatch := []
  rhsBatch := []
  wf := dot_S50000x192_S192x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S400000x1_S400000x64_1_0_n_n_0_1_164 : GatherDims S50000x64 S400000x1 S400000x64 where
  offsetDims := [1]
  collapsedSliceDims := [0]
  operandBatchingDims := []
  startIndicesBatchingDims := []
  startIndexMap := [0]
  indexVectorDim := 1
  sliceSizes := ![1, 64]
  wf := gather_S50000x64_S400000x1_S400000x64_1_0_n_n_0_1_164_wf
def dot_S400000x128_S128x64_S400000x64_1_0_0_1_n_n : DotDims S400000x128 S128x64 S400000x64 where
  lhsContracting := [1]
  rhsContracting := [0]
  lhsNonContracting := [0]
  rhsNonContracting := [1]
  lhsBatch := []
  rhsBatch := []
  wf := dot_S400000x128_S128x64_S400000x64_1_0_0_1_n_n_wf
def scatter_S200000x64_S400000x1_S400000x64_1_0_0_1 : ScatterDims S200000x64 S400000x1 S400000x64 where
  updateWindowDims := [1]
  insertedWindowDims := [0]
  scatterDimsToOperandDims := [0]
  indexVectorDim := 1
  wf := scatter_S200000x64_S400000x1_S400000x64_1_0_0_1_wf
def scatter_S200000x1_S400000x1_S400000x1_1_0_0_1 : ScatterDims S200000x1 S400000x1 S400000x1 where
  updateWindowDims := [1]
  insertedWindowDims := [0]
  scatterDimsToOperandDims := [0]
  indexVectorDim := 1
  wf := scatter_S200000x1_S400000x1_S400000x1_1_0_0_1_wf

class Facts : Prop extends Facts₀ where

variable [Facts]
-- ==== Proof.NodeMlp.lean ====
/-
  The node network's launch: ten row tiles of 5000 nodes, each computing
  tanh(tanh(X·W1 + b1)·W2 + b2) for its rows of the aggregated features X (192 columns) and storing
  the 5000×64 result tile. Stated at any contents `V` of the core's buffers at the launch's entry.
-/
import proofs.«154189_j4853313045170_2_alg».proof.Proof.Gen.KernelIdeal.Launch
import proofs.«154189_j4853313045170_2_alg».proof.Proof.Gen.KernelIdeal.Skeleton
import proofs.«154189_j4853313045170_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.NodeMlp

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at tile `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every tile, fetched there or not, for any proof
    data whose array is `V`'s and whose body leaves the block in place: where the window is not fetched its block
    index has not moved, so the buffer still holds the block of the tile before, which is this tile's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every tile, fetched there or not, for any proof
    data whose array is `V`'s and whose body leaves the block in place: where the window is not fetched its block
    index has not moved, so the buffer still holds the block of the tile before, which is this tile's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every tile, fetched there or not, for any proof
    data whose array is `V`'s and whose body leaves the block in place: where the window is not fetched its block
    index has not moved, so the buffer still holds the block of the tile before, which is this tile's. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every tile, fetched there or not, for any proof
    data whose array is `V`'s and whose body leaves the block in place: where the window is not fetched its block
    index has not moved, so the buffer still holds the block of the tile before, which is this tile's. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every tile, fetched there or not, for any proof
    data whose array is `V`'s and whose body leaves the block in place: where the window is not fetched its block
    index has not moved, so the buffer still holds the block of the tile before, which is this tile's. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

abbrev rX : Rect S5000x192 := Rect.unit (s := S5000x192) ![0, 0] S5000x192.size inb_S5000x192_S5000x192_0_0
abbrev rW1 : Rect S192x64 := Rect.unit (s := S192x64) ![0, 0] S192x64.size inb_S192x64_S192x64_0_0
abbrev rB : Rect S1x64 := Rect.unit (s := S1x64) ![0, 0] S1x64.size inb_S1x64_S1x64_0_0
abbrev rW2 : Rect S64x64 := Rect.unit (s := S64x64) ![0, 0] S64x64.size inb_S64x64_S64x64_0_0
abbrev rO : Rect S5000x64 := Rect.unit (s := S5000x64) ![0, 0] S5000x64.size inb_S5000x64_S5000x64_0_0

/-- The result tile after the body: its one store, of the two-layer network applied to the loaded tiles. -/
def out0_5 (x0 : Vec F S5000x192 .f32) (x1 : Vec F S192x64 .f32) (x2 : Vec F S1x64 .f32) (x3 : Vec F S64x64 .f32) (x4 : Vec F S1x64 .f32) :
    Vec F S5000x64 .f32 :=
  View.canon [⟨rO, k0_pay1 (View.ld x0 rX) (View.ld x1 rW1) (View.ld x2 rB) (View.ld x3 rW2) (View.ld x4 rB)⟩]

/-- The one store is of the whole tile, so it covers it. -/
theorem cover0_5 (p0 : Vec F S5000x64 .f32) (y : S5000x64.Idx) :
    ∃ pc ∈ ([⟨rO, p0⟩] : List (View.Piece (Elt F) S5000x64 .f32)), y ∈ pc.1.set :=
  View.cover_of_tiled [⟨rO, p0⟩] S5000x64.size (by rfl) y

set_option maxHeartbeats 1000000 in
/-- The body on whole staging buffers, the five inputs' at read contents `x0 … x4` and the result's at anything, runs to
    the continuation holding the inputs' as they were and the result's at `out0_5` of them. The body reads the result
    buffer once before its store; the value read is not used. -/
theorem sound_kernel0 (c : Dev nD) (E : Set ℕ) (i : grid0.Coords)
    (arg1 : Memref sig .tc .vmem S5000x192 .f32) (harg1 : arg1.IsWhole) (arg2 : Memref sig .tc .vmem S192x64 .f32) (harg2 : arg2.IsWhole)
    (arg3 : Memref sig .tc .vmem S1x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S5000x64 .f32) (harg6 : arg6.IsWhole)
    (x0 : Vec F S5000x192 .f32) (x1 : Vec F S192x64 .f32) (x2 : Vec F S1x64 .f32) (x3 : Vec F S64x64 .f32) (x4 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__nexus_mlp_kernel i arg1 harg1 arg2 harg2 arg3 harg3 arg4 harg4 arg5 harg5 arg6 harg6) K := by
  simp only [cc0__nexus_mlp_kernel_eq_skeleton]; unfold cc0__nexus_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-- The proof data of the launch on core `c`: every input tile stays as fetched, the result tile holds `out0_5` of them. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_5 (c : Dev nD) (t : Fin cfg0.N) : (dat0 V c).after 5 t
    = out0_5 (iblk0 V c 0 t) (iblk0 V c 1 t) (iblk0 V c 2 t) (iblk0 V c 3 t) (iblk0 V c 4 t) := by dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]

/-- Each input's current staging buffer holds its block at every tile, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at tile `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any tile: the inputs' buffers hold their blocks, so `sound_kernel0` applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body's obligation at every tile. -/
theorem body_obligation0 (c : Dev nD) : BodyObligation (dat0 (F := F) V c) (defs₀ (F := F)) Variants.none () Set.univ := fun t => by
  rw [bigSep_W0, bigSep_W0]
  exact sound_body0 V c t

end Cert.KernelIdeal.NodeMlp

end
-- ==== Proof.EdgeGate.lean ====
/-
  The edge gate's launch: for each of the three planes and each tile of 10000 edges,
  sigmoid(cat·W + b) ⊙ cat[:, 64:], where a row of cat is an edge's plane feature beside its node feature.
  Stated at any contents `V` of the core's buffers at the launch's entry.
-/
import proofs.«154189_j4853313045170_2_alg».proof.Proof.Gen.KernelIdeal.Launch
import proofs.«154189_j4853313045170_2_alg».proof.Proof.Gen.KernelIdeal.Skeleton
import proofs.«154189_j4853313045170_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.EdgeGate

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place: unfetched, the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place: unfetched, the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev rC : Rect S1x10000x128 := Rect.unit (s := S1x10000x128) ![0, 0, 0] S1x10000x128.size inb_S1x10000x128_S1x10000x128_0_0_0
abbrev rW : Rect S1x128x64 := Rect.unit (s := S1x128x64) ![0, 0, 0] S1x128x64.size inb_S1x128x64_S1x128x64_0_0_0
abbrev rB : Rect S1x1x64 := Rect.unit (s := S1x1x64) ![0, 0, 0] S1x1x64.size inb_S1x1x64_S1x1x64_0_0_0
abbrev rO : Rect S1x10000x64 := Rect.unit (s := S1x10000x64) ![0, 0, 0] S1x10000x64.size inb_S1x10000x64_S1x10000x64_0_0_0

/-- The result tile after the body: its one store, of the gated node features of the loaded tiles. -/
def out1_3 (x0 : Vec F S1x10000x128 .bf16) (x1 : Vec F S1x128x64 .f32) (x2 : Vec F S1x1x64 .f32) : Vec F S1x10000x64 .bf16 :=
  View.canon [⟨rO, k1_pay1 (View.ld x0 rC) (View.ld x1 rW) (View.ld x2 rB)⟩]

/-- The one store tiles the result tile, so it covers it. -/
theorem cover1_3 (p0 : Vec F S1x10000x64 .bf16) (y : S1x10000x64.Idx) :
    ∃ pc ∈ ([⟨rO, p0⟩] : List (View.Piece (Elt F) S1x10000x64 .bf16)), y ∈ pc.1.set :=
  View.cover_of_tiled [⟨rO, p0⟩] S1x10000x64.size (by rfl) y

set_option maxHeartbeats 1000000 in
/-- The kernel body on whole staging memrefs, the inputs' at read contents and the result's at anything, runs to
    the continuation holding the inputs' as they were and the result's at `out1_3` of the inputs'. -/
theorem sound_kernel1 (c : Dev nD) (E : Set ℕ) (i : grid1.Coords)
    (arg0 : Memref sig .tc .vmem S1x10000x128 .bf16) (harg0 : arg0.IsWhole)
    (arg1 : Memref sig .tc .vmem S1x128x64 .f32) (harg1 : arg1.IsWhole)
    (arg2 : Memref sig .tc .vmem S1x1x64 .f32) (harg2 : arg2.IsWhole)
    (arg3 : Memref sig .tc .vmem S1x10000x64 .bf16) (harg3 : arg3.IsWhole)
    (x0 : Vec F S1x10000x128 .bf16) (x1 : Vec F S1x128x64 .f32) (x2 : Vec F S1x1x64 .f32) (K : PUnit → sProp 𝕄) :
    iprop(owns (c : Thread nD τ) arg0 fullShare x0 ∗ owns (c : Thread nD τ) arg1 fullShare x1
        ∗ owns (c : Thread nD τ) arg2 fullShare x2 ∗ (∃ d, owns (c : Thread nD τ) arg3 fullShare d)
        ∗ (iprop(owns (c : Thread nD τ) arg0 fullShare x0 ∗ owns (c : Thread nD τ) arg1 fullShare x1
            ∗ owns (c : Thread nD τ) arg2 fullShare x2 ∗ owns (c : Thread nD τ) arg3 fullShare (out1_3 x0 x1 x2)) -∗ K ⟨⟩))
      ⊢ wp frame (wpE (defs₀ (F := F)) Variants.none c none) E (cc1__gating_kernel i arg0 harg0 arg1 harg1 arg2 harg2 arg3 harg3) K := by
  simp only [cc1__gating_kernel_eq_skeleton]; unfold cc1__gating_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of the launch on core `c`: every input tile stays as fetched, the result tile holds `out1_3` of them. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_3 (c : Dev nD) (t : Fin cfg1.N) : (dat1 V c).after 3 t
    = out1_3 (iblk1 V c 0 t) (iblk1 V c 1 t) (iblk1 V c 2 t) := by dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation at every point. -/
theorem body_obligation1 (c : Dev nD) : BodyObligation (dat1 (F := F) V c) (defs₀ (F := F)) Variants.none () Set.univ := fun t => by
  rw [bigSep_W1, bigSep_W1]
  exact sound_body1 V c t

end Cert.KernelIdeal.EdgeGate

end
-- ==== Proof.Whole.lean ====
/-
  The whole run of @main: three stretches of host operations around the two launches (the node network, the
  edge gate). The contents of the core's buffers at each boundary are a fold from the launch memory: a stretch
  applies its operations; a launch replaces its arrays by what its write-backs leave. Every weakly fair
  execution terminates with every unscoped buffer at the last boundary's contents; the argument arrays are
  written by nothing on the way, so they end as launched.
-/
import proofs.«154189_j4853313045170_2_alg».proof.Proof.NodeMlp
import proofs.«154189_j4853313045170_2_alg».proof.Proof.EdgeGate
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Whole

open Cert.KernelIdeal.Gen Cert.KernelIdeal.NodeMlp Cert.KernelIdeal.EdgeGate
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first stretch (the node network's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the node network's exit. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch (the edge gate's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the edge gate's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the last stretch: the contents @main returns with. -/
abbrev W5 : Dev nD → Valuation τ sig (Elt F) := fun c => StableHlo.after hostOps2 (W4 m ρ c)

/-! ## What the stretches write: never an argument array -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor

/-- The references the first stretch's operations write, in order. -/
abbrev written0 : List (Ref sig .tc) := [main_v0, main_v1, main_c, main_v2, main_v3, main_c_0, main_v4, main_v5, main_v6, main_v7, main_v8, main_v9, main_v10, main_cst, main_v11, main_v12, main_v13, main_v14, main_v15, main_c_1, main_v16, main_v17, main_c_2, main_v18, main_v19, main_v20, main_v21, main_v22, main_v23, main_v24, main_cst_3, main_v25, main_v26, main_v27, main_v28, main_v29, main_c_4, main_v30, main_v31, main_c_5, main_v32, main_v33, main_v34, main_v35, main_v36, main_v37, main_v38, main_cst_6, main_v39, main_v40, main_v41, main_v42, main_v43, main_v44]
/-- The references the second stretch's operations write, in order. -/
abbrev written1 : List (Ref sig .tc) := [main_v46, main_v47, main_c_7, main_v48, main_v49, main_c_8, main_v50, main_v51, main_v52, main_v53, main_v54, main_v55, main_v56, main_c_9, main_v57, main_v58, main_c_10, main_v59, main_v60, main_v61, main_v62, main_v63, main_v64, main_v65, main_c_11, main_v66, main_v67, main_c_12, main_v68, main_v69, main_v70, main_v71, main_v72, main_v73, main_v74, main_v75, main_v76, main_v77, main_v78, main_v79, main_v80, main_v81, main_v82, main_v83, main_v84, main_v85, main_v86, main_v87, main_v88, main_v89, main_v90, main_v91]
/-- The references the last stretch's operations write, in order. -/
abbrev written2 : List (Ref sig .tc) := [main_v93, main_v94, main_v95, main_v96, main_v97, main_cst_13, main_v98, main_v99, main_v100, main_cst_14, main_v101, main_v102, main_v103, main_cst_15, main_v104, main_v105, main_v106, main_cst_16, main_v107, main_v108, main_v109, main_v110, main_v111, main_v112, main_v113, main_v114, main_v115, main_cst_17, main_v116, main_v117, main_v118, main_cst_18, main_v119, main_v120, main_v121, main_cst_19, main_v122, main_v123, main_v124, main_cst_20, main_v125, main_v126, main_v127, main_v128, main_v129, main_v130, main_v131, main_v132, main_v133, main_cst_21, main_v134, main_v135, main_v136, main_cst_22, main_v137, main_v138, main_v139, main_cst_23, main_v140, main_v141, main_v142, main_cst_24, main_v143, main_v144, main_v145, main_v146, main_v147, main_v148, main_v149, main_v150]
theorem hostOps0_writes : (hostOps0 : List (HloOp τ sig (Elt F))).Forall fun op => op.writes ⊆ (written0.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem hostOps1_writes : (hostOps1 : List (HloOp τ sig (Elt F))).Forall fun op => op.writes ⊆ (written1.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem hostOps2_writes : (hostOps2 : List (HloOp τ sig (Elt F))).Forall fun op => op.writes ⊆ (written2.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- A reference that no stretch writes and that is no array of either launch ends as launched. -/
theorem W5_untouched (c : Dev nD) (r : Ref sig .tc) (h0 : r ∉ written0) (h1 : r ∉ written1) (h2 : r ∉ written2)
    (hn0 : ∀ w, Pipeline.arrRef spec0 w ≠ r) (hn1 : ∀ w, Pipeline.arrRef spec1 w ≠ r) :
    W5 m ρ c (Proc.devRef .tc r) = m ((c : Thread nD τ).loc r) :=
  calc W5 m ρ c (Proc.devRef .tc r)
    _ = W4 m ρ c (Proc.devRef .tc r) := StableHlo.after_of_writes_sub hostOps2 _ hostOps2_writes h2
    _ = W3 m ρ c (Proc.devRef .tc r) := W4_of_ne m ρ c r hn1
    _ = W2 m ρ c (Proc.devRef .tc r) := StableHlo.after_of_writes_sub hostOps1 _ hostOps1_writes h1
    _ = W1 m ρ c (Proc.devRef .tc r) := W2_of_ne m ρ c r hn0
    _ = W0 m ρ c (Proc.devRef .tc r) := StableHlo.after_of_writes_sub hostOps0 _ hostOps0_writes h0
    _ = m ((c : Thread nD τ).loc r) := rfl

/-- The same for an INPUT array of the node network (a weight matrix): the launch hands it back as entered. -/
theorem W5_input0 (c : Dev nD) (w : Fin cfg0.W) (hw : (cfg0.win w).isOut = false) (h0 : Pipeline.arrRef spec0 w ∉ written0)
    (h1 : Pipeline.arrRef spec0 w ∉ written1) (h2 : Pipeline.arrRef spec0 w ∉ written2)
    (hn1 : ∀ w', Pipeline.arrRef spec1 w' ≠ Pipeline.arrRef spec0 w) :
    W5 m ρ c (Proc.devRef .tc (Pipeline.arrRef spec0 w)) = m ((c : Thread nD τ).loc (Pipeline.arrRef spec0 w)) :=
  calc W5 m ρ c (Proc.devRef .tc (Pipeline.arrRef spec0 w))
    _ = W4 m ρ c (Proc.devRef .tc (Pipeline.arrRef spec0 w)) := StableHlo.after_of_writes_sub hostOps2 _ hostOps2_writes h2
    _ = W3 m ρ c (Proc.devRef .tc (Pipeline.arrRef spec0 w)) := W4_of_ne m ρ c _ hn1
    _ = W2 m ρ c (Proc.devRef .tc (Pipeline.arrRef spec0 w)) := StableHlo.after_of_writes_sub hostOps1 _ hostOps1_writes h1
    _ = W1 m ρ c (Proc.devRef .tc (Pipeline.arrRef spec0 w)) := (W2_arr m ρ c w).trans (((dat0 (V1 m ρ) c).arrAt_in w hw _).trans (A_eq0 (V1 m ρ) c w))
    _ = W0 m ρ c (Proc.devRef .tc (Pipeline.arrRef spec0 w)) := StableHlo.after_of_writes_sub hostOps0 _ hostOps0_writes h0
    _ = m ((c : Thread nD τ).loc (Pipeline.arrRef spec0 w)) := rfl

/-! ## The proof data family and the thread state -/

abbrev adm : (p : Fin 2) → (pcfgs (F := F) p).Adm := fun p => (cfgs p).toPCfg_adm
/-- Each launch's proof data at its entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers: the core's generator register at some state and its debts, none. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last boundary's contents. -/
abbrev Tₙ (c : Dev nD) : sProp 𝕄 := iprop(StableHlo.held (c : Thread nD τ) (Pipeline.ucRefs τ sig) (W5 m ρ c) ∗ ∃ r, prngReg c r)

/-! ## The launches as segments -/

set_option backward.isDefEq.respectTransparency.types false in
/-- Launch 0 over the thread state: entered from every unscoped buffer at its entry contents, left with its
    arrays at what the write-backs leave and every other buffer as entered; the generator register goes into the
    launch's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state: entered from every unscoped buffer at its entry contents, left with its
    arrays at what the write-backs leave and every other buffer as entered; the generator register goes into the
    launch's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
theorem main_run (c : Dev nD) : main (F := F) c = Pipeline.Seg.run (segs m ρ) := (main_chain c).trans (by chain_rfl)

set_option backward.isDefEq.respectTransparency.types false in
/-- Every weakly fair execution of @main terminates, nothing faulting, with every unscoped buffer of every core at
    the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show (iprop(StableHlo.held (c : Thread nD τ) (Pipeline.ucRefs τ sig) (W5 m ρ c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- An unscoped reference's final contents, read off the run's post. -/
theorem read_final {r : PUnit × MemSt nD τ sig (Elt F)}
    (h : ∀ c : Dev nD, ∀ b ∈ Pipeline.ucRefs τ sig, r.2.mem (((c : Thread nD τ)).1, b) = W5 m ρ c b)
    (c : Dev nD) (b : Ref sig .tc) (hb : ¬ (Proc.devRef .tc b : DevRef τ sig).isScoped) :
    r.2.mem ((c.tc : Thread nD τ).loc b) = W5 m ρ c (Proc.devRef .tc b) := h c _ (mem_uc b hb)

end Cert.KernelIdeal.Whole

end
-- ==== Proof.Frames.lean ====
/-
  The frame of the whole program: every weakly fair execution terminates, nothing faulting, and each of the
  seventeen argument arrays ends as launched — no host operation writes one, and a launch that reads one through
  an input window hands it back unchanged.
-/
import proofs.«154189_j4853313045170_2_alg».proof.Proof.Whole

set_option maxRecDepth 16384

noncomputable section

namespace Cert.KernelIdeal.Whole

open Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The argument arrays at the last boundary are the launch memory's. -/
theorem args_kept {r : PUnit × MemSt nD τ sig (Elt F)}
    (h : ∀ c : Dev nD, ∀ b ∈ Pipeline.ucRefs τ sig, r.2.mem (((c : Thread nD τ)).1, b) = W5 m ρ c b) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  ⟨(read_final m ρ h c main_arg0 (by decide)).trans (W5_untouched m ρ c main_arg0 (by decide) (by decide) (by decide) (by decide) (by decide)),
   (read_final m ρ h c main_arg1 (by decide)).trans (W5_untouched m ρ c main_arg1 (by decide) (by decide) (by decide) (by decide) (by decide)),
   (read_final m ρ h c main_arg2 (by decide)).trans (W5_untouched m ρ c main_arg2 (by decide) (by decide) (by decide) (by decide) (by decide)),
   (read_final m ρ h c main_arg3 (by decide)).trans (W5_untouched m ρ c main_arg3 (by decide) (by decide) (by decide) (by decide) (by decide)),
   (read_final m ρ h c main_arg4 (by decide)).trans (W5_untouched m ρ c main_arg4 (by decide) (by decide) (by decide) (by decide) (by decide)),
   (read_final m ρ h c main_arg5 (by decide)).trans (W5_untouched m ρ c main_arg5 (by decide) (by decide) (by decide) (by decide) (by decide)),
   (read_final m ρ h c main_arg6 (by decide)).trans (W5_untouched m ρ c main_arg6 (by decide) (by decide) (by decide) (by decide) (by decide)),
   (read_final m ρ h c main_arg7 (by decide)).trans (W5_input0 m ρ c 1 rfl (by decide) (by decide) (by decide) (by decide)),
   (read_final m ρ h c main_arg8 (by decide)).trans (W5_untouched m ρ c main_arg8 (by decide) (by decide) (by decide) (by decide) (by decide)),
   (read_final m ρ h c main_arg9 (by decide)).trans (W5_input0 m ρ c 3 rfl (by decide) (by decide) (by decide) (by decide)),
   (read_final m ρ h c main_arg10 (by decide)).trans (W5_untouched m ρ c main_arg10 (by decide) (by decide) (by decide) (by decide) (by decide)),
   (read_final m ρ h c main_arg11 (by decide)).trans (W5_untouched m ρ c main_arg11 (by decide) (by decide) (by decide) (by decide) (by decide)),
   (read_final m ρ h c main_arg12 (by decide)).trans (W5_untouched m ρ c main_arg12 (by decide) (by decide) (by decide) (by decide) (by decide)),
   (read_final m ρ h c main_arg13 (by decide)).trans (W5_untouched m ρ c main_arg13 (by decide) (by decide) (by decide) (by decide) (by decide)),
   (read_final m ρ h c main_arg14 (by decide)).trans (W5_untouched m ρ c main_arg14 (by decide) (by decide) (by decide) (by decide) (by decide)),
   (read_final m ρ h c main_arg15 (by decide)).trans (W5_untouched m ρ c main_arg15 (by decide) (by decide) (by decide) (by decide) (by decide)),
   (read_final m ρ h c main_arg16 (by decide)).trans (W5_untouched m ρ c main_arg16 (by decide) (by decide) (by decide) (by decide) (by decide))⟩

end Cert.KernelIdeal.Whole

end
-- ==== Proof.KNodeMlp.lean ====
/-
  The node network's launch: ten row tiles of 5000 nodes, each computing
  tanh(tanh(X·W1 + b1)·W2 + b2) for its rows of the aggregated features X (192 columns) and storing
  the 5000×64 result tile. Stated at any contents `V` of the core's buffers at the launch's entry.
-/
import proofs.«154189_j4853313045170_2_alg».proof.Proof.Gen.Kernel.Launch
import proofs.«154189_j4853313045170_2_alg».proof.Proof.Gen.Kernel.Skeleton
import proofs.«154189_j4853313045170_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.NodeMlp

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at tile `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every tile, fetched there or not, for any proof
    data whose array is `V`'s and whose body leaves the block in place: where the window is not fetched its block
    index has not moved, so the buffer still holds the block of the tile before, which is this tile's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every tile, fetched there or not, for any proof
    data whose array is `V`'s and whose body leaves the block in place: where the window is not fetched its block
    index has not moved, so the buffer still holds the block of the tile before, which is this tile's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every tile, fetched there or not, for any proof
    data whose array is `V`'s and whose body leaves the block in place: where the window is not fetched its block
    index has not moved, so the buffer still holds the block of the tile before, which is this tile's. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every tile, fetched there or not, for any proof
    data whose array is `V`'s and whose body leaves the block in place: where the window is not fetched its block
    index has not moved, so the buffer still holds the block of the tile before, which is this tile's. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every tile, fetched there or not, for any proof
    data whose array is `V`'s and whose body leaves the block in place: where the window is not fetched its block
    index has not moved, so the buffer still holds the block of the tile before, which is this tile's. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

abbrev rX : Rect S5000x192 := Rect.unit (s := S5000x192) ![0, 0] S5000x192.size inb_S5000x192_S5000x192_0_0
abbrev rW1 : Rect S192x64 := Rect.unit (s := S192x64) ![0, 0] S192x64.size inb_S192x64_S192x64_0_0
abbrev rB : Rect S1x64 := Rect.unit (s := S1x64) ![0, 0] S1x64.size inb_S1x64_S1x64_0_0
abbrev rW2 : Rect S64x64 := Rect.unit (s := S64x64) ![0, 0] S64x64.size inb_S64x64_S64x64_0_0
abbrev rO : Rect S5000x64 := Rect.unit (s := S5000x64) ![0, 0] S5000x64.size inb_S5000x64_S5000x64_0_0

/-- The result tile after the body: its one store, of the two-layer network applied to the loaded tiles. -/
def out0_5 (x0 : Vec F S5000x192 .f32) (x1 : Vec F S192x64 .f32) (x2 : Vec F S1x64 .f32) (x3 : Vec F S64x64 .f32) (x4 : Vec F S1x64 .f32) :
    Vec F S5000x64 .f32 :=
  View.canon [⟨rO, k0_pay1 (View.ld x0 rX) (View.ld x1 rW1) (View.ld x2 rB) (View.ld x3 rW2) (View.ld x4 rB)⟩]

/-- The one store is of the whole tile, so it covers it. -/
theorem cover0_5 (p0 : Vec F S5000x64 .f32) (y : S5000x64.Idx) :
    ∃ pc ∈ ([⟨rO, p0⟩] : List (View.Piece (Elt F) S5000x64 .f32)), y ∈ pc.1.set :=
  View.cover_of_tiled [⟨rO, p0⟩] S5000x64.size (by rfl) y

set_option maxHeartbeats 1000000 in
/-- The body on whole staging buffers, the five inputs' at read contents `x0 … x4` and the result's at anything, runs to
    the continuation holding the inputs' as they were and the result's at `out0_5` of them. The body reads the result
    buffer once before its store; the value read is not used. -/
theorem sound_kernel0 (c : Dev nD) (E : Set ℕ) (i : grid0.Coords)
    (arg1 : Memref sig .tc .vmem S5000x192 .f32) (harg1 : arg1.IsWhole) (arg2 : Memref sig .tc .vmem S192x64 .f32) (harg2 : arg2.IsWhole)
    (arg3 : Memref sig .tc .vmem S1x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S5000x64 .f32) (harg6 : arg6.IsWhole)
    (x0 : Vec F S5000x192 .f32) (x1 : Vec F S192x64 .f32) (x2 : Vec F S1x64 .f32) (x3 : Vec F S64x64 .f32) (x4 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__nexus_mlp_kernel i arg1 harg1 arg2 harg2 arg3 harg3 arg4 harg4 arg5 harg5 arg6 harg6) K := by
  simp only [cc0__nexus_mlp_kernel_eq_skeleton]; unfold cc0__nexus_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-- The proof data of the launch on core `c`: every input tile stays as fetched, the result tile holds `out0_5` of them. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_5 (c : Dev nD) (t : Fin cfg0.N) : (dat0 V c).after 5 t
    = out0_5 (iblk0 V c 0 t) (iblk0 V c 1 t) (iblk0 V c 2 t) (iblk0 V c 3 t) (iblk0 V c 4 t) := by dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]

/-- Each input's current staging buffer holds its block at every tile, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at tile `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any tile: the inputs' buffers hold their blocks, so `sound_kernel0` applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body's obligation at every tile. -/
theorem body_obligation0 (c : Dev nD) : BodyObligation (dat0 (F := F) V c) (defs₀ (F := F)) Variants.none () Set.univ := fun t => by
  rw [bigSep_W0, bigSep_W0]
  exact sound_body0 V c t

end Cert.Kernel.NodeMlp

end
-- ==== Proof.KEdgeGate.lean ====
/-
  The edge gate's launch: for each of the three planes and each tile of 10000 edges,
  sigmoid(cat·W + b) ⊙ cat[:, 64:], where a row of cat is an edge's plane feature beside its node feature.
  Stated at any contents `V` of the core's buffers at the launch's entry.
-/
import proofs.«154189_j4853313045170_2_alg».proof.Proof.Gen.Kernel.Launch
import proofs.«154189_j4853313045170_2_alg».proof.Proof.Gen.Kernel.Skeleton
import proofs.«154189_j4853313045170_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.EdgeGate

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place: unfetched, the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place: unfetched, the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev rC : Rect S1x10000x128 := Rect.unit (s := S1x10000x128) ![0, 0, 0] S1x10000x128.size inb_S1x10000x128_S1x10000x128_0_0_0
abbrev rW : Rect S1x128x64 := Rect.unit (s := S1x128x64) ![0, 0, 0] S1x128x64.size inb_S1x128x64_S1x128x64_0_0_0
abbrev rB : Rect S1x1x64 := Rect.unit (s := S1x1x64) ![0, 0, 0] S1x1x64.size inb_S1x1x64_S1x1x64_0_0_0
abbrev rO : Rect S1x10000x64 := Rect.unit (s := S1x10000x64) ![0, 0, 0] S1x10000x64.size inb_S1x10000x64_S1x10000x64_0_0_0

/-- The result tile after the body: its one store, of the gated node features of the loaded tiles. -/
def out1_3 (x0 : Vec F S1x10000x128 .bf16) (x1 : Vec F S1x128x64 .f32) (x2 : Vec F S1x1x64 .f32) : Vec F S1x10000x64 .bf16 :=
  View.canon [⟨rO, k1_pay1 (View.ld x0 rC) (View.ld x1 rW) (View.ld x2 rB)⟩]

/-- The one store tiles the result tile, so it covers it. -/
theorem cover1_3 (p0 : Vec F S1x10000x64 .bf16) (y : S1x10000x64.Idx) :
    ∃ pc ∈ ([⟨rO, p0⟩] : List (View.Piece (Elt F) S1x10000x64 .bf16)), y ∈ pc.1.set :=
  View.cover_of_tiled [⟨rO, p0⟩] S1x10000x64.size (by rfl) y

set_option maxHeartbeats 1000000 in
/-- The kernel body on whole staging memrefs, the inputs' at read contents and the result's at anything, runs to
    the continuation holding the inputs' as they were and the result's at `out1_3` of the inputs'. -/
theorem sound_kernel1 (c : Dev nD) (E : Set ℕ) (i : grid1.Coords)
    (arg0 : Memref sig .tc .vmem S1x10000x128 .bf16) (harg0 : arg0.IsWhole)
    (arg1 : Memref sig .tc .vmem S1x128x64 .f32) (harg1 : arg1.IsWhole)
    (arg2 : Memref sig .tc .vmem S1x1x64 .f32) (harg2 : arg2.IsWhole)
    (arg3 : Memref sig .tc .vmem S1x10000x64 .bf16) (harg3 : arg3.IsWhole)
    (x0 : Vec F S1x10000x128 .bf16) (x1 : Vec F S1x128x64 .f32) (x2 : Vec F S1x1x64 .f32) (K : PUnit → sProp 𝕄) :
    iprop(owns (c : Thread nD τ) arg0 fullShare x0 ∗ owns (c : Thread nD τ) arg1 fullShare x1
        ∗ owns (c : Thread nD τ) arg2 fullShare x2 ∗ (∃ d, owns (c : Thread nD τ) arg3 fullShare d)
        ∗ (iprop(owns (c : Thread nD τ) arg0 fullShare x0 ∗ owns (c : Thread nD τ) arg1 fullShare x1
            ∗ owns (c : Thread nD τ) arg2 fullShare x2 ∗ owns (c : Thread nD τ) arg3 fullShare (out1_3 x0 x1 x2)) -∗ K ⟨⟩))
      ⊢ wp frame (wpE (defs₀ (F := F)) Variants.none c none) E (cc1__gating_kernel i arg0 harg0 arg1 harg1 arg2 harg2 arg3 harg3) K := by
  simp only [cc1__gating_kernel_eq_skeleton]; unfold cc1__gating_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of the launch on core `c`: every input tile stays as fetched, the result tile holds `out1_3` of them. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_3 (c : Dev nD) (t : Fin cfg1.N) : (dat1 V c).after 3 t
    = out1_3 (iblk1 V c 0 t) (iblk1 V c 1 t) (iblk1 V c 2 t) := by dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation at every point. -/
theorem body_obligation1 (c : Dev nD) : BodyObligation (dat1 (F := F) V c) (defs₀ (F := F)) Variants.none () Set.univ := fun t => by
  rw [bigSep_W1, bigSep_W1]
  exact sound_body1 V c t

end Cert.Kernel.EdgeGate

end
-- ==== Proof.KWhole.lean ====
/-
  The whole run of @main: three stretches of host operations around the two launches (the node network, the
  edge gate). The contents of the core's buffers at each boundary are a fold from the launch memory: a stretch
  applies its operations; a launch replaces its arrays by what its write-backs leave. Every weakly fair
  execution terminates with every unscoped buffer at the last boundary's contents; the argument arrays are
  written by nothing on the way, so they end as launched.
-/
import proofs.«154189_j4853313045170_2_alg».proof.Proof.KNodeMlp
import proofs.«154189_j4853313045170_2_alg».proof.Proof.KEdgeGate
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Whole

open Cert.Kernel.Gen Cert.Kernel.NodeMlp Cert.Kernel.EdgeGate
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first stretch (the node network's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the node network's exit. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch (the edge gate's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the edge gate's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the last stretch: the contents @main returns with. -/
abbrev W5 : Dev nD → Valuation τ sig (Elt F) := fun c => StableHlo.after hostOps2 (W4 m ρ c)

/-! ## What the stretches write: never an argument array -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor

/-- The references the first stretch's operations write, in order. -/
abbrev written0 : List (Ref sig .tc) := [main_v0, main_v1, main_c, main_v2, main_v3, main_c_0, main_v4, main_v5, main_v6, main_v7, main_v8, main_v9, main_v10, main_cst, main_v11, main_v12, main_v13, main_v14, main_v15, main_c_1, main_v16, main_v17, main_c_2, main_v18, main_v19, main_v20, main_v21, main_v22, main_v23, main_v24, main_cst_3, main_v25, main_v26, main_v27, main_v28, main_v29, main_c_4, main_v30, main_v31, main_c_5, main_v32, main_v33, main_v34, main_v35, main_v36, main_v37, main_v38, main_cst_6, main_v39, main_v40, main_v41, main_v42, main_v43, main_v44]
/-- The references the second stretch's operations write, in order. -/
abbrev written1 : List (Ref sig .tc) := [main_v46, main_v47, main_c_7, main_v48, main_v49, main_c_8, main_v50, main_v51, main_v52, main_v53, main_v54, main_v55, main_v56, main_c_9, main_v57, main_v58, main_c_10, main_v59, main_v60, main_v61, main_v62, main_v63, main_v64, main_v65, main_c_11, main_v66, main_v67, main_c_12, main_v68, main_v69, main_v70, main_v71, main_v72, main_v73, main_v74, main_v75, main_v76, main_v77, main_v78, main_v79, main_v80, main_v81, main_v82, main_v83, main_v84, main_v85, main_v86, main_v87, main_v88, main_v89, main_v90, main_v91]
/-- The references the last stretch's operations write, in order. -/
abbrev written2 : List (Ref sig .tc) := [main_v93, main_v94, main_v95, main_v96, main_v97, main_cst_13, main_v98, main_v99, main_v100, main_cst_14, main_v101, main_v102, main_v103, main_cst_15, main_v104, main_v105, main_v106, main_cst_16, main_v107, main_v108, main_v109, main_v110, main_v111, main_v112, main_v113, main_v114, main_v115, main_cst_17, main_v116, main_v117, main_v118, main_cst_18, main_v119, main_v120, main_v121, main_cst_19, main_v122, main_v123, main_v124, main_cst_20, main_v125, main_v126, main_v127, main_v128, main_v129, main_v130, main_v131, main_v132, main_v133, main_cst_21, main_v134, main_v135, main_v136, main_cst_22, main_v137, main_v138, main_v139, main_cst_23, main_v140, main_v141, main_v142, main_cst_24, main_v143, main_v144, main_v145, main_v146, main_v147, main_v148, main_v149, main_v150]
theorem hostOps0_writes : (hostOps0 : List (HloOp τ sig (Elt F))).Forall fun op => op.writes ⊆ (written0.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem hostOps1_writes : (hostOps1 : List (HloOp τ sig (Elt F))).Forall fun op => op.writes ⊆ (written1.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem hostOps2_writes : (hostOps2 : List (HloOp τ sig (Elt F))).Forall fun op => op.writes ⊆ (written2.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- A reference that no stretch writes and that is no array of either launch ends as launched. -/
theorem W5_untouched (c : Dev nD) (r : Ref sig .tc) (h0 : r ∉ written0) (h1 : r ∉ written1) (h2 : r ∉ written2)
    (hn0 : ∀ w, Pipeline.arrRef spec0 w ≠ r) (hn1 : ∀ w, Pipeline.arrRef spec1 w ≠ r) :
    W5 m ρ c (Proc.devRef .tc r) = m ((c : Thread nD τ).loc r) :=
  calc W5 m ρ c (Proc.devRef .tc r)
    _ = W4 m ρ c (Proc.devRef .tc r) := StableHlo.after_of_writes_sub hostOps2 _ hostOps2_writes h2
    _ = W3 m ρ c (Proc.devRef .tc r) := W4_of_ne m ρ c r hn1
    _ = W2 m ρ c (Proc.devRef .tc r) := StableHlo.after_of_writes_sub hostOps1 _ hostOps1_writes h1
    _ = W1 m ρ c (Proc.devRef .tc r) := W2_of_ne m ρ c r hn0
    _ = W0 m ρ c (Proc.devRef .tc r) := StableHlo.after_of_writes_sub hostOps0 _ hostOps0_writes h0
    _ = m ((c : Thread nD τ).loc r) := rfl

/-- The same for an INPUT array of the node network (a weight matrix): the launch hands it back as entered. -/
theorem W5_input0 (c : Dev nD) (w : Fin cfg0.W) (hw : (cfg0.win w).isOut = false) (h0 : Pipeline.arrRef spec0 w ∉ written0)
    (h1 : Pipeline.arrRef spec0 w ∉ written1) (h2 : Pipeline.arrRef spec0 w ∉ written2)
    (hn1 : ∀ w', Pipeline.arrRef spec1 w' ≠ Pipeline.arrRef spec0 w) :
    W5 m ρ c (Proc.devRef .tc (Pipeline.arrRef spec0 w)) = m ((c : Thread nD τ).loc (Pipeline.arrRef spec0 w)) :=
  calc W5 m ρ c (Proc.devRef .tc (Pipeline.arrRef spec0 w))
    _ = W4 m ρ c (Proc.devRef .tc (Pipeline.arrRef spec0 w)) := StableHlo.after_of_writes_sub hostOps2 _ hostOps2_writes h2
    _ = W3 m ρ c (Proc.devRef .tc (Pipeline.arrRef spec0 w)) := W4_of_ne m ρ c _ hn1
    _ = W2 m ρ c (Proc.devRef .tc (Pipeline.arrRef spec0 w)) := StableHlo.after_of_writes_sub hostOps1 _ hostOps1_writes h1
    _ = W1 m ρ c (Proc.devRef .tc (Pipeline.arrRef spec0 w)) := (W2_arr m ρ c w).trans (((dat0 (V1 m ρ) c).arrAt_in w hw _).trans (A_eq0 (V1 m ρ) c w))
    _ = W0 m ρ c (Proc.devRef .tc (Pipeline.arrRef spec0 w)) := StableHlo.after_of_writes_sub hostOps0 _ hostOps0_writes h0
    _ = m ((c : Thread nD τ).loc (Pipeline.arrRef spec0 w)) := rfl

/-! ## The proof data family and the thread state -/

abbrev adm : (p : Fin 2) → (pcfgs (F := F) p).Adm := fun p => (cfgs p).toPCfg_adm
/-- Each launch's proof data at its entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers: the core's generator register at some state and its debts, none. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last boundary's contents. -/
abbrev Tₙ (c : Dev nD) : sProp 𝕄 := iprop(StableHlo.held (c : Thread nD τ) (Pipeline.ucRefs τ sig) (W5 m ρ c) ∗ ∃ r, prngReg c r)

/-! ## The launches as segments -/

set_option backward.isDefEq.respectTransparency.types false in
/-- Launch 0 over the thread state: entered from every unscoped buffer at its entry contents, left with its
    arrays at what the write-backs leave and every other buffer as entered; the generator register goes into the
    launch's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state: entered from every unscoped buffer at its entry contents, left with its
    arrays at what the write-backs leave and every other buffer as entered; the generator register goes into the
    launch's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
theorem main_run (c : Dev nD) : main (F := F) c = Pipeline.Seg.run (segs m ρ) := (main_chain c).trans (by chain_rfl)

set_option backward.isDefEq.respectTransparency.types false in
/-- Every weakly fair execution of @main terminates, nothing faulting, with every unscoped buffer of every core at
    the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show (iprop(StableHlo.held (c : Thread nD τ) (Pipeline.ucRefs τ sig) (W5 m ρ c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- An unscoped reference's final contents, read off the run's post. -/
theorem read_final {r : PUnit × MemSt nD τ sig (Elt F)}
    (h : ∀ c : Dev nD, ∀ b ∈ Pipeline.ucRefs τ sig, r.2.mem (((c : Thread nD τ)).1, b) = W5 m ρ c b)
    (c : Dev nD) (b : Ref sig .tc) (hb : ¬ (Proc.devRef .tc b : DevRef τ sig).isScoped) :
    r.2.mem ((c.tc : Thread nD τ).loc b) = W5 m ρ c (Proc.devRef .tc b) := h c _ (mem_uc b hb)

end Cert.Kernel.Whole

end
-- ==== Proof.KFrames.lean ====
/-
  The frame of the whole program: every weakly fair execution terminates, nothing faulting, and each of the
  seventeen argument arrays ends as launched — no host operation writes one, and a launch that reads one through
  an input window hands it back unchanged.
-/
import proofs.«154189_j4853313045170_2_alg».proof.Proof.KWhole

set_option maxRecDepth 16384

noncomputable section

namespace Cert.Kernel.Whole

open Cert.Kernel.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The argument arrays at the last boundary are the launch memory's. -/
theorem args_kept {r : PUnit × MemSt nD τ sig (Elt F)}
    (h : ∀ c : Dev nD, ∀ b ∈ Pipeline.ucRefs τ sig, r.2.mem (((c : Thread nD τ)).1, b) = W5 m ρ c b) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  ⟨(read_final m ρ h c main_arg0 (by decide)).trans (W5_untouched m ρ c main_arg0 (by decide) (by decide) (by decide) (by decide) (by decide)),
   (read_final m ρ h c main_arg1 (by decide)).trans (W5_untouched m ρ c main_arg1 (by decide) (by decide) (by decide) (by decide) (by decide)),
   (read_final m ρ h c main_arg2 (by decide)).trans (W5_untouched m ρ c main_arg2 (by decide) (by decide) (by decide) (by decide) (by decide)),
   (read_final m ρ h c main_arg3 (by decide)).trans (W5_untouched m ρ c main_arg3 (by decide) (by decide) (by decide) (by decide) (by decide)),
   (read_final m ρ h c main_arg4 (by decide)).trans (W5_untouched m ρ c main_arg4 (by decide) (by decide) (by decide) (by decide) (by decide)),
   (read_final m ρ h c main_arg5 (by decide)).trans (W5_untouched m ρ c main_arg5 (by decide) (by decide) (by decide) (by decide) (by decide)),
   (read_final m ρ h c main_arg6 (by decide)).trans (W5_untouched m ρ c main_arg6 (by decide) (by decide) (by decide) (by decide) (by decide)),
   (read_final m ρ h c main_arg7 (by decide)).trans (W5_input0 m ρ c 1 rfl (by decide) (by decide) (by decide) (by decide)),
   (read_final m ρ h c main_arg8 (by decide)).trans (W5_untouched m ρ c main_arg8 (by decide) (by decide) (by decide) (by decide) (by decide)),
   (read_final m ρ h c main_arg9 (by decide)).trans (W5_input0 m ρ c 3 rfl (by decide) (by decide) (by decide) (by decide)),
   (read_final m ρ h c main_arg10 (by decide)).trans (W5_untouched m ρ c main_arg10 (by decide) (by decide) (by decide) (by decide) (by decide)),
   (read_final m ρ h c main_arg11 (by decide)).trans (W5_untouched m ρ c main_arg11 (by decide) (by decide) (by decide) (by decide) (by decide)),
   (read_final m ρ h c main_arg12 (by decide)).trans (W5_untouched m ρ c main_arg12 (by decide) (by decide) (by decide) (by decide) (by decide)),
   (read_final m ρ h c main_arg13 (by decide)).trans (W5_untouched m ρ c main_arg13 (by decide) (by decide) (by decide) (by decide) (by decide)),
   (read_final m ρ h c main_arg14 (by decide)).trans (W5_untouched m ρ c main_arg14 (by decide) (by decide) (by decide) (by decide) (by decide)),
   (read_final m ρ h c main_arg15 (by decide)).trans (W5_untouched m ρ c main_arg15 (by decide) (by decide) (by decide) (by decide) (by decide)),
   (read_final m ρ h c main_arg16 (by decide)).trans (W5_untouched m ρ c main_arg16 (by decide) (by decide) (by decide) (by decide) (by decide))⟩

end Cert.Kernel.Whole

end
-- ==== Proof.HostSide.lean ====
/-
  The host side of the graph network, named piece by piece over whole arrays: an edge list's two rows, jnp's
  wrapping of negative indices, the gathers of plane and node features along the edges, the segment sums onto
  the nodes, the three planes' sums side by side, and the scatter-mean back onto the plane's hits.
-/
import proofs.«154189_j4853313045170_2_alg».proof.Proof.Gen.KernelIdeal
import Idealize.ShloMosaic.PureOps.Ideal
import Idealize.ShloMosaic.Lib.StableHlo.Run

set_option maxRecDepth 16384

noncomputable section

namespace Cert.KernelIdeal.HostSide

open Cert.KernelIdeal Cert.KernelIdeal.Gen
open Idealize.ShloMosaic Idealize.ShloMosaic.TcCoe Idealize.ShloMosaic.StableHlo Idealize.SL.Sem

abbrev EdgeList := (⟨S2x400000, .i32⟩ : BufTy).Contents (Elt Ideal)
abbrev EdgeIdx := (⟨S400000, .i32⟩ : BufTy).Contents (Elt Ideal)

/-- Row 0 of an edge list: the plane hit of each edge. -/
def row0 (E : EdgeList) : EdgeIdx :=
  shapeCast S400000 (extractStridedSlice S1x400000 ![0, 0] E slices_S2x400000_S1x400000_0_0) shapeCasts_S1x400000_S400000
/-- Row 1 of an edge list: the node of each edge. -/
def row1 (E : EdgeList) : EdgeIdx :=
  shapeCast S400000 (extractStridedSlice S1x400000 ![1, 0] E slices_S2x400000_S1x400000_1_0) shapeCasts_S1x400000_S400000
/-- jnp's indexing convention: a negative index counts from the end of an axis of extent `n`. -/
def wrap (n : BitVec 32) (i : EdgeIdx) : EdgeIdx :=
  select (cmpi .slt i (broadcastInDim S400000 ![] bcast_S_S400000 (constantI S_ 32 0#32)))
    (addi i (broadcastInDim S400000 ![] bcast_S_S400000 (constantI S_ 32 n))) i
/-- An index vector as the one-column matrix gathers and scatters take. -/
def col (i : EdgeIdx) : (⟨S400000x1, .i32⟩ : BufTy).Contents (Elt Ideal) :=
  broadcastInDim S400000x1 ![0] bcast_S400000_S400000x1_0 i
/-- The plane features gathered along the edges: x[e0]. -/
def gatherHits (X : FVec Ideal S200000x64 .f32) (E : EdgeList) : FVec Ideal S400000x64 .f32 :=
  Host.gather gather_S200000x64_S400000x1_S400000x64_1_0_n_n_0_1_164 X (col (wrap 200000#32 (row0 E)))
/-- The node features gathered along the edges: n[e1]. -/
def gatherNodes (N : FVec Ideal S50000x64 .f32) (E : EdgeList) : FVec Ideal S400000x64 .f32 :=
  Host.gather gather_S50000x64_S400000x1_S400000x64_1_0_n_n_0_1_164 N (col (wrap 50000#32 (row1 E)))
/-- The segment sum of per-edge rows onto the nodes. -/
def sumOntoNodes (E : EdgeList) (G : FVec Ideal S400000x64 .f32) : FVec Ideal S50000x64 .f32 :=
  Host.scatterAdd scatter_S50000x64_S400000x1_S400000x64_1_0_0_1
    (broadcastInDim S50000x64 ![] bcast_S_S50000x64 (constant S_ .f32 0x00000000#32)) (col (row1 E)) G
/-- The node network's input: the three planes' sums side by side, 192 columns. -/
def nodeIn (X0 X1 X2 : FVec Ideal S200000x64 .f32) (E0 E1 E2 : EdgeList) : FVec Ideal S50000x192 .f32 :=
  concatenate S50000x192 1 [⟨S50000x64, sumOntoNodes E0 (gatherHits X0 E0)⟩, ⟨S50000x64, sumOntoNodes E1 (gatherHits X1 E1)⟩,
    ⟨S50000x64, sumOntoNodes E2 (gatherHits X2 E2)⟩] concatenates_S50000x64_S50000x64_S50000x64_S50000x192_d1
/-- The scatter-mean of per-edge rows back onto a plane's hits: the segment sum divided by the larger of the
    segment's count and one. -/
def meanRows (E : EdgeList) (G : FVec Ideal S400000x64 .f32) : FVec Ideal S200000x64 .f32 :=
    (Host.divf
      (Host.scatterAdd scatter_S200000x64_S400000x1_S400000x64_1_0_0_1
        (broadcastInDim S200000x64 ![] bcast_S_S200000x64 (constant S_ .f32 0x00000000#32)) (col (row0 E)) G)
      (broadcastInDim S200000x64 ![0, 1] bcast_S200000x1_S200000x64_0_1
        (maximumf
          (Host.scatterAdd scatter_S200000x1_S400000x1_S400000x1_1_0_0_1
            (broadcastInDim S200000x1 ![] bcast_S_S200000x1 (constant S_ .f32 0x00000000#32)) (col (row0 E))
            (broadcastInDim S400000x1 ![] bcast_S_S400000x1 (constant S_ .f32 0x3F800000#32)))
          (broadcastInDim S200000x1 ![] bcast_S_S200000x1 (constant S_ .f32 0x3F800000#32)))))
/-- The same with a leading unit axis, ready to be stacked. -/
def meanOntoHits (E : EdgeList) (G : FVec Ideal S400000x64 .f32) : FVec Ideal S1x200000x64 .f32 :=
  broadcastInDim S1x200000x64 ![1, 2] bcast_S200000x64_S1x200000x64_1_2 (meanRows E G)
/-- The three planes' results stacked. -/
def stackPlanes (A B C : FVec Ideal S1x200000x64 .f32) : FVec Ideal S3x200000x64 .f32 :=
  concatenate S3x200000x64 0 [⟨S1x200000x64, A⟩, ⟨S1x200000x64, B⟩, ⟨S1x200000x64, C⟩]
    concatenates_S1x200000x64_S1x200000x64_S1x200000x64_S3x200000x64_d0

/-- One plane's packed edge rows: the gathered plane feature beside the gathered node feature, 128 columns, as the
    gate reads them (the change of float format is the identity on extended reals). -/
def packRows (g n : FVec Ideal S400000x64 .f32) : FVec Ideal S1x400000x128 .bf16 :=
  broadcastInDim S1x400000x128 ![1, 2] bcast_S400000x128_S1x400000x128_1_2
    (truncf .bf16 (concatenate S400000x128 1 [⟨S400000x64, g⟩, ⟨S400000x64, n⟩] concatenates_S400000x64_S400000x64_S400000x128_d1) bitsLt_bf16_f32)
/-- The three planes' packed rows stacked. -/
def catStack (gu nu gv nv gy ny : FVec Ideal S400000x64 .f32) : FVec Ideal S3x400000x128 .bf16 :=
  concatenate S3x400000x128 0 [⟨S1x400000x128, packRows gu nu⟩, ⟨S1x400000x128, packRows gv nv⟩, ⟨S1x400000x128, packRows gy ny⟩]
    concatenates_S1x400000x128_S1x400000x128_S1x400000x128_S3x400000x128_d0
/-- The three planes' gate weights stacked. -/
def wStack (Wu Wv Wy : FVec Ideal S128x64 .f32) : FVec Ideal S3x128x64 .f32 :=
  concatenate S3x128x64 0 [⟨S1x128x64, broadcastInDim S1x128x64 ![1, 2] bcast_S128x64_S1x128x64_1_2 Wu⟩,
    ⟨S1x128x64, broadcastInDim S1x128x64 ![1, 2] bcast_S128x64_S1x128x64_1_2 Wv⟩,
    ⟨S1x128x64, broadcastInDim S1x128x64 ![1, 2] bcast_S128x64_S1x128x64_1_2 Wy⟩] concatenates_S1x128x64_S1x128x64_S1x128x64_S3x128x64_d0
/-- The three planes' gate biases stacked, one row each. -/
def bStack (bu bv bw : FVec Ideal S64 .f32) : FVec Ideal S3x1x64 .f32 :=
  shapeCast S3x1x64 (concatenate S3x64 0 [⟨S1x64, broadcastInDim S1x64 ![1] bcast_S64_S1x64_1 bu⟩,
    ⟨S1x64, broadcastInDim S1x64 ![1] bcast_S64_S1x64_1 bv⟩, ⟨S1x64, broadcastInDim S1x64 ![1] bcast_S64_S1x64_1 bw⟩]
    concatenates_S1x64_S1x64_S1x64_S3x64_d0) shapeCasts_S3x64_S3x1x64
/-- Plane 0 of the gate's result, as per-edge rows. -/
def plane0 (G : FVec Ideal S3x400000x64 .bf16) : FVec Ideal S400000x64 .f32 :=
  extf .f32 (shapeCast S400000x64 (extractStridedSlice S1x400000x64 ![0, 0, 0] G slices_S3x400000x64_S1x400000x64_0_0_0)
    shapeCasts_S1x400000x64_S400000x64) bitsLt_bf16_f32
/-- Plane 1 of the gate's result. -/
def plane1 (G : FVec Ideal S3x400000x64 .bf16) : FVec Ideal S400000x64 .f32 :=
  extf .f32 (shapeCast S400000x64 (extractStridedSlice S1x400000x64 ![1, 0, 0] G slices_S3x400000x64_S1x400000x64_1_0_0)
    shapeCasts_S1x400000x64_S400000x64) bitsLt_bf16_f32
/-- Plane 2 of the gate's result. -/
def plane2 (G : FVec Ideal S3x400000x64 .bf16) : FVec Ideal S400000x64 .f32 :=
  extf .f32 (shapeCast S400000x64 (extractStridedSlice S1x400000x64 ![2, 0, 0] G slices_S3x400000x64_S1x400000x64_2_0_0)
    shapeCasts_S1x400000x64_S400000x64) bitsLt_bf16_f32
/-- A bias vector as the one-row matrix the node network reads. -/
def biasRow (a : FVec Ideal S64 .f32) : FVec Ideal S1x64 .f32 := shapeCast S1x64 a shapeCasts_S64_S1x64

end Cert.KernelIdeal.HostSide

end
-- ==== Proof.Stretch0.lean ====
/-
  What the first stretch of host operations leaves in the buffers the node network reads and in the gathered
  plane features the later stretches use, as whole-array functions of the buffers before it.
-/
import proofs.«154189_j4853313045170_2_alg».proof.Proof.HostSide
import proofs.«154189_j4853313045170_2_alg».proof.Proof.Gen.KernelIdeal.Launch
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.ShloMosaic.StableHlo Idealize.SL.Sem
open Cert.KernelIdeal.HostSide

variable (V : Valuation τ sig (Elt Ideal))

set_option maxHeartbeats 2000000 in
/-- The three planes' segment sums, side by side. -/
theorem stretch0_nodeIn : StableHlo.after (hostOps0 (F := Ideal)) V (no_index (Proc.devRef .tc main_v42))
    = nodeIn (V (Proc.devRef .tc main_arg0)) (V (Proc.devRef .tc main_arg1)) (V (Proc.devRef .tc main_arg2))
        (V (Proc.devRef .tc main_arg4)) (V (Proc.devRef .tc main_arg5)) (V (Proc.devRef .tc main_arg6)) := by
  after_results_simp
  try dsimp only [Matrix.cons_val]
  try after_results_simp
  rfl

set_option maxHeartbeats 2000000 in
/-- The first bias as a row. -/
theorem stretch0_bias1 : StableHlo.after (hostOps0 (F := Ideal)) V (no_index (Proc.devRef .tc main_v43)) = biasRow (V (Proc.devRef .tc main_arg8)) := by
  after_results_simp
  try dsimp only [Matrix.cons_val]
  try after_results_simp
  rfl

set_option maxHeartbeats 2000000 in
/-- The second bias as a row. -/
theorem stretch0_bias2 : StableHlo.after (hostOps0 (F := Ideal)) V (no_index (Proc.devRef .tc main_v44)) = biasRow (V (Proc.devRef .tc main_arg10)) := by
  after_results_simp
  try dsimp only [Matrix.cons_val]
  try after_results_simp
  rfl

set_option maxHeartbeats 2000000 in
/-- Plane u's features along its edges. -/
theorem stretch0_hits0 : StableHlo.after (hostOps0 (F := Ideal)) V (no_index (Proc.devRef .tc main_v8))
    = gatherHits (V (Proc.devRef .tc main_arg0)) (V (Proc.devRef .tc main_arg4)) := by
  after_results_simp
  try dsimp only [Matrix.cons_val]
  try after_results_simp
  rfl

set_option maxHeartbeats 2000000 in
/-- Plane v's features along its edges. -/
theorem stretch0_hits1 : StableHlo.after (hostOps0 (F := Ideal)) V (no_index (Proc.devRef .tc main_v22))
    = gatherHits (V (Proc.devRef .tc main_arg1)) (V (Proc.devRef .tc main_arg5)) := by
  after_results_simp
  try dsimp only [Matrix.cons_val]
  try after_results_simp
  rfl

set_option maxHeartbeats 2000000 in
/-- Plane y's features along its edges. -/
theorem stretch0_hits2 : StableHlo.after (hostOps0 (F := Ideal)) V (no_index (Proc.devRef .tc main_v36))
    = gatherHits (V (Proc.devRef .tc main_arg2)) (V (Proc.devRef .tc main_arg6)) := by
  after_results_simp
  try dsimp only [Matrix.cons_val]
  try after_results_simp
  rfl

end Cert.KernelIdeal.Whole

end
-- ==== Proof.Stretch1.lean ====
/-
  What the second stretch of host operations leaves in the three arrays the edge gate reads: the packed edge rows
  (plane feature beside the node feature gathered from the node network's result), the stacked weights and the
  stacked biases.
-/
import proofs.«154189_j4853313045170_2_alg».proof.Proof.HostSide
import proofs.«154189_j4853313045170_2_alg».proof.Proof.Gen.KernelIdeal.Launch
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.ShloMosaic.StableHlo Idealize.SL.Sem
open Cert.KernelIdeal.HostSide

variable (V : Valuation τ sig (Elt Ideal))

set_option maxHeartbeats 4000000 in
/-- The packed rows of the three planes. -/
theorem stretch1_rows : StableHlo.after (hostOps1 (F := Ideal)) V (no_index (Proc.devRef .tc main_v82))
    = catStack (V (Proc.devRef .tc main_v8)) (gatherNodes (V (Proc.devRef .tc main_v45)) (V (Proc.devRef .tc main_arg4)))
        (V (Proc.devRef .tc main_v22)) (gatherNodes (V (Proc.devRef .tc main_v45)) (V (Proc.devRef .tc main_arg5)))
        (V (Proc.devRef .tc main_v36)) (gatherNodes (V (Proc.devRef .tc main_v45)) (V (Proc.devRef .tc main_arg6))) := by
  after_results_simp
  try dsimp only [Matrix.cons_val]
  try after_results_simp
  rfl

set_option maxHeartbeats 4000000 in
/-- The stacked gate weights. -/
theorem stretch1_weights : StableHlo.after (hostOps1 (F := Ideal)) V (no_index (Proc.devRef .tc main_v86))
    = wStack (V (Proc.devRef .tc main_arg11)) (V (Proc.devRef .tc main_arg13)) (V (Proc.devRef .tc main_arg15)) := by
  after_results_simp
  try dsimp only [Matrix.cons_val]
  try after_results_simp
  rfl

set_option maxHeartbeats 4000000 in
/-- The stacked gate biases. -/
theorem stretch1_biases : StableHlo.after (hostOps1 (F := Ideal)) V (no_index (Proc.devRef .tc main_v91))
    = bStack (V (Proc.devRef .tc main_arg12)) (V (Proc.devRef .tc main_arg14)) (V (Proc.devRef .tc main_arg16)) := by
  after_results_simp
  try dsimp only [Matrix.cons_val]
  try after_results_simp
  rfl

end Cert.KernelIdeal.Whole

end
-- ==== Proof.Stretch2.lean ====
/-
  What the last stretch of host operations returns: each plane of the gate's result scattered back onto the
  plane's hits as a mean, the three results stacked. The stretch is read in four pieces — one per plane, then
  the stacking — so that each piece's buffers are looked up among two dozen operations, not seventy.
-/
import proofs.«154189_j4853313045170_2_alg».proof.Proof.HostSide
import proofs.«154189_j4853313045170_2_alg».proof.Proof.Gen.KernelIdeal.Launch
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.ShloMosaic.StableHlo Idealize.SL.Sem
open Cert.KernelIdeal.HostSide

section Pieces
variable {F : FTy → Type} [FloatOps F]

/-- The operations of the last stretch that scatter plane u's gated rows. -/
abbrev tailU : List (HloOp τ sig (Elt F)) :=
  [ StableHlo.unary main_v92 main_v93 ((extractStridedSlice S1x400000x64 ![0, 0, 0] · slices_S3x400000x64_S1x400000x64_0_0_0) : (⟨S3x400000x64, .bf16⟩ : BufTy).Contents (Elt F) → (⟨S1x400000x64, .bf16⟩ : BufTy).Contents (Elt F)),
    StableHlo.reshape main_v93 main_v94 rfl shapeCasts_S1x400000x64_S400000x64,
    StableHlo.unary main_v94 main_v95 ((extf .f32 · bitsLt_bf16_f32) : (⟨S400000x64, .bf16⟩ : BufTy).Contents (Elt F) → (⟨S400000x64, .f32⟩ : BufTy).Contents (Elt F)),
    StableHlo.unary main_arg4 main_v96 ((extractStridedSlice S1x400000 ![0, 0] · slices_S2x400000_S1x400000_0_0) : (⟨S2x400000, .i32⟩ : BufTy).Contents (Elt F) → (⟨S1x400000, .i32⟩ : BufTy).Contents (Elt F)),
    StableHlo.reshape main_v96 main_v97 rfl shapeCasts_S1x400000_S400000,
    StableHlo.nullary main_cst_13 (constant S_ .f32 0x00000000#32),
    StableHlo.unary main_cst_13 main_v98 (broadcastInDim S200000x64 ![] bcast_S_S200000x64 : (⟨S_, .f32⟩ : BufTy).Contents (Elt F) → (⟨S200000x64, .f32⟩ : BufTy).Contents (Elt F)),
    StableHlo.unary main_v97 main_v99 (broadcastInDim S400000x1 ![0] bcast_S400000_S400000x1_0 : (⟨S400000, .i32⟩ : BufTy).Contents (Elt F) → (⟨S400000x1, .i32⟩ : BufTy).Contents (Elt F)),
    StableHlo.ternary main_v98 main_v99 main_v95 main_v100 ((fun x i u => Host.scatterAdd scatter_S200000x64_S400000x1_S400000x64_1_0_0_1 x i u) : (⟨S200000x64, .f32⟩ : BufTy).Contents (Elt F) → (⟨S400000x1, .i32⟩ : BufTy).Contents (Elt F) → (⟨S400000x64, .f32⟩ : BufTy).Contents (Elt F) → (⟨S200000x64, .f32⟩ : BufTy).Contents (Elt F)),
    StableHlo.nullary main_cst_14 (constant S_ .f32 0x3F800000#32),
    StableHlo.unary main_cst_14 main_v101 (broadcastInDim S400000x1 ![] bcast_S_S400000x1 : (⟨S_, .f32⟩ : BufTy).Contents (Elt F) → (⟨S400000x1, .f32⟩ : BufTy).Contents (Elt F)),
    StableHlo.unary main_arg4 main_v102 ((extractStridedSlice S1x400000 ![0, 0] · slices_S2x400000_S1x400000_0_0) : (⟨S2x400000, .i32⟩ : BufTy).Contents (Elt F) → (⟨S1x400000, .i32⟩ : BufTy).Contents (Elt F)),
    StableHlo.reshape main_v102 main_v103 rfl shapeCasts_S1x400000_S400000,
    StableHlo.nullary main_cst_15 (constant S_ .f32 0x00000000#32),
    StableHlo.unary main_cst_15 main_v104 (broadcastInDim S200000x1 ![] bcast_S_S200000x1 : (⟨S_, .f32⟩ : BufTy).Contents (Elt F) → (⟨S200000x1, .f32⟩ : BufTy).Contents (Elt F)),
    StableHlo.unary main_v103 main_v105 (broadcastInDim S400000x1 ![0] bcast_S400000_S400000x1_0 : (⟨S400000, .i32⟩ : BufTy).Contents (Elt F) → (⟨S400000x1, .i32⟩ : BufTy).Contents (Elt F)),
    StableHlo.ternary main_v104 main_v105 main_v101 main_v106 ((fun x i u => Host.scatterAdd scatter_S200000x1_S400000x1_S400000x1_1_0_0_1 x i u) : (⟨S200000x1, .f32⟩ : BufTy).Contents (Elt F) → (⟨S400000x1, .i32⟩ : BufTy).Contents (Elt F) → (⟨S400000x1, .f32⟩ : BufTy).Contents (Elt F) → (⟨S200000x1, .f32⟩ : BufTy).Contents (Elt F)),
    StableHlo.nullary main_cst_16 (constant S_ .f32 0x3F800000#32),
    StableHlo.unary main_cst_16 main_v107 (broadcastInDim S200000x1 ![] bcast_S_S200000x1 : (⟨S_, .f32⟩ : BufTy).Contents (Elt F) → (⟨S200000x1, .f32⟩ : BufTy).Contents (Elt F)),
    StableHlo.binary main_v106 main_v107 main_v108 (maximumf : (⟨S200000x1, .f32⟩ : BufTy).Contents (Elt F) → (⟨S200000x1, .f32⟩ : BufTy).Contents (Elt F) → (⟨S200000x1, .f32⟩ : BufTy).Contents (Elt F)),
    StableHlo.unary main_v108 main_v109 (broadcastInDim S200000x64 ![0, 1] bcast_S200000x1_S200000x64_0_1 : (⟨S200000x1, .f32⟩ : BufTy).Contents (Elt F) → (⟨S200000x64, .f32⟩ : BufTy).Contents (Elt F)),
    StableHlo.binary main_v100 main_v109 main_v110 (Host.divf : (⟨S200000x64, .f32⟩ : BufTy).Contents (Elt F) → (⟨S200000x64, .f32⟩ : BufTy).Contents (Elt F) → (⟨S200000x64, .f32⟩ : BufTy).Contents (Elt F)) ]
/-- Those of plane v. -/
abbrev tailV : List (HloOp τ sig (Elt F)) :=
  [ StableHlo.unary main_v92 main_v111 ((extractStridedSlice S1x400000x64 ![1, 0, 0] · slices_S3x400000x64_S1x400000x64_1_0_0) : (⟨S3x400000x64, .bf16⟩ : BufTy).Contents (Elt F) → (⟨S1x400000x64, .bf16⟩ : BufTy).Contents (Elt F)),
    StableHlo.reshape main_v111 main_v112 rfl shapeCasts_S1x400000x64_S400000x64,
    StableHlo.unary main_v112 main_v113 ((extf .f32 · bitsLt_bf16_f32) : (⟨S400000x64, .bf16⟩ : BufTy).Contents (Elt F) → (⟨S400000x64, .f32⟩ : BufTy).Contents (Elt F)),
    StableHlo.unary main_arg5 main_v114 ((extractStridedSlice S1x400000 ![0, 0] · slices_S2x400000_S1x400000_0_0) : (⟨S2x400000, .i32⟩ : BufTy).Contents (Elt F) → (⟨S1x400000, .i32⟩ : BufTy).Contents (Elt F)),
    StableHlo.reshape main_v114 main_v115 rfl shapeCasts_S1x400000_S400000,
    StableHlo.nullary main_cst_17 (constant S_ .f32 0x00000000#32),
    StableHlo.unary main_cst_17 main_v116 (broadcastInDim S200000x64 ![] bcast_S_S200000x64 : (⟨S_, .f32⟩ : BufTy).Contents (Elt F) → (⟨S200000x64, .f32⟩ : BufTy).Contents (Elt F)),
    StableHlo.unary main_v115 main_v117 (broadcastInDim S400000x1 ![0] bcast_S400000_S400000x1_0 : (⟨S400000, .i32⟩ : BufTy).Contents (Elt F) → (⟨S400000x1, .i32⟩ : BufTy).Contents (Elt F)),
    StableHlo.ternary main_v116 main_v117 main_v113 main_v118 ((fun x i u => Host.scatterAdd scatter_S200000x64_S400000x1_S400000x64_1_0_0_1 x i u) : (⟨S200000x64, .f32⟩ : BufTy).Contents (Elt F) → (⟨S400000x1, .i32⟩ : BufTy).Contents (Elt F) → (⟨S400000x64, .f32⟩ : BufTy).Contents (Elt F) → (⟨S200000x64, .f32⟩ : BufTy).Contents (Elt F)),
    StableHlo.nullary main_cst_18 (constant S_ .f32 0x3F800000#32),
    StableHlo.unary main_cst_18 main_v119 (broadcastInDim S400000x1 ![] bcast_S_S400000x1 : (⟨S_, .f32⟩ : BufTy).Contents (Elt F) → (⟨S400000x1, .f32⟩ : BufTy).Contents (Elt F)),
    StableHlo.unary main_arg5 main_v120 ((extractStridedSlice S1x400000 ![0, 0] · slices_S2x400000_S1x400000_0_0) : (⟨S2x400000, .i32⟩ : BufTy).Contents (Elt F) → (⟨S1x400000, .i32⟩ : BufTy).Contents (Elt F)),
    StableHlo.reshape main_v120 main_v121 rfl shapeCasts_S1x400000_S400000,
    StableHlo.nullary main_cst_19 (constant S_ .f32 0x00000000#32),
    StableHlo.unary main_cst_19 main_v122 (broadcastInDim S200000x1 ![] bcast_S_S200000x1 : (⟨S_, .f32⟩ : BufTy).Contents (Elt F) → (⟨S200000x1, .f32⟩ : BufTy).Contents (Elt F)),
    StableHlo.unary main_v121 main_v123 (broadcastInDim S400000x1 ![0] bcast_S400000_S400000x1_0 : (⟨S400000, .i32⟩ : BufTy).Contents (Elt F) → (⟨S400000x1, .i32⟩ : BufTy).Contents (Elt F)),
    StableHlo.ternary main_v122 main_v123 main_v119 main_v124 ((fun x i u => Host.scatterAdd scatter_S200000x1_S400000x1_S400000x1_1_0_0_1 x i u) : (⟨S200000x1, .f32⟩ : BufTy).Contents (Elt F) → (⟨S400000x1, .i32⟩ : BufTy).Contents (Elt F) → (⟨S400000x1, .f32⟩ : BufTy).Contents (Elt F) → (⟨S200000x1, .f32⟩ : BufTy).Contents (Elt F)),
    StableHlo.nullary main_cst_20 (constant S_ .f32 0x3F800000#32),
    StableHlo.unary main_cst_20 main_v125 (broadcastInDim S200000x1 ![] bcast_S_S200000x1 : (⟨S_, .f32⟩ : BufTy).Contents (Elt F) → (⟨S200000x1, .f32⟩ : BufTy).Contents (Elt F)),
    StableHlo.binary main_v124 main_v125 main_v126 (maximumf : (⟨S200000x1, .f32⟩ : BufTy).Contents (Elt F) → (⟨S200000x1, .f32⟩ : BufTy).Contents (Elt F) → (⟨S200000x1, .f32⟩ : BufTy).Contents (Elt F)),
    StableHlo.unary main_v126 main_v127 (broadcastInDim S200000x64 ![0, 1] bcast_S200000x1_S200000x64_0_1 : (⟨S200000x1, .f32⟩ : BufTy).Contents (Elt F) → (⟨S200000x64, .f32⟩ : BufTy).Contents (Elt F)),
    StableHlo.binary main_v118 main_v127 main_v128 (Host.divf : (⟨S200000x64, .f32⟩ : BufTy).Contents (Elt F) → (⟨S200000x64, .f32⟩ : BufTy).Contents (Elt F) → (⟨S200000x64, .f32⟩ : BufTy).Contents (Elt F)) ]
/-- Those of plane y. -/
abbrev tailY : List (HloOp τ sig (Elt F)) :=
  [ StableHlo.unary main_v92 main_v129 ((extractStridedSlice S1x400000x64 ![2, 0, 0] · slices_S3x400000x64_S1x400000x64_2_0_0) : (⟨S3x400000x64, .bf16⟩ : BufTy).Contents (Elt F) → (⟨S1x400000x64, .bf16⟩ : BufTy).Contents (Elt F)),
    StableHlo.reshape main_v129 main_v130 rfl shapeCasts_S1x400000x64_S400000x64,
    StableHlo.unary main_v130 main_v131 ((extf .f32 · bitsLt_bf16_f32) : (⟨S400000x64, .bf16⟩ : BufTy).Contents (Elt F) → (⟨S400000x64, .f32⟩ : BufTy).Contents (Elt F)),
    StableHlo.unary main_arg6 main_v132 ((extractStridedSlice S1x400000 ![0, 0] · slices_S2x400000_S1x400000_0_0) : (⟨S2x400000, .i32⟩ : BufTy).Contents (Elt F) → (⟨S1x400000, .i32⟩ : BufTy).Contents (Elt F)),
    StableHlo.reshape main_v132 main_v133 rfl shapeCasts_S1x400000_S400000,
    StableHlo.nullary main_cst_21 (constant S_ .f32 0x00000000#32),
    StableHlo.unary main_cst_21 main_v134 (broadcastInDim S200000x64 ![] bcast_S_S200000x64 : (⟨S_, .f32⟩ : BufTy).Contents (Elt F) → (⟨S200000x64, .f32⟩ : BufTy).Contents (Elt F)),
    StableHlo.unary main_v133 main_v135 (broadcastInDim S400000x1 ![0] bcast_S400000_S400000x1_0 : (⟨S400000, .i32⟩ : BufTy).Contents (Elt F) → (⟨S400000x1, .i32⟩ : BufTy).Contents (Elt F)),
    StableHlo.ternary main_v134 main_v135 main_v131 main_v136 ((fun x i u => Host.scatterAdd scatter_S200000x64_S400000x1_S400000x64_1_0_0_1 x i u) : (⟨S200000x64, .f32⟩ : BufTy).Contents (Elt F) → (⟨S400000x1, .i32⟩ : BufTy).Contents (Elt F) → (⟨S400000x64, .f32⟩ : BufTy).Contents (Elt F) → (⟨S200000x64, .f32⟩ : BufTy).Contents (Elt F)),
    StableHlo.nullary main_cst_22 (constant S_ .f32 0x3F800000#32),
    StableHlo.unary main_cst_22 main_v137 (broadcastInDim S400000x1 ![] bcast_S_S400000x1 : (⟨S_, .f32⟩ : BufTy).Contents (Elt F) → (⟨S400000x1, .f32⟩ : BufTy).Contents (Elt F)),
    StableHlo.unary main_arg6 main_v138 ((extractStridedSlice S1x400000 ![0, 0] · slices_S2x400000_S1x400000_0_0) : (⟨S2x400000, .i32⟩ : BufTy).Contents (Elt F) → (⟨S1x400000, .i32⟩ : BufTy).Contents (Elt F)),
    StableHlo.reshape main_v138 main_v139 rfl shapeCasts_S1x400000_S400000,
    StableHlo.nullary main_cst_23 (constant S_ .f32 0x00000000#32),
    StableHlo.unary main_cst_23 main_v140 (broadcastInDim S200000x1 ![] bcast_S_S200000x1 : (⟨S_, .f32⟩ : BufTy).Contents (Elt F) → (⟨S200000x1, .f32⟩ : BufTy).Contents (Elt F)),
    StableHlo.unary main_v139 main_v141 (broadcastInDim S400000x1 ![0] bcast_S400000_S400000x1_0 : (⟨S400000, .i32⟩ : BufTy).Contents (Elt F) → (⟨S400000x1, .i32⟩ : BufTy).Contents (Elt F)),
    StableHlo.ternary main_v140 main_v141 main_v137 main_v142 ((fun x i u => Host.scatterAdd scatter_S200000x1_S400000x1_S400000x1_1_0_0_1 x i u) : (⟨S200000x1, .f32⟩ : BufTy).Contents (Elt F) → (⟨S400000x1, .i32⟩ : BufTy).Contents (Elt F) → (⟨S400000x1, .f32⟩ : BufTy).Contents (Elt F) → (⟨S200000x1, .f32⟩ : BufTy).Contents (Elt F)),
    StableHlo.nullary main_cst_24 (constant S_ .f32 0x3F800000#32),
    StableHlo.unary main_cst_24 main_v143 (broadcastInDim S200000x1 ![] bcast_S_S200000x1 : (⟨S_, .f32⟩ : BufTy).Contents (Elt F) → (⟨S200000x1, .f32⟩ : BufTy).Contents (Elt F)),
    StableHlo.binary main_v142 main_v143 main_v144 (maximumf : (⟨S200000x1, .f32⟩ : BufTy).Contents (Elt F) → (⟨S200000x1, .f32⟩ : BufTy).Contents (Elt F) → (⟨S200000x1, .f32⟩ : BufTy).Contents (Elt F)),
    StableHlo.unary main_v144 main_v145 (broadcastInDim S200000x64 ![0, 1] bcast_S200000x1_S200000x64_0_1 : (⟨S200000x1, .f32⟩ : BufTy).Contents (Elt F) → (⟨S200000x64, .f32⟩ : BufTy).Contents (Elt F)),
    StableHlo.binary main_v136 main_v145 main_v146 (Host.divf : (⟨S200000x64, .f32⟩ : BufTy).Contents (Elt F) → (⟨S200000x64, .f32⟩ : BufTy).Contents (Elt F) → (⟨S200000x64, .f32⟩ : BufTy).Contents (Elt F)) ]
/-- The stacking of the three results. -/
abbrev tailStack : List (HloOp τ sig (Elt F)) :=
  [ StableHlo.unary main_v110 main_v147 (broadcastInDim S1x200000x64 ![1, 2] bcast_S200000x64_S1x200000x64_1_2 : (⟨S200000x64, .f32⟩ : BufTy).Contents (Elt F) → (⟨S1x200000x64, .f32⟩ : BufTy).Contents (Elt F)),
    StableHlo.unary main_v128 main_v148 (broadcastInDim S1x200000x64 ![1, 2] bcast_S200000x64_S1x200000x64_1_2 : (⟨S200000x64, .f32⟩ : BufTy).Contents (Elt F) → (⟨S1x200000x64, .f32⟩ : BufTy).Contents (Elt F)),
    StableHlo.unary main_v146 main_v149 (broadcastInDim S1x200000x64 ![1, 2] bcast_S200000x64_S1x200000x64_1_2 : (⟨S200000x64, .f32⟩ : BufTy).Contents (Elt F) → (⟨S1x200000x64, .f32⟩ : BufTy).Contents (Elt F)),
    StableHlo.nary ![main_v147, main_v148, main_v149] main_v150 (fun u => concatenate S3x200000x64 0 [⟨S1x200000x64, u 0⟩, ⟨S1x200000x64, u 1⟩, ⟨S1x200000x64, u 2⟩] concatenates_S1x200000x64_S1x200000x64_S1x200000x64_S3x200000x64_d0) ]

/-- The last stretch is the four pieces in order. -/
theorem hostOps2_pieces : (hostOps2 (F := F)) = tailU ++ (tailV ++ (tailY ++ tailStack)) := rfl

/-- Running a list of host operations piece by piece. -/
theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op ops ih => exact ih (op.result V)

end Pieces

variable (V : Valuation τ sig (Elt Ideal))

set_option maxHeartbeats 2000000 in
theorem tailU_mean : StableHlo.after (tailU (F := Ideal)) V (no_index (Proc.devRef .tc main_v110)) = meanRows (V (Proc.devRef .tc main_arg4)) (plane0 (V (Proc.devRef .tc main_v92))) := by
  after_results_simp
  try dsimp only [Matrix.cons_val]
  try after_results_simp
  rfl
theorem tailU_keeps_arg5 : StableHlo.after (tailU (F := Ideal)) V (no_index (Proc.devRef .tc main_arg5)) = V (Proc.devRef .tc main_arg5) := by
  after_results_simp
theorem tailU_keeps_arg6 : StableHlo.after (tailU (F := Ideal)) V (no_index (Proc.devRef .tc main_arg6)) = V (Proc.devRef .tc main_arg6) := by
  after_results_simp
theorem tailU_keeps_v92 : StableHlo.after (tailU (F := Ideal)) V (no_index (Proc.devRef .tc main_v92)) = V (Proc.devRef .tc main_v92) := by
  after_results_simp

set_option maxHeartbeats 2000000 in
theorem tailV_mean : StableHlo.after (tailV (F := Ideal)) V (no_index (Proc.devRef .tc main_v128)) = meanRows (V (Proc.devRef .tc main_arg5)) (plane1 (V (Proc.devRef .tc main_v92))) := by
  after_results_simp
  try dsimp only [Matrix.cons_val]
  try after_results_simp
  rfl
theorem tailV_keeps_arg6 : StableHlo.after (tailV (F := Ideal)) V (no_index (Proc.devRef .tc main_arg6)) = V (Proc.devRef .tc main_arg6) := by
  after_results_simp
theorem tailV_keeps_v92 : StableHlo.after (tailV (F := Ideal)) V (no_index (Proc.devRef .tc main_v92)) = V (Proc.devRef .tc main_v92) := by
  after_results_simp
theorem tailV_keeps_v110 : StableHlo.after (tailV (F := Ideal)) V (no_index (Proc.devRef .tc main_v110)) = V (Proc.devRef .tc main_v110) := by
  after_results_simp

set_option maxHeartbeats 2000000 in
theorem tailY_mean : StableHlo.after (tailY (F := Ideal)) V (no_index (Proc.devRef .tc main_v146)) = meanRows (V (Proc.devRef .tc main_arg6)) (plane2 (V (Proc.devRef .tc main_v92))) := by
  after_results_simp
  try dsimp only [Matrix.cons_val]
  try after_results_simp
  rfl
theorem tailY_keeps_v110 : StableHlo.after (tailY (F := Ideal)) V (no_index (Proc.devRef .tc main_v110)) = V (Proc.devRef .tc main_v110) := by
  after_results_simp
theorem tailY_keeps_v128 : StableHlo.after (tailY (F := Ideal)) V (no_index (Proc.devRef .tc main_v128)) = V (Proc.devRef .tc main_v128) := by
  after_results_simp

set_option maxHeartbeats 2000000 in
theorem tailStack_result : StableHlo.after (tailStack (F := Ideal)) V (no_index (Proc.devRef .tc main_v150))
    = stackPlanes (broadcastInDim S1x200000x64 ![1, 2] bcast_S200000x64_S1x200000x64_1_2 (V (Proc.devRef .tc main_v110)))
        (broadcastInDim S1x200000x64 ![1, 2] bcast_S200000x64_S1x200000x64_1_2 (V (Proc.devRef .tc main_v128)))
        (broadcastInDim S1x200000x64 ![1, 2] bcast_S200000x64_S1x200000x64_1_2 (V (Proc.devRef .tc main_v146))) := by
  after_results_simp
  try dsimp only [Matrix.cons_val]
  try after_results_simp
  rfl

/-- The whole last stretch. -/
theorem stretch2_result : StableHlo.after (hostOps2 (F := Ideal)) V (Proc.devRef .tc main_v150)
    = stackPlanes (meanOntoHits (V (Proc.devRef .tc main_arg4)) (plane0 (V (Proc.devRef .tc main_v92))))
        (meanOntoHits (V (Proc.devRef .tc main_arg5)) (plane1 (V (Proc.devRef .tc main_v92))))
        (meanOntoHits (V (Proc.devRef .tc main_arg6)) (plane2 (V (Proc.devRef .tc main_v92)))) := by
  rw [hostOps2_pieces, after_append, after_append, after_append]
  refine (tailStack_result _).trans ?_
  rw [tailY_mean, tailY_keeps_v110, tailY_keeps_v128, tailV_mean, tailV_keeps_v110, tailV_keeps_arg6, tailV_keeps_v92,
    tailU_mean, tailU_keeps_arg5, tailU_keeps_arg6, tailU_keeps_v92]
  rfl

end Cert.KernelIdeal.Whole

end
-- ==== Proof.NodeNet.lean ====
/-
  The node network as one function of whole arrays, index by index: a layer is
  tanh(A·W + b) with the bias row b laid along every row of the product, and the network is two
  layers, tanh(tanh(X·W1 + b1)·W2 + b2). Stated over literal extents, for any number of rows, with the
  two ways a program spells a layer (a tile product accumulated into zero after roundings that are the
  identity on the extended reals; a host product plus a broadcast row) each shown to be the layer.
-/
import Idealize.ShloMosaic.Lib.StackMember

noncomputable section

namespace Cert.NodeNet

open Idealize.ShloMosaic Idealize.ShloMosaic.ValueIdx
open scoped BigOperators

/-- Entry (r, c) of a layer: tanh of row r of `A` against column c of `W`, plus entry c of the bias row. -/
def layerAt {m k n : Nat} (A : FVec Ideal ⟨2, ![m, k]⟩ .f32) (W : FVec Ideal ⟨2, ![k, n]⟩ .f32)
    (b : FVec Ideal ⟨2, ![1, n]⟩ .f32) (r : Fin m) (c : Fin n) : EReal :=
  Ideal.tanh ((∑ q : Fin k, A (ix2 r q) * W (ix2 q c)) + b (ix2 (0 : Fin 1) c))

/-- A layer: tanh(A·W + b), the bias row along every row. -/
def layer {m k n : Nat} (A : FVec Ideal ⟨2, ![m, k]⟩ .f32) (W : FVec Ideal ⟨2, ![k, n]⟩ .f32)
    (b : FVec Ideal ⟨2, ![1, n]⟩ .f32) : FVec Ideal ⟨2, ![m, n]⟩ .f32 :=
  fun i => layerAt A W b (i 0) (i 1)

theorem layer_ix2 {m k n : Nat} (A : FVec Ideal ⟨2, ![m, k]⟩ .f32) (W : FVec Ideal ⟨2, ![k, n]⟩ .f32)
    (b : FVec Ideal ⟨2, ![1, n]⟩ .f32) (r : Fin m) (c : Fin n) : layer A W b (ix2 r c) = layerAt A W b r c := rfl

/-- A layer's row depends on the same row of its input only: if `A'` is `A` with its rows picked by `ρ`,
    the layer of `A'` is the layer of `A` with its rows picked by `ρ`. -/
theorem layerAt_rows {m m' k n : Nat} (A : FVec Ideal ⟨2, ![m, k]⟩ .f32) (A' : FVec Ideal ⟨2, ![m', k]⟩ .f32)
    (W : FVec Ideal ⟨2, ![k, n]⟩ .f32) (b : FVec Ideal ⟨2, ![1, n]⟩ .f32) (ρ : Fin m' → Fin m)
    (h : ∀ p q, A' (ix2 p q) = A (ix2 (ρ p) q)) (p : Fin m') (c : Fin n) :
    layerAt A' W b p c = layerAt A W b (ρ p) c := by
  unfold layerAt
  rw [Finset.sum_congr rfl fun q _ => by rw [h p q]]

/-- The two-layer network. -/
def net {m k h n : Nat} (X : FVec Ideal ⟨2, ![m, k]⟩ .f32) (W1 : FVec Ideal ⟨2, ![k, h]⟩ .f32) (b1 : FVec Ideal ⟨2, ![1, h]⟩ .f32)
    (W2 : FVec Ideal ⟨2, ![h, n]⟩ .f32) (b2 : FVec Ideal ⟨2, ![1, n]⟩ .f32) : FVec Ideal ⟨2, ![m, n]⟩ .f32 :=
  layer (layer X W1 b1) W2 b2

/-- The network's row depends on the same row of its input only. -/
theorem net_rows {m m' k h n : Nat} (X : FVec Ideal ⟨2, ![m, k]⟩ .f32) (X' : FVec Ideal ⟨2, ![m', k]⟩ .f32)
    (W1 : FVec Ideal ⟨2, ![k, h]⟩ .f32) (b1 : FVec Ideal ⟨2, ![1, h]⟩ .f32)
    (W2 : FVec Ideal ⟨2, ![h, n]⟩ .f32) (b2 : FVec Ideal ⟨2, ![1, n]⟩ .f32) (ρ : Fin m' → Fin m)
    (hX : ∀ p q, X' (ix2 p q) = X (ix2 (ρ p) q)) (p : Fin m') (c : Fin n) :
    net X' W1 b1 W2 b2 (ix2 p c) = net X W1 b1 W2 b2 (ix2 (ρ p) c) := by
  unfold net
  rw [layer_ix2, layer_ix2]
  exact layerAt_rows (layer X W1 b1) (layer X' W1 b1) W2 b2 ρ
    (fun p' q => by rw [layer_ix2, layer_ix2]; exact layerAt_rows X X' W1 b1 ρ hX p' q) p c

/-- A tile product accumulated into the zero splat, read at (r, c): the sum over the contracted coordinate. -/
theorem matmul_plain_apply {m k n : Nat} {φ₁ φ₂ : FTy} (prec : Option ContractPrecision)
    (A : FVec Ideal ⟨2, ![m, k]⟩ φ₁) (B : FVec Ideal ⟨2, ![k, n]⟩ φ₂) (r : Fin m) (c : Fin n) :
    matmul (DotDims.plain m k n) prec A B (constant ⟨2, ![m, n]⟩ .f32 0x00000000#32) (ix2 r c)
      = ∑ q : Fin k, A (ix2 r q) * B (ix2 q c) := by
  rw [matmul_zero_eq_dotGeneral]
  exact StackMember.dotGeneral_plain_apply prec A B r c

/-- THE KERNEL'S SPELLING of a layer on a tile: both operands rounded to bf16 (the identity on the extended
    reals), the product accumulated into zero, the bias row cast to itself and broadcast down the rows. -/
theorem kernelLayer_eq {m k n : Nat} (A : FVec Ideal ⟨2, ![m, k]⟩ .f32) (W : FVec Ideal ⟨2, ![k, n]⟩ .f32)
    (b : FVec Ideal ⟨2, ![1, n]⟩ .f32) (hA : FTy.bf16.bits < FTy.f32.bits)
    (hc : (⟨2, ![1, n]⟩ : Shape).ShapeCasts ⟨2, ![1, n]⟩) (hb : (⟨2, ![1, n]⟩ : Shape).Broadcasts ⟨2, ![m, n]⟩) :
    tanh (addf (matmul (DotDims.plain m k n) none (truncf .bf16 A hA) (truncf .bf16 W hA) (constant ⟨2, ![m, n]⟩ .f32 0x00000000#32))
      (broadcastTo ⟨2, ![m, n]⟩ (shapeCast ⟨2, ![1, n]⟩ b hc) hb)) = layer A W b := by
  funext i
  obtain ⟨r, c, rfl⟩ : ∃ (r : Fin m) (c : Fin n), i = ix2 r c := ⟨i 0, i 1, eq_ix2 i⟩
  rw [layer_ix2]
  unfold layerAt
  show Ideal.tanh (matmul (DotDims.plain m k n) none (truncf .bf16 A hA) (truncf .bf16 W hA) (constant ⟨2, ![m, n]⟩ .f32 0x00000000#32) (ix2 r c)
      + broadcastTo ⟨2, ![m, n]⟩ (shapeCast ⟨2, ![1, n]⟩ b hc) hb (ix2 r c)) = _
  rw [matmul_plain_apply, shapeCast_self]
  have e : broadcastTo ⟨2, ![m, n]⟩ b hb (ix2 r c) = b (ix2 (0 : Fin 1) c) :=
    broadcastTo_apply b hb (ix2 r c) (ix2 (0 : Fin 1) c) (by
      intro a
      match a with
      | ⟨0, _⟩ => rfl
      | ⟨1, _⟩ =>
        show c.val = if n = 1 then 0 else c.val
        split
        · have := c.isLt; omega
        · rfl)
  rw [e]
  rfl

/-- THE HOST'S SPELLING of a layer: the product with no accumulator, the bias row broadcast along both axes. -/
theorem hostLayer_eq {m k n : Nat} (A : FVec Ideal ⟨2, ![m, k]⟩ .f32) (W : FVec Ideal ⟨2, ![k, n]⟩ .f32)
    (b : FVec Ideal ⟨2, ![1, n]⟩ .f32) (hbc : (⟨2, ![1, n]⟩ : Shape).BroadcastsInDim ⟨2, ![m, n]⟩ ![0, 1]) :
    Host.tanh (addf (Host.dotGeneral (DotDims.plain m k n) none A W) (broadcastInDim ⟨2, ![m, n]⟩ ![0, 1] hbc b)) = layer A W b := by
  funext i
  obtain ⟨r, c, rfl⟩ : ∃ (r : Fin m) (c : Fin n), i = ix2 r c := ⟨i 0, i 1, eq_ix2 i⟩
  rw [layer_ix2]
  unfold layerAt
  show Ideal.tanh (Host.dotGeneral (DotDims.plain m k n) none A W (ix2 r c) + broadcastInDim ⟨2, ![m, n]⟩ ![0, 1] hbc b (ix2 r c)) = _
  rw [StackMember.dotGeneral_plain_apply, broadcastInDim_oneRow_apply]

/-- A vector laid as a one-row matrix: the host's broadcast along axis 1 and a reshape are the same row. -/
theorem row_eq {n : Nat} (a : FVec Ideal ⟨1, ![n]⟩ .f32) (hd : (⟨1, ![n]⟩ : Shape).BroadcastsInDim ⟨2, ![1, n]⟩ ![1])
    (hc : (⟨1, ![n]⟩ : Shape).ShapeCasts ⟨2, ![1, n]⟩) :
    broadcastInDim ⟨2, ![1, n]⟩ ![1] hd a = shapeCast ⟨2, ![1, n]⟩ a hc := by
  funext i
  obtain ⟨r, c, rfl⟩ : ∃ (r : Fin 1) (c : Fin n), i = ix2 r c := ⟨i 0, i 1, eq_ix2 i⟩
  have hr : r = 0 := Subsingleton.elim _ _
  subst hr
  have e1 := broadcastInDim_apply ![1] hd a (ix2 (0 : Fin 1) c) (ix1 c) (by
    intro x
    match x with
    | ⟨0, _⟩ =>
      show c.val = if n = 1 then 0 else c.val
      split
      · have := c.isLt; omega
      · rfl)
  have e2 := shapeCast_apply a hc (ix2 (0 : Fin 1) c) (ix1 c) (by
    rw [Shape.rowMajor_val_two, Shape.rowMajor_val_one]; show c.val = 0 * n + c.val; omega)
  exact e1.trans e2.symm

end Cert.NodeNet

namespace Cert.KernelIdeal.NodeMlp

open Idealize.ShloMosaic

/-- THE NODE NETWORK on the whole arrays: 50000 nodes of 192 aggregated features, a hidden layer of 64, a result of 64:
    `nodeNet X W1 b1 W2 b2 (r, c) = tanh(∑ₖ tanh(∑_q X(r,q)·W1(q,k) + b1(0,k)) · W2(k,c) + b2(0,c))`. -/
def nodeNet (X : FVec Ideal ⟨2, ![50000, 192]⟩ .f32) (W1 : FVec Ideal ⟨2, ![192, 64]⟩ .f32) (b1 : FVec Ideal ⟨2, ![1, 64]⟩ .f32)
    (W2 : FVec Ideal ⟨2, ![64, 64]⟩ .f32) (b2 : FVec Ideal ⟨2, ![1, 64]⟩ .f32) : FVec Ideal ⟨2, ![50000, 64]⟩ .f32 :=
  Cert.NodeNet.net X W1 b1 W2 b2

end Cert.KernelIdeal.NodeMlp

end
-- ==== Proof.NodeMlpValue.lean ====
/-
  The node network's launch, read: after its ten tiles the result array holds `nodeNet` of the five input
  arrays as the launch finds them. Each tile's payload is the two-layer network on the tile's rows; tile t's
  input block is rows 5000 t … 5000 t + 4999 of the features and the four small arrays whole; a layer's row
  depends on the same row of its input only; the ten result blocks tile the 50000 rows.
-/
import proofs.«154189_j4853313045170_2_alg».proof.Proof.NodeMlp
import proofs.«154189_j4853313045170_2_alg».proof.Proof.NodeNet
import Idealize.ShloMosaic.Lib.Pipeline.Value

set_option maxRecDepth 16384

noncomputable section

namespace Cert.KernelIdeal.NodeMlp

open Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The two products' dimension numbers are the plain rows-by-columns ones. -/
theorem dot1_eq : dot_S5000x192_S192x64_S5000x64_1_0_0_1_n_n = DotDims.plain 5000 192 64 := rfl
theorem dot2_eq : dot_S5000x64_S64x64_S5000x64_1_0_0_1_n_n = DotDims.plain 5000 64 64 := rfl

/-- A tile's payload is the two-layer network on the tile. -/
theorem pay_eq (x0 : Vec Ideal S5000x192 .f32) (x1 : Vec Ideal S192x64 .f32) (x2 : Vec Ideal S1x64 .f32)
    (x3 : Vec Ideal S64x64 .f32) (x4 : Vec Ideal S1x64 .f32) :
    k0_pay1 x0 x1 x2 x3 x4 = Cert.NodeNet.net x0 x1 x2 x3 x4 := by
  unfold k0_pay1 Cert.NodeNet.net
  dsimp only
  rw [shapeCast_self x0, dot1_eq, dot2_eq, Cert.NodeNet.kernelLayer_eq, Cert.NodeNet.kernelLayer_eq]

/-- The payload at row p of tile t is the network at row 5000 t + p of the whole arrays, for tile contents that are
    those rows of the features and the small arrays whole. -/
theorem tile_eq (X : FVec Ideal S50000x192 .f32) (W1 : FVec Ideal S192x64 .f32) (b1 : FVec Ideal S1x64 .f32)
    (W2 : FVec Ideal S64x64 .f32) (b2 : FVec Ideal S1x64 .f32)
    (x0 : Vec Ideal S5000x192 .f32) (x1 : Vec Ideal S192x64 .f32) (x2 : Vec Ideal S1x64 .f32)
    (x3 : Vec Ideal S64x64 .f32) (x4 : Vec Ideal S1x64 .f32) (t : Nat) (ht : t < 10)
    (h0 : ∀ (p : Fin 5000) (q : Fin 192), x0 (ix2 p q) = X (ix2 (⟨t * 5000 + p.val, by omega⟩ : Fin 50000) q))
    (h1 : x1 = W1) (h2 : x2 = b1) (h3 : x3 = W2) (h4 : x4 = b2) (p : Fin 5000) (c : Fin 64) :
    k0_pay1 x0 x1 x2 x3 x4 (ix2 p c) = nodeNet X W1 b1 W2 b2 (ix2 (⟨t * 5000 + p.val, by omega⟩ : Fin 50000) c) := by
  subst h1 h2 h3 h4
  rw [pay_eq]
  unfold nodeNet
  exact Cert.NodeNet.net_rows X x0 x1 x2 x3 x4 (fun p => ⟨t * 5000 + p.val, by omega⟩) h0 p c

/-- The windows' block indices, decided over the ten tiles: the features' and the result's block is the tile's
    number along the rows, every other index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The features' block at tile t is rows 5000 t … of the features. -/
theorem iblk0_0_apply (c : Dev nD) (t : Fin cfg0.N) (x : S5000x192.Idx) (k : S50000x192.Idx)
    (hk0 : (k 0).val = t.val * 5000 + (x 0).val) (hk1 : (k 1).val = (x 1).val) :
    (iblk0 V c 0 t : Vec Ideal S5000x192 .f32) x = (V c (Pipeline.arrRef spec0 0) : S50000x192.Idx → Elt Ideal .f32) k := by
  obtain ⟨e0, e1, -⟩ := idx_facts t
  unfold iblk0
  rw [View.read_apply]
  refine congrArg (V c (Pipeline.arrRef spec0 0)) ?_
  funext a
  apply Fin.ext
  match a with
  | ⟨0, _⟩ => show win0_0.index t 0 * 5000 + 1 * (x 0).val = (k 0).val; rw [e0, hk0]; omega
  | ⟨1, _⟩ => show win0_0.index t 1 * 192 + 1 * (x 1).val = (k 1).val; rw [e1, hk1]; omega

/-- Each small array's block at any tile is the array. -/
theorem iblk0_1_eq (c : Dev nD) (t : Fin cfg0.N) :
    (iblk0 V c 1 t : Vec Ideal S192x64 .f32) = (V c (Pipeline.arrRef spec0 1) : S192x64.Idx → Elt Ideal .f32) := by
  obtain ⟨-, -, e0, e1, -⟩ := idx_facts t
  funext x
  unfold iblk0
  rw [View.read_apply]
  refine congrArg (V c (Pipeline.arrRef spec0 1)) ?_
  funext a
  apply Fin.ext
  match a with
  | ⟨0, _⟩ => show win0_1.index t 0 * 192 + 1 * (x 0).val = (x 0).val; rw [e0]; omega
  | ⟨1, _⟩ => show win0_1.index t 1 * 64 + 1 * (x 1).val = (x 1).val; rw [e1]; omega

theorem iblk0_2_eq (c : Dev nD) (t : Fin cfg0.N) :
    (iblk0 V c 2 t : Vec Ideal S1x64 .f32) = (V c (Pipeline.arrRef spec0 2) : S1x64.Idx → Elt Ideal .f32) := by
  obtain ⟨-, -, -, -, e0, e1, -⟩ := idx_facts t
  funext x
  unfold iblk0
  rw [View.read_apply]
  refine congrArg (V c (Pipeline.arrRef spec0 2)) ?_
  funext a
  apply Fin.ext
  match a with
  | ⟨0, _⟩ => show win0_2.index t 0 * 1 + 1 * (x 0).val = (x 0).val; rw [e0]; omega
  | ⟨1, _⟩ => show win0_2.index t 1 * 64 + 1 * (x 1).val = (x 1).val; rw [e1]; omega

theorem iblk0_3_eq (c : Dev nD) (t : Fin cfg0.N) :
    (iblk0 V c 3 t : Vec Ideal S64x64 .f32) = (V c (Pipeline.arrRef spec0 3) : S64x64.Idx → Elt Ideal .f32) := by
  obtain ⟨-, -, -, -, -, -, e0, e1, -⟩ := idx_facts t
  funext x
  unfold iblk0
  rw [View.read_apply]
  refine congrArg (V c (Pipeline.arrRef spec0 3)) ?_
  funext a
  apply Fin.ext
  match a with
  | ⟨0, _⟩ => show win0_3.index t 0 * 64 + 1 * (x 0).val = (x 0).val; rw [e0]; omega
  | ⟨1, _⟩ => show win0_3.index t 1 * 64 + 1 * (x 1).val = (x 1).val; rw [e1]; omega

theorem iblk0_4_eq (c : Dev nD) (t : Fin cfg0.N) :
    (iblk0 V c 4 t : Vec Ideal S1x64 .f32) = (V c (Pipeline.arrRef spec0 4) : S1x64.Idx → Elt Ideal .f32) := by
  obtain ⟨-, -, -, -, -, -, -, -, e0, e1, -⟩ := idx_facts t
  funext x
  unfold iblk0
  rw [View.read_apply]
  refine congrArg (V c (Pipeline.arrRef spec0 4)) ?_
  funext a
  apply Fin.ext
  match a with
  | ⟨0, _⟩ => show win0_4.index t 0 * 1 + 1 * (x 0).val = (x 0).val; rw [e0]; omega
  | ⟨1, _⟩ => show win0_4.index t 1 * 64 + 1 * (x 1).val = (x 1).val; rw [e1]; omega

/-- WHAT TILE t WRITES BACK is block t of `nodeNet` of the arrays as the launch finds them. -/
theorem flushed0_5_eq (c : Dev nD) (t : Fin cfg0.N) :
    (dat0 (F := Ideal) V c).flushed 5 t = ((cfg0.win 5).blk t).view.read (Elt Ideal)
      (nodeNet (V c (Pipeline.arrRef spec0 0)) (V c (Pipeline.arrRef spec0 1)) (V c (Pipeline.arrRef spec0 2))
        (V c (Pipeline.arrRef spec0 3)) (V c (Pipeline.arrRef spec0 4))) := by
  show (cfg0.win 5).cut (grid0.coords t) ((dat0 V c).after 5 t) = _
  rw [after0_5]
  unfold out0_5
  rw [View.canon_unit_zero hz]
  simp only [View.ld_unit_zero (S := S5000x192) hz, View.ld_unit_zero (S := S192x64) hz, View.ld_unit_zero (S := S1x64) hz,
    View.ld_unit_zero (S := S64x64) hz]
  have hN : cfg0.N = 10 := N_0
  have ht : t.val < 10 := by have := t.isLt; omega
  obtain ⟨-, -, -, -, -, -, -, -, -, -, e0, e1⟩ := idx_facts t
  funext j
  obtain ⟨p, q, rfl⟩ : ∃ (p : Fin 5000) (q : Fin 64), j = ix2 p q := ⟨j 0, j 1, eq_ix2 j⟩
  rw [View.read_apply]
  have hemb : ((cfg0.win 5).blk t).view.emb (ix2 p q) = (ix2 (⟨t.val * 5000 + p.val, by omega⟩ : Fin 50000) q : S50000x64.Idx) := by
    funext a
    apply Fin.ext
    match a with
    | ⟨0, _⟩ => show win0_5.index t 0 * 5000 + 1 * p.val = t.val * 5000 + p.val; rw [e0]; omega
    | ⟨1, _⟩ => show win0_5.index t 1 * 64 + 1 * q.val = q.val; rw [e1]; omega
  rw [hemb]
  exact tile_eq _ _ _ _ _ _ _ _ _ _ t.val ht
    (fun p' q' => iblk0_0_apply V c t (ix2 p' q') (ix2 (⟨t.val * 5000 + p'.val, by omega⟩ : Fin 50000) q') rfl rfl)
    (iblk0_1_eq V c t) (iblk0_2_eq V c t) (iblk0_3_eq V c t) (iblk0_4_eq V c t) p q

/-- An index of the result array is in tile t's block iff each coordinate is in the block's range on its axis. -/
theorem mem_blk5 (t : Fin cfg0.N) (i : S50000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole main_v45).slice (win0_5.rect t)).set ↔ _
  rw [View.set_slice_whole, Rect.mem_set_unit]
  exact Iff.rfl

/-- Row r of the result is in the block of tile r / 5000, which is written back. -/
theorem cover5 (i : S50000x64.Idx) : ∃ t : Fin cfg0.N, (cfg0.win 5).flush t = true ∧ i ∈ ((cfg0.win 5).blk t).view.set := by
  have hN : cfg0.N = 10 := N_0
  have hi0 : (i 0).val < 50000 := (i 0).isLt
  have hi1 : (i 1).val < 64 := (i 1).isLt
  let t : Fin cfg0.N := ⟨(i 0).val / 5000, by omega⟩
  obtain ⟨-, -, -, -, -, -, -, -, -, -, e0, e1⟩ := idx_facts t
  have ht : t.val = (i 0).val / 5000 := rfl
  refine ⟨t, flush0_5 t, ?_⟩
  rw [mem_blk5]
  intro a
  match a with
  | ⟨0, _⟩ => show win0_5.index t 0 * 5000 ≤ (i 0).val ∧ (i 0).val < win0_5.index t 0 * 5000 + 5000; rw [e0, ht]; omega
  | ⟨1, _⟩ => show win0_5.index t 1 * 64 ≤ (i 1).val ∧ (i 1).val < win0_5.index t 1 * 64 + 64; rw [e1]; omega

/-- THE RESULT ARRAY after the launch: `nodeNet` of the five input arrays as the launch finds them. -/
theorem final0 (c : Dev nD) : (dat0 (F := Ideal) V c).arrAt 5 cfg0.N
    = nodeNet (V c (Pipeline.arrRef spec0 0)) (V c (Pipeline.arrRef spec0 1)) (V c (Pipeline.arrRef spec0 2))
        (V c (Pipeline.arrRef spec0 3)) (V c (Pipeline.arrRef spec0 4)) :=
  (dat0 V c).arrAt_eq_of_cover 5 _ (fun t _ => flushed0_5_eq V c t) cover5

end Cert.KernelIdeal.NodeMlp

end
-- ==== Proof.GateSpec.lean ====
/-
  The edge gate's result as one function of the three stacked arrays, entry by entry.
-/
import proofs.«154189_j4853313045170_2_alg».proof.Proof.Gen.KernelIdeal
import Idealize.ShloMosaic.Lib.ValueIdx

noncomputable section

namespace Cert.KernelIdeal.EdgeGate

open Cert.KernelIdeal
open Idealize.ShloMosaic
open Idealize.ShloMosaic.ValueIdx
open scoped BigOperators

/-- The gate at plane `p`, edge `e`, feature `j`: the logistic of the edge's 128 stacked features against column `j` of
    the plane's weights plus the plane's bias, times the edge's node feature `j` (the second half of its row). -/
def gatedAt (cat : FVec Ideal S3x400000x128 .bf16) (W : FVec Ideal S3x128x64 .f32) (b : FVec Ideal S3x1x64 .f32)
    (p : Fin 3) (e : Fin 400000) (j : Fin 64) : Ideal .bf16 :=
  Ideal.logistic (∑ k : Fin 128, cat (ix3 p e k) * W (ix3 p k j) + b (ix3 p (0 : Fin 1) j))
    * cat (ix3 p e (⟨64 + j.val, by omega⟩ : Fin 128))

/-- The whole result: the gate at every plane, edge and feature. -/
def gated (cat : FVec Ideal S3x400000x128 .bf16) (W : FVec Ideal S3x128x64 .f32) (b : FVec Ideal S3x1x64 .f32) :
    FVec Ideal S3x400000x64 .bf16 :=
  fun i => gatedAt cat W b (i 0) (i 1) (i 2)

theorem gated_apply (cat : FVec Ideal S3x400000x128 .bf16) (W : FVec Ideal S3x128x64 .f32) (b : FVec Ideal S3x1x64 .f32)
    (p : Fin 3) (e : Fin 400000) (j : Fin 64) : gated cat W b (ix3 p e j) = gatedAt cat W b p e j := rfl

end Cert.KernelIdeal.EdgeGate

end
-- ==== Proof.EdgeGateValue.lean ====
/-
  The edge gate's launch, read: what each point writes back is its block of one whole-array function of the three
  stacked arrays, and the blocks tile the result array, so the result array ends holding that function.
-/
import proofs.«154189_j4853313045170_2_alg».proof.Proof.EdgeGate
import proofs.«154189_j4853313045170_2_alg».proof.Proof.GateSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.EdgeGate

open Cert.KernelIdeal.Gen
open Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

/-- The tile product at an entry: the sum over the 128 columns of the row's entries times the weight column's. -/
theorem tile_matmul_apply (A : FVec Ideal S10000x128 .bf16) (B : FVec Ideal S128x64 .bf16) (r : Fin 10000) (j : Fin 64) :
    matmul dot_S10000x128_S128x64_S10000x64_1_0_0_1_n_n none A B (constant S10000x64 .f32 0x00000000#32) (ix2 r j)
      = ∑ k : Fin 128, A (ix2 r k) * B (ix2 k j) := by
  show FloatOps.matmul _ none A B _ (ix2 r j) = _
  rw [Ideal.matmul_constant_zero_apply,
    ← Equiv.sum_comp (contrEquiv1 dot_S10000x128_S128x64_S10000x64_1_0_0_1_n_n 128 rfl rfl).symm]
  refine Finset.sum_congr rfl fun c _ => ?_
  have c2 := contrEquiv1_symm_val dot_S10000x128_S128x64_S10000x64_1_0_0_1_n_n 128 rfl rfl c
  have l2 : dot_S10000x128_S128x64_S10000x64_1_0_0_1_n_n.lhsIdx (ix2 r j)
      ((contrEquiv1 dot_S10000x128_S128x64_S10000x64_1_0_0_1_n_n 128 rfl rfl).symm c) = ix2 r c := by
    funext ax; apply Fin.ext
    match ax with
    | ⟨0, _⟩ => simp [DotDims.lhsIdx, dot_S10000x128_S128x64_S10000x64_1_0_0_1_n_n]; rfl
    | ⟨1, _⟩ => simp [DotDims.lhsIdx, dot_S10000x128_S128x64_S10000x64_1_0_0_1_n_n]; exact c2
  have r2 : dot_S10000x128_S128x64_S10000x64_1_0_0_1_n_n.rhsIdx (ix2 r j)
      ((contrEquiv1 dot_S10000x128_S128x64_S10000x64_1_0_0_1_n_n 128 rfl rfl).symm c) = ix2 c j := by
    funext ax; apply Fin.ext
    match ax with
    | ⟨0, _⟩ => simp [DotDims.rhsIdx, dot_S10000x128_S128x64_S10000x64_1_0_0_1_n_n]; exact c2
    | ⟨1, _⟩ => simp [DotDims.rhsIdx, dot_S10000x128_S128x64_S10000x64_1_0_0_1_n_n]; rfl
  rw [l2, r2]

/-- The body's arithmetic on a tile, at an entry: the gate of the row's 128 features against the weight column and the
    bias, times the row's node feature. -/
theorem pay_apply (x0 : Vec Ideal S1x10000x128 .bf16) (x1 : Vec Ideal S1x128x64 .f32) (x2 : Vec Ideal S1x1x64 .f32)
    (r : Fin 10000) (j : Fin 64) :
    k1_pay1 x0 x1 x2 (ix3 (0 : Fin 1) r j)
      = Ideal.logistic (∑ k : Fin 128, x0 (ix3 (0 : Fin 1) r k) * x1 (ix3 (0 : Fin 1) k j) + x2 (ix3 (0 : Fin 1) (0 : Fin 1) j))
          * x0 (ix3 (0 : Fin 1) r (⟨64 + j.val, by omega⟩ : Fin 128)) := by
  unfold k1_pay1
  rw [shapeCast_addUnit_apply ![10000, 64]]
  have e : (fun a : Fin 2 => ix3 (0 : Fin 1) r j a.succ) = ix2 r j := by
    funext a; match a with | ⟨0, _⟩ => rfl | ⟨1, _⟩ => rfl
  rw [e]
  show Ideal.logistic (matmul (F := Ideal) dot_S10000x128_S128x64_S10000x64_1_0_0_1_n_n none
        (shapeCast S10000x128 x0 shapeCasts_S1x10000x128_S10000x128)
        (truncf (F := Ideal) FTy.bf16 (shapeCast S128x64 x1 shapeCasts_S1x128x64_S128x64) bitsLt_bf16_f32)
        (constant (F := Ideal) S10000x64 .f32 0x00000000#32) (ix2 r j)
      + broadcastTo S10000x64 (shapeCast S1x64 x2 shapeCasts_S1x1x64_S1x64) broadcasts_S1x64_S10000x64 (ix2 r j))
      * extractStridedSlice S10000x64 ![0, 64] (shapeCast S10000x128 x0 shapeCasts_S1x10000x128_S10000x128)
          slices_S10000x128_o0_64_S10000x64 (ix2 r j) = _
  rw [tile_matmul_apply]
  have hA : ∀ k : Fin 128, shapeCast S10000x128 x0 shapeCasts_S1x10000x128_S10000x128 (ix2 r k) = x0 (ix3 (0 : Fin 1) r k) := fun k => by
    rw [shapeCast_dropUnit_apply ![10000, 128]]
    refine congrArg x0 (funext fun a => ?_)
    match a with | ⟨0, _⟩ => rfl | ⟨1, _⟩ => rfl | ⟨2, _⟩ => rfl
  have hB : ∀ k : Fin 128, (truncf FTy.bf16 (shapeCast S128x64 x1 shapeCasts_S1x128x64_S128x64) bitsLt_bf16_f32 : FVec Ideal S128x64 .bf16) (ix2 k j) = x1 (ix3 (0 : Fin 1) k j) := fun k => by
    rw [truncf_apply, shapeCast_dropUnit_apply ![128, 64]]
    refine congrArg x1 (funext fun a => ?_)
    match a with | ⟨0, _⟩ => rfl | ⟨1, _⟩ => rfl | ⟨2, _⟩ => rfl
  have hb : broadcastTo S10000x64 (shapeCast S1x64 x2 shapeCasts_S1x1x64_S1x64) broadcasts_S1x64_S10000x64 (ix2 r j) = x2 (ix3 (0 : Fin 1) (0 : Fin 1) j) := by
    refine (broadcastTo_apply _ _ (ix2 r j) (ix2 (0 : Fin 1) j) fun a => ?_).trans ?_
    · match a with | ⟨0, _⟩ => rfl | ⟨1, _⟩ => rfl
    · rw [shapeCast_dropUnit_apply ![1, 64]]
      refine congrArg x2 (funext fun a => ?_)
      match a with | ⟨0, _⟩ => rfl | ⟨1, _⟩ => rfl | ⟨2, _⟩ => rfl
  have hs : extractStridedSlice S10000x64 ![0, 64] (shapeCast S10000x128 x0 shapeCasts_S1x10000x128_S10000x128) slices_S10000x128_o0_64_S10000x64 (ix2 r j)
      = x0 (ix3 (0 : Fin 1) r (⟨64 + j.val, by omega⟩ : Fin 128)) := by
    refine (extractStridedSlice_apply _ _ _ (ix2 r j) (ix2 r (⟨64 + j.val, by omega⟩ : Fin 128)) fun a => ?_).trans (hA _)
    match a with
    | ⟨0, _⟩ => show r.val = 0 + r.val; omega
    | ⟨1, _⟩ => rfl
  rw [hb, hs]
  simp only [hA, hB]

/-! ## The result array as one function of the three stacked arrays -/

theorem hz3 : (![0, 0, 0] : Fin 3 → Nat) = fun _ => 0 := funext fun a => by fin_cases a <;> rfl

/-- The printed index maps over the grid: point `t` is plane `t / 40`, tile `t % 40`; the weights and bias move with the plane only. -/
theorem idx_facts1 : ∀ t : Fin cfg1.N,
    win1_0.index t (0 : Fin 3) = t.val / 40 ∧ win1_0.index t (1 : Fin 3) = t.val % 40 ∧ win1_0.index t (2 : Fin 3) = 0
    ∧ win1_1.index t (0 : Fin 3) = t.val / 40 ∧ win1_1.index t (1 : Fin 3) = 0 ∧ win1_1.index t (2 : Fin 3) = 0
    ∧ win1_2.index t (0 : Fin 3) = t.val / 40 ∧ win1_2.index t (1 : Fin 3) = 0 ∧ win1_2.index t (2 : Fin 3) = 0
    ∧ win1_3.index t (0 : Fin 3) = t.val / 40 ∧ win1_3.index t (1 : Fin 3) = t.val % 40 ∧ win1_3.index t (2 : Fin 3) = 0 :=
  (by decide +kernel : ∀ t : Fin grid1.N, _)

/-- An entry of the result tile at point `t` sits in the result array at plane `t / 40`, edge `(t % 40) · 10000 + r`. -/
theorem emb1_3 (t : Fin cfg1.N) (r : Fin 10000) (j : Fin 64) (i : S3x400000x64.Idx)
    (h0 : (i 0).val = t.val / 40) (h1 : (i 1).val = t.val % 40 * 10000 + r.val) (h2 : (i 2).val = j.val) :
    ((cfg1.win 3).blk t).view.emb (ix3 (0 : Fin 1) r j) = i := by
  obtain ⟨-, -, -, -, -, -, -, -, -, o0, o1, o2⟩ := idx_facts1 t
  funext a; apply Fin.ext
  match a with
  | ⟨0, _⟩ => show win1_3.index t (0 : Fin 3) * 1 + 1 * 0 = (i 0).val; omega
  | ⟨1, _⟩ => show win1_3.index t (1 : Fin 3) * 10000 + 1 * r.val = (i 1).val; omega
  | ⟨2, _⟩ => show win1_3.index t (2 : Fin 3) * 64 + 1 * j.val = (i 2).val; omega

/-- The tile's arithmetic at an entry is the gate of the arrays at plane `p`, edge `e`, once the tile's rows, weights and
    bias are the arrays' at that plane and edge. -/
theorem pay_eq_gatedAt (x0 : Vec Ideal S1x10000x128 .bf16) (x1 : Vec Ideal S1x128x64 .f32) (x2 : Vec Ideal S1x1x64 .f32)
    (cat : FVec Ideal S3x400000x128 .bf16) (W : FVec Ideal S3x128x64 .f32) (b : FVec Ideal S3x1x64 .f32)
    (r : Fin 10000) (j : Fin 64) (p : Fin 3) (e : Fin 400000)
    (h0 : ∀ k : Fin 128, x0 (ix3 (0 : Fin 1) r k) = cat (ix3 p e k))
    (h1 : ∀ k : Fin 128, x1 (ix3 (0 : Fin 1) k j) = W (ix3 p k j))
    (h2 : x2 (ix3 (0 : Fin 1) (0 : Fin 1) j) = b (ix3 p (0 : Fin 1) j)) :
    k1_pay1 x0 x1 x2 (ix3 (0 : Fin 1) r j) = gatedAt cat W b p e j := by
  rw [pay_apply]
  unfold gatedAt
  rw [h2, h0]
  simp only [h0, h1]

/-- A row entry of the stacked-features tile at point `t` is the array's at plane `t / 40`, edge `(t % 40) · 10000 + r`. -/
theorem iblk1_0_apply (c : Dev nD) (t : Fin cfg1.N) (r : Fin 10000) (k : Fin 128) (i : S3x400000x128.Idx)
    (h0 : (i 0).val = t.val / 40) (h1 : (i 1).val = t.val % 40 * 10000 + r.val) (h2 : (i 2).val = k.val) :
    (iblk1 V c 0 t : Vec Ideal S1x10000x128 .bf16) (ix3 (0 : Fin 1) r k)
      = (V c (Pipeline.arrRef spec1 0) : S3x400000x128.Idx → Ideal .bf16) i := by
  obtain ⟨o0, o1, o2, -⟩ := idx_facts1 t
  unfold iblk1
  rw [View.read_apply]
  show V c (Pipeline.arrRef spec1 0) _ = V c (Pipeline.arrRef spec1 0) i
  refine congrArg (V c (Pipeline.arrRef spec1 0)) (funext fun a => Fin.ext ?_)
  match a with
  | ⟨0, _⟩ => show win1_0.index t (0 : Fin 3) * 1 + 1 * 0 = (i 0).val; omega
  | ⟨1, _⟩ => show win1_0.index t (1 : Fin 3) * 10000 + 1 * r.val = (i 1).val; omega
  | ⟨2, _⟩ => show win1_0.index t (2 : Fin 3) * 128 + 1 * k.val = (i 2).val; omega

/-- An entry of the weights tile at point `t` is the stacked weights' at plane `t / 40`. -/
theorem iblk1_1_apply (c : Dev nD) (t : Fin cfg1.N) (k : Fin 128) (j : Fin 64) (i : S3x128x64.Idx)
    (h0 : (i 0).val = t.val / 40) (h1 : (i 1).val = k.val) (h2 : (i 2).val = j.val) :
    (iblk1 V c 1 t : Vec Ideal S1x128x64 .f32) (ix3 (0 : Fin 1) k j)
      = (V c (Pipeline.arrRef spec1 1) : S3x128x64.Idx → Ideal .f32) i := by
  obtain ⟨-, -, -, o0, o1, o2, -⟩ := idx_facts1 t
  unfold iblk1
  rw [View.read_apply]
  show V c (Pipeline.arrRef spec1 1) _ = V c (Pipeline.arrRef spec1 1) i
  refine congrArg (V c (Pipeline.arrRef spec1 1)) (funext fun a => Fin.ext ?_)
  match a with
  | ⟨0, _⟩ => show win1_1.index t (0 : Fin 3) * 1 + 1 * 0 = (i 0).val; omega
  | ⟨1, _⟩ => show win1_1.index t (1 : Fin 3) * 128 + 1 * k.val = (i 1).val; omega
  | ⟨2, _⟩ => show win1_1.index t (2 : Fin 3) * 64 + 1 * j.val = (i 2).val; omega

/-- An entry of the bias tile at point `t` is the stacked biases' at plane `t / 40`. -/
theorem iblk1_2_apply (c : Dev nD) (t : Fin cfg1.N) (j : Fin 64) (i : S3x1x64.Idx)
    (h0 : (i 0).val = t.val / 40) (h2 : (i 2).val = j.val) :
    (iblk1 V c 2 t : Vec Ideal S1x1x64 .f32) (ix3 (0 : Fin 1) (0 : Fin 1) j)
      = (V c (Pipeline.arrRef spec1 2) : S3x1x64.Idx → Ideal .f32) i := by
  obtain ⟨-, -, -, -, -, -, o0, o1, o2, -⟩ := idx_facts1 t
  have h1 : (i 1).val = 0 := by have h : (i 1).val < 1 := (i 1).isLt; omega
  unfold iblk1
  rw [View.read_apply]
  show V c (Pipeline.arrRef spec1 2) _ = V c (Pipeline.arrRef spec1 2) i
  refine congrArg (V c (Pipeline.arrRef spec1 2)) (funext fun a => Fin.ext ?_)
  match a with
  | ⟨0, _⟩ => show win1_2.index t (0 : Fin 3) * 1 + 1 * 0 = (i 0).val; omega
  | ⟨1, _⟩ => show win1_2.index t (1 : Fin 3) * 1 + 1 * 0 = (i 1).val; omega
  | ⟨2, _⟩ => show win1_2.index t (2 : Fin 3) * 64 + 1 * j.val = (i 2).val; omega

/-- An entry of what point `t` computes is `gated` of the three arrays at the entry's place in the result array. -/
theorem tile_eq (c : Dev nD) (t : Fin cfg1.N) (y : S1x10000x64.Idx) :
    k1_pay1 (iblk1 V c 0 t) (iblk1 V c 1 t) (iblk1 V c 2 t) y
      = gated (V c (Pipeline.arrRef spec1 0)) (V c (Pipeline.arrRef spec1 1)) (V c (Pipeline.arrRef spec1 2)) (((cfg1.win 3).blk t).view.emb y) := by
  obtain ⟨a, r, j, rfl⟩ : ∃ (a : Fin 1) (r : Fin 10000) (j : Fin 64), y = ix3 a r j := ⟨y 0, y 1, y 2, eq_ix3 y⟩
  obtain rfl : a = 0 := Fin.ext (by omega)
  have htl : t.val < 120 := lt_of_lt_of_eq t.isLt N_1
  have hp : t.val / 40 < 3 := by omega
  have he : t.val % 40 * 10000 + r.val < 400000 := by omega
  rw [emb1_3 t r j (ix3 (⟨t.val / 40, hp⟩ : Fin 3) (⟨t.val % 40 * 10000 + r.val, he⟩ : Fin 400000) j) rfl rfl rfl, gated_apply]
  exact pay_eq_gatedAt (iblk1 V c 0 t) (iblk1 V c 1 t) (iblk1 V c 2 t) _ _ _ r j
    (⟨t.val / 40, hp⟩ : Fin 3) (⟨t.val % 40 * 10000 + r.val, he⟩ : Fin 400000)
    (fun k => iblk1_0_apply V c t r k _ rfl rfl rfl) (fun k => iblk1_1_apply V c t k j _ rfl rfl rfl)
    (iblk1_2_apply V c t j _ rfl rfl)

/-- What point `t` writes back is its block of `gated` of the three arrays as the launch finds them. -/
theorem flushed1_eq (c : Dev nD) (t : Fin cfg1.N) :
    (dat1 (F := Ideal) V c).flushed 3 t = ((cfg1.win 3).blk t).view.read (Elt Ideal)
      (gated (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero hz3]
  simp only [View.ld_unit_zero (S := S1x10000x128) hz3, View.ld_unit_zero (S := S1x128x64) hz3, View.ld_unit_zero (S := S1x1x64) hz3]
  funext y
  revert y
  show ∀ y : S1x10000x64.Idx, k1_pay1 (iblk1 V c 0 t) (iblk1 V c 1 t) (iblk1 V c 2 t) y
      = gated (V c (Pipeline.arrRef spec1 0)) (V c (Pipeline.arrRef spec1 1)) (V c (Pipeline.arrRef spec1 2)) (((cfg1.win 3).blk t).view.emb y)
  exact fun y => tile_eq V c t y

/-- An index of the result array is in point `t`'s block iff each coordinate is in the block's range on its axis. -/
theorem mem_blk1 (t : Fin cfg1.N) (i : S3x400000x64.Idx) :
    i ∈ ((cfg1.win 3).blk t).view.set ↔ ∀ a : Fin 3, win1_3.index t a * S1x10000x64.size a ≤ (i a).val
      ∧ (i a).val < win1_3.index t a * S1x10000x64.size a + S1x10000x64.size a := by
  show i ∈ ((View.whole main_v92).slice (win1_3.rect t)).set ↔ _
  rw [View.set_slice_whole, Rect.mem_set_unit]
  exact Iff.rfl

/-- Every index of the result array is in some point's block: plane `p`, edge `e` is covered by point `40 p + e / 10000`. -/
theorem covered1 (i : S3x400000x64.Idx) :
    ∃ t : Fin cfg1.N, (cfg1.win 3).flush t = true ∧ i ∈ ((cfg1.win 3).blk t).view.set := by
  have hi0 : (i 0).val < 3 := (i 0).isLt
  have hi1 : (i 1).val < 400000 := (i 1).isLt
  have hi2 : (i 2).val < 64 := (i 2).isLt
  have hN : cfg1.N = 120 := N_1
  have ht : 40 * (i 0).val + (i 1).val / 10000 < cfg1.N := by rw [hN]; omega
  obtain ⟨-, -, -, -, -, -, -, -, -, o0, o1, o2⟩ := idx_facts1 ⟨40 * (i 0).val + (i 1).val / 10000, ht⟩
  have hv : (⟨40 * (i 0).val + (i 1).val / 10000, ht⟩ : Fin cfg1.N).val = 40 * (i 0).val + (i 1).val / 10000 := rfl
  rw [hv] at o0 o1
  refine ⟨⟨40 * (i 0).val + (i 1).val / 10000, ht⟩, flush1_3 _, ?_⟩
  rw [mem_blk1]
  intro a
  match a with
  | ⟨0, _⟩ =>
    show win1_3.index ⟨40 * (i 0).val + (i 1).val / 10000, ht⟩ (0 : Fin 3) * 1 ≤ (i 0).val
      ∧ (i 0).val < win1_3.index ⟨40 * (i 0).val + (i 1).val / 10000, ht⟩ (0 : Fin 3) * 1 + 1
    omega
  | ⟨1, _⟩ =>
    show win1_3.index ⟨40 * (i 0).val + (i 1).val / 10000, ht⟩ (1 : Fin 3) * 10000 ≤ (i 1).val
      ∧ (i 1).val < win1_3.index ⟨40 * (i 0).val + (i 1).val / 10000, ht⟩ (1 : Fin 3) * 10000 + 10000
    omega
  | ⟨2, _⟩ =>
    show win1_3.index ⟨40 * (i 0).val + (i 1).val / 10000, ht⟩ (2 : Fin 3) * 64 ≤ (i 2).val
      ∧ (i 2).val < win1_3.index ⟨40 * (i 0).val + (i 1).val / 10000, ht⟩ (2 : Fin 3) * 64 + 64
    omega

/-- The result array after the launch is `gated` of the three stacked arrays as the launch finds them. -/
theorem final1 (c : Dev nD) : (dat1 (F := Ideal) V c).arrAt 3 cfg1.N
    = gated (V c (Pipeline.arrRef spec1 0)) (V c (Pipeline.arrRef spec1 1)) (V c (Pipeline.arrRef spec1 2)) :=
  (dat1 V c).arrAt_eq_of_cover 3 _ (fun t _ => flushed1_eq V c t) covered1

end Cert.KernelIdeal.EdgeGate

end
-- ==== Proof.KernelResult.lean ====
/-
  The kernel program's result as one function of the argument arrays: the fold of buffer contents through @main,
  read at the buffers that matter — the node network's input, its result, the edge gate's three arrays, its
  result, and the stacked scatter-means the program returns.
-/
import proofs.«154189_j4853313045170_2_alg».proof.Proof.Whole
import proofs.«154189_j4853313045170_2_alg».proof.Proof.Stretch0
import proofs.«154189_j4853313045170_2_alg».proof.Proof.Stretch1
import proofs.«154189_j4853313045170_2_alg».proof.Proof.Stretch2
import proofs.«154189_j4853313045170_2_alg».proof.Proof.NodeMlpValue
import proofs.«154189_j4853313045170_2_alg».proof.Proof.EdgeGateValue
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.ShloMosaic.StableHlo Idealize.SL.Sem
open Cert.KernelIdeal.HostSide Cert.KernelIdeal.NodeMlp Cert.KernelIdeal.EdgeGate

variable (m : (ℓ : Loc nD τ sig) → Buf (Elt Ideal) ℓ) (ρ : Dev nD → PrngReg) (c : Dev nD)

/-- The node features: the node network applied to the three planes' segment sums. -/
def nodes : FVec Ideal S50000x64 .f32 :=
  nodeNet (nodeIn (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6))) (m ((c : Thread nD τ).loc main_arg7)) (biasRow (m ((c : Thread nD τ).loc main_arg8))) (m ((c : Thread nD τ).loc main_arg9)) (biasRow (m ((c : Thread nD τ).loc main_arg10)))

/-- The edge gate's result on the packed rows of the three planes. -/
def gates : FVec Ideal S3x400000x64 .bf16 :=
  gated (catStack (gatherHits (m ((c : Thread nD τ).loc main_arg0)) (m ((c : Thread nD τ).loc main_arg4))) (gatherNodes (nodes m c) (m ((c : Thread nD τ).loc main_arg4)))
      (gatherHits (m ((c : Thread nD τ).loc main_arg1)) (m ((c : Thread nD τ).loc main_arg5))) (gatherNodes (nodes m c) (m ((c : Thread nD τ).loc main_arg5)))
      (gatherHits (m ((c : Thread nD τ).loc main_arg2)) (m ((c : Thread nD τ).loc main_arg6))) (gatherNodes (nodes m c) (m ((c : Thread nD τ).loc main_arg6))))
    (wStack (m ((c : Thread nD τ).loc main_arg11)) (m ((c : Thread nD τ).loc main_arg13)) (m ((c : Thread nD τ).loc main_arg15))) (bStack (m ((c : Thread nD τ).loc main_arg12)) (m ((c : Thread nD τ).loc main_arg14)) (m ((c : Thread nD τ).loc main_arg16)))

/-! ## Buffers nothing has written yet -/

theorem W1_kept (r : Ref sig .tc) (h : r ∉ written0) : W1 m ρ c (Proc.devRef .tc r) = m ((c : Thread nD τ).loc r) :=
  StableHlo.after_of_writes_sub hostOps0 _ hostOps0_writes h
theorem W2_kept (r : Ref sig .tc) (h : r ∉ written0) (hn0 : ∀ w, Pipeline.arrRef spec0 w ≠ r) :
    W2 m ρ c (Proc.devRef .tc r) = m ((c : Thread nD τ).loc r) :=
  (W2_of_ne m ρ c r hn0).trans (W1_kept m ρ c r h)
theorem W3_kept (r : Ref sig .tc) (h : r ∉ written0) (hn0 : ∀ w, Pipeline.arrRef spec0 w ≠ r) (h1 : r ∉ written1) :
    W3 m ρ c (Proc.devRef .tc r) = m ((c : Thread nD τ).loc r) :=
  (StableHlo.after_of_writes_sub hostOps1 _ hostOps1_writes h1).trans (W2_kept m ρ c r h hn0)
theorem W4_kept (r : Ref sig .tc) (h : r ∉ written0) (hn0 : ∀ w, Pipeline.arrRef spec0 w ≠ r) (h1 : r ∉ written1)
    (hn1 : ∀ w, Pipeline.arrRef spec1 w ≠ r) : W4 m ρ c (Proc.devRef .tc r) = m ((c : Thread nD τ).loc r) :=
  (W4_of_ne m ρ c r hn1).trans (W3_kept m ρ c r h hn0 h1)

/-! ## The node network -/

theorem node_result : W2 m ρ c (Proc.devRef .tc main_v45) = nodes m c := by
  refine (W2_arr m ρ c 5).trans ((final0 (V1 m ρ) c).trans ?_)
  show nodeNet (W1 m ρ c (Proc.devRef .tc main_v42)) (W1 m ρ c (Proc.devRef .tc main_arg7)) (W1 m ρ c (Proc.devRef .tc main_v43))
      (W1 m ρ c (Proc.devRef .tc main_arg9)) (W1 m ρ c (Proc.devRef .tc main_v44)) = _
  rw [show W1 m ρ c (Proc.devRef .tc main_v42) = _ from stretch0_nodeIn (W0 m ρ c),
    show W1 m ρ c (Proc.devRef .tc main_v43) = _ from stretch0_bias1 (W0 m ρ c),
    show W1 m ρ c (Proc.devRef .tc main_v44) = _ from stretch0_bias2 (W0 m ρ c),
    W1_kept m ρ c main_arg7 (by decide), W1_kept m ρ c main_arg9 (by decide)]
  rfl

theorem hits0 : W2 m ρ c (Proc.devRef .tc main_v8) = gatherHits (m ((c : Thread nD τ).loc main_arg0)) (m ((c : Thread nD τ).loc main_arg4)) :=
  (W2_of_ne m ρ c main_v8 (by decide)).trans (stretch0_hits0 (W0 m ρ c))
theorem hits1 : W2 m ρ c (Proc.devRef .tc main_v22) = gatherHits (m ((c : Thread nD τ).loc main_arg1)) (m ((c : Thread nD τ).loc main_arg5)) :=
  (W2_of_ne m ρ c main_v22 (by decide)).trans (stretch0_hits1 (W0 m ρ c))
theorem hits2 : W2 m ρ c (Proc.devRef .tc main_v36) = gatherHits (m ((c : Thread nD τ).loc main_arg2)) (m ((c : Thread nD τ).loc main_arg6)) :=
  (W2_of_ne m ρ c main_v36 (by decide)).trans (stretch0_hits2 (W0 m ρ c))

/-! ## The edge gate -/

theorem gate_rows : W3 m ρ c (Proc.devRef .tc main_v82)
    = catStack (gatherHits (m ((c : Thread nD τ).loc main_arg0)) (m ((c : Thread nD τ).loc main_arg4))) (gatherNodes (nodes m c) (m ((c : Thread nD τ).loc main_arg4)))
      (gatherHits (m ((c : Thread nD τ).loc main_arg1)) (m ((c : Thread nD τ).loc main_arg5))) (gatherNodes (nodes m c) (m ((c : Thread nD τ).loc main_arg5)))
      (gatherHits (m ((c : Thread nD τ).loc main_arg2)) (m ((c : Thread nD τ).loc main_arg6))) (gatherNodes (nodes m c) (m ((c : Thread nD τ).loc main_arg6))) := by
  refine (stretch1_rows (W2 m ρ c)).trans ?_
  rw [hits0, hits1, hits2, node_result, W2_kept m ρ c main_arg4 (by decide) (by decide), W2_kept m ρ c main_arg5 (by decide) (by decide),
    W2_kept m ρ c main_arg6 (by decide) (by decide)]
theorem gate_weights : W3 m ρ c (Proc.devRef .tc main_v86) = wStack (m ((c : Thread nD τ).loc main_arg11)) (m ((c : Thread nD τ).loc main_arg13)) (m ((c : Thread nD τ).loc main_arg15)) := by
  refine (stretch1_weights (W2 m ρ c)).trans ?_
  rw [W2_kept m ρ c main_arg11 (by decide) (by decide), W2_kept m ρ c main_arg13 (by decide) (by decide), W2_kept m ρ c main_arg15 (by decide) (by decide)]
theorem gate_biases : W3 m ρ c (Proc.devRef .tc main_v91) = bStack (m ((c : Thread nD τ).loc main_arg12)) (m ((c : Thread nD τ).loc main_arg14)) (m ((c : Thread nD τ).loc main_arg16)) := by
  refine (stretch1_biases (W2 m ρ c)).trans ?_
  rw [W2_kept m ρ c main_arg12 (by decide) (by decide), W2_kept m ρ c main_arg14 (by decide) (by decide), W2_kept m ρ c main_arg16 (by decide) (by decide)]

theorem gate_result : W4 m ρ c (Proc.devRef .tc main_v92) = gates m c := by
  refine (W4_arr m ρ c 3).trans ((final1 (V3 m ρ) c).trans ?_)
  show gated (W3 m ρ c (Proc.devRef .tc main_v82)) (W3 m ρ c (Proc.devRef .tc main_v86)) (W3 m ρ c (Proc.devRef .tc main_v91)) = _
  rw [gate_rows, gate_weights, gate_biases]
  rfl

/-! ## What the program returns -/

theorem kernel_result : W5 m ρ c (Proc.devRef .tc main_v150)
    = stackPlanes (meanOntoHits (m ((c : Thread nD τ).loc main_arg4)) (plane0 (gates m c))) (meanOntoHits (m ((c : Thread nD τ).loc main_arg5)) (plane1 (gates m c)))
        (meanOntoHits (m ((c : Thread nD τ).loc main_arg6)) (plane2 (gates m c))) := by
  refine (stretch2_result (W4 m ρ c)).trans ?_
  rw [gate_result, W4_kept m ρ c main_arg4 (by decide) (by decide) (by decide) (by decide),
    W4_kept m ρ c main_arg5 (by decide) (by decide) (by decide) (by decide), W4_kept m ρ c main_arg6 (by decide) (by decide) (by decide) (by decide)]

end Cert.KernelIdeal.Whole

end
-- ==== Proof.RefGate.lean ====
/-
  One plane's edge gate as the reference computes it, read at an entry: the logistic of the packed edge row (gathered
  plane feature beside gathered node feature) against a weight column plus the bias, times the node feature.
-/
import proofs.«154189_j4853313045170_2_alg».proof.Proof.Gen.ReferenceIdeal
import Idealize.ShloMosaic.Lib.Pipeline.Value
import Idealize.ShloMosaic.Lib.ValueIdx
import Idealize.ShloMosaic.Lib.IdealHost
import Idealize.ShloMosaic.PureOps.Ideal.Laws

set_option maxRecDepth 16384

noncomputable section

namespace Cert.ReferenceIdeal.Gate

open Cert.ReferenceIdeal Cert.ReferenceIdeal.Gen
open Idealize.ShloMosaic Idealize.ShloMosaic.TcCoe Idealize.SL.Sem
open Idealize.ShloMosaic.ValueIdx
open scoped BigOperators

/-- One plane's gate as the reference computes it: the logistic, spelled 1 / (1 + exp (−x)), of the packed edge rows
    (gathered plane feature beside gathered node feature) times the weights plus the bias, times the node feature. -/
def refGate (g n : FVec Ideal S400000x64 .f32) (Wd : FVec Ideal S128x64 .f32) (bd : FVec Ideal S64 .f32) : FVec Ideal S400000x64 .f32 :=
  mulf (Host.divf (F := Ideal) (broadcastInDim S400000x64 ![] bcast_S_S400000x64 (constant (F := Ideal) S_ .f32 0x3F800000#32))
    (addf (broadcastInDim S400000x64 ![] bcast_S_S400000x64 (constant (F := Ideal) S_ .f32 0x3F800000#32))
      (Host.exp (F := Ideal) (Host.negf (F := Ideal) (addf
        (Host.dotGeneral (F := Ideal) dot_S400000x128_S128x64_S400000x64_1_0_0_1_n_n none
          (concatenate S400000x128 1 [⟨S400000x64, g⟩, ⟨S400000x64, n⟩] concatenates_S400000x64_S400000x64_S400000x128_d1) Wd)
        (broadcastInDim S400000x64 ![0, 1] bcast_S1x64_S400000x64_0_1 (broadcastInDim S1x64 ![1] bcast_S64_S1x64_1 bd))))))) n

/-- A packed edge row at column `k`: the plane feature in the first 64 columns, the node feature in the last 64. -/
def rowAt (g n : FVec Ideal S400000x64 .f32) (e : Fin 400000) (k : Fin 128) : Ideal .f32 :=
  if h : k.val < 64 then g (ix2 e (⟨k.val, h⟩ : Fin 64)) else n (ix2 e (⟨k.val - 64, by omega⟩ : Fin 64))

/-- The packing at an entry. -/
theorem pack_apply (g n : FVec Ideal S400000x64 .f32) (e : Fin 400000) (k : Fin 128) :
    concatenate S400000x128 1 [⟨S400000x64, g⟩, ⟨S400000x64, n⟩] concatenates_S400000x64_S400000x64_S400000x128_d1 (ix2 e k)
      = rowAt g n e k := by
  unfold rowAt
  split
  · next h =>
    refine concatenate_pair_apply_left (1 : Fin 2) g n _ (ix2 e k) rfl (ix2 e (⟨k.val, h⟩ : Fin 64)) fun b => ?_
    match b with | ⟨0, _⟩ => rfl | ⟨1, _⟩ => rfl
  · next h =>
    refine concatenate_pair_apply_right (1 : Fin 2) g n _ (ix2 e k) rfl rfl (ix2 e (⟨k.val - 64, by omega⟩ : Fin 64)) (fun b hb => ?_) ?_
    · match b with
      | ⟨0, _⟩ => rfl
      | ⟨1, _⟩ => exact absurd rfl hb
    · show k.val - 64 + 64 = k.val; omega

/-- The rows' product with the weights at an entry: the sum over the 128 columns. -/
theorem rows_dot_apply (A : FVec Ideal S400000x128 .f32) (B : FVec Ideal S128x64 .f32) (e : Fin 400000) (j : Fin 64) :
    Host.dotGeneral (F := Ideal) dot_S400000x128_S128x64_S400000x64_1_0_0_1_n_n none A B (ix2 e j)
      = ∑ k : Fin 128, A (ix2 e k) * B (ix2 k j) := by
  show FloatOps.dotGeneral _ none _ A B (ix2 e j) = _
  rw [Ideal.dotGeneral_apply,
    ← Equiv.sum_comp (contrEquiv1 dot_S400000x128_S128x64_S400000x64_1_0_0_1_n_n 128 rfl rfl).symm]
  refine Finset.sum_congr rfl fun c _ => ?_
  have c2 := contrEquiv1_symm_val dot_S400000x128_S128x64_S400000x64_1_0_0_1_n_n 128 rfl rfl c
  have l2 : dot_S400000x128_S128x64_S400000x64_1_0_0_1_n_n.lhsIdx (ix2 e j)
      ((contrEquiv1 dot_S400000x128_S128x64_S400000x64_1_0_0_1_n_n 128 rfl rfl).symm c) = ix2 e c := by
    funext ax; apply Fin.ext
    match ax with
    | ⟨0, _⟩ => simp [DotDims.lhsIdx, dot_S400000x128_S128x64_S400000x64_1_0_0_1_n_n]; rfl
    | ⟨1, _⟩ => simp [DotDims.lhsIdx, dot_S400000x128_S128x64_S400000x64_1_0_0_1_n_n]; exact c2
  have r2 : dot_S400000x128_S128x64_S400000x64_1_0_0_1_n_n.rhsIdx (ix2 e j)
      ((contrEquiv1 dot_S400000x128_S128x64_S400000x64_1_0_0_1_n_n 128 rfl rfl).symm c) = ix2 c j := by
    funext ax; apply Fin.ext
    match ax with
    | ⟨0, _⟩ => simp [DotDims.rhsIdx, dot_S400000x128_S128x64_S400000x64_1_0_0_1_n_n]; exact c2
    | ⟨1, _⟩ => simp [DotDims.rhsIdx, dot_S400000x128_S128x64_S400000x64_1_0_0_1_n_n]; rfl
  rw [l2, r2]

/-- The bias, copied into every row, at an entry. -/
theorem bias_apply (bd : FVec Ideal S64 .f32) (e : Fin 400000) (j : Fin 64) :
    broadcastInDim S400000x64 ![0, 1] bcast_S1x64_S400000x64_0_1 (broadcastInDim S1x64 ![1] bcast_S64_S1x64_1 bd) (ix2 e j)
      = bd (ix1 j) := by
  refine (broadcastInDim_apply _ _ _ (ix2 e j) (ix2 (0 : Fin 1) j) fun a => ?_).trans
    (broadcastInDim_apply _ _ bd (ix2 (0 : Fin 1) j) (ix1 j) fun a => ?_)
  · match a with
    | ⟨0, _⟩ => rfl
    | ⟨1, _⟩ => rfl
  · match a with
    | ⟨0, _⟩ => rfl

/-- The reference's gate at an entry. -/
theorem refGate_apply (g n : FVec Ideal S400000x64 .f32) (Wd : FVec Ideal S128x64 .f32) (bd : FVec Ideal S64 .f32)
    (e : Fin 400000) (j : Fin 64) :
    refGate g n Wd bd (ix2 e j)
      = Ideal.logistic (∑ k : Fin 128, rowAt g n e k * Wd (ix2 k j) + bd (ix1 j)) * n (ix2 e j) := by
  unfold refGate
  rw [mulf_apply, hostDivf_apply, addf_apply, broadcastInDim_scalar_apply, constant_apply, Ideal.ofBits_one_f32]
  show Ideal.logistic (Host.dotGeneral (F := Ideal) dot_S400000x128_S128x64_S400000x64_1_0_0_1_n_n none
        (concatenate S400000x128 1 [⟨S400000x64, g⟩, ⟨S400000x64, n⟩] concatenates_S400000x64_S400000x64_S400000x128_d1) Wd (ix2 e j)
      + broadcastInDim S400000x64 ![0, 1] bcast_S1x64_S400000x64_0_1 (broadcastInDim S1x64 ![1] bcast_S64_S1x64_1 bd) (ix2 e j))
      * n (ix2 e j) = _
  rw [rows_dot_apply, bias_apply]
  simp only [pack_apply]

end Cert.ReferenceIdeal.Gate

end
-- ==== Proof.EdgeGateGlue.lean ====
/-
  The edge gate's host glue: plane p of the gate's result on the three planes' stacked operands is the reference's
  gate on plane p's own operands. Reading plane p drops the leading axis at offset p; the stacked packed rows, weights
  and bias rows at plane p are plane p's packed row, weights and bias; a packed row's column 64 + j is the node feature j.
-/
import proofs.«154189_j4853313045170_2_alg».proof.Proof.HostSide
import proofs.«154189_j4853313045170_2_alg».proof.Proof.GateSpec
import proofs.«154189_j4853313045170_2_alg».proof.Proof.RefGate
import Idealize.ShloMosaic.Lib.Pipeline.Value
import Idealize.ShloMosaic.Lib.ValueIdx

set_option maxRecDepth 16384

noncomputable section

namespace Cert.KernelIdeal.EdgeGate

open Cert.KernelIdeal Cert.KernelIdeal.Gen Cert.KernelIdeal.HostSide
open Idealize.ShloMosaic Idealize.ShloMosaic.ValueIdx
open scoped BigOperators

/-! ## Three pieces stacked along a leading axis, read at a plane -/

section Stack
variable {α : Type} {A B : Nat}

theorem stack3_at0 (y0 y1 y2 : (⟨3, ![1, A, B]⟩ : Shape).Idx → α)
    (h : Shape.Concatenates [(⟨3, ![1, A, B]⟩ : Shape), ⟨3, ![1, A, B]⟩, ⟨3, ![1, A, B]⟩] ⟨3, ![3, A, B]⟩ 0) (a : Fin A) (b : Fin B) :
    concatenate ⟨3, ![3, A, B]⟩ 0 [⟨⟨3, ![1, A, B]⟩, y0⟩, ⟨⟨3, ![1, A, B]⟩, y1⟩, ⟨⟨3, ![1, A, B]⟩, y2⟩] h (ix3 (0 : Fin 3) a b)
      = y0 (ix3 (0 : Fin 1) a b) :=
  concatenate_apply_piece (t := ⟨3, ![3, A, B]⟩) (0 : Fin 3) [⟨⟨3, ![1, A, B]⟩, y0⟩, ⟨⟨3, ![1, A, B]⟩, y1⟩, ⟨⟨3, ![1, A, B]⟩, y2⟩] h (ix3 (0 : Fin 3) a b) 0 (by show (0 : ℕ) < 3; omega) _ y0 rfl rfl 0 rfl (ix3 (0 : Fin 1) a b)
    (fun c hc => match c with | ⟨0, _⟩ => absurd rfl hc | ⟨1, _⟩ => rfl | ⟨2, _⟩ => rfl) rfl

theorem stack3_at1 (y0 y1 y2 : (⟨3, ![1, A, B]⟩ : Shape).Idx → α)
    (h : Shape.Concatenates [(⟨3, ![1, A, B]⟩ : Shape), ⟨3, ![1, A, B]⟩, ⟨3, ![1, A, B]⟩] ⟨3, ![3, A, B]⟩ 0) (a : Fin A) (b : Fin B) :
    concatenate ⟨3, ![3, A, B]⟩ 0 [⟨⟨3, ![1, A, B]⟩, y0⟩, ⟨⟨3, ![1, A, B]⟩, y1⟩, ⟨⟨3, ![1, A, B]⟩, y2⟩] h (ix3 (1 : Fin 3) a b)
      = y1 (ix3 (0 : Fin 1) a b) :=
  concatenate_apply_piece (t := ⟨3, ![3, A, B]⟩) (0 : Fin 3) [⟨⟨3, ![1, A, B]⟩, y0⟩, ⟨⟨3, ![1, A, B]⟩, y1⟩, ⟨⟨3, ![1, A, B]⟩, y2⟩] h (ix3 (1 : Fin 3) a b) 1 (by show (1 : ℕ) < 3; omega) _ y1 rfl rfl 1 rfl (ix3 (0 : Fin 1) a b)
    (fun c hc => match c with | ⟨0, _⟩ => absurd rfl hc | ⟨1, _⟩ => rfl | ⟨2, _⟩ => rfl) rfl

theorem stack3_at2 (y0 y1 y2 : (⟨3, ![1, A, B]⟩ : Shape).Idx → α)
    (h : Shape.Concatenates [(⟨3, ![1, A, B]⟩ : Shape), ⟨3, ![1, A, B]⟩, ⟨3, ![1, A, B]⟩] ⟨3, ![3, A, B]⟩ 0) (a : Fin A) (b : Fin B) :
    concatenate ⟨3, ![3, A, B]⟩ 0 [⟨⟨3, ![1, A, B]⟩, y0⟩, ⟨⟨3, ![1, A, B]⟩, y1⟩, ⟨⟨3, ![1, A, B]⟩, y2⟩] h (ix3 (2 : Fin 3) a b)
      = y2 (ix3 (0 : Fin 1) a b) :=
  concatenate_apply_piece (t := ⟨3, ![3, A, B]⟩) (0 : Fin 3) [⟨⟨3, ![1, A, B]⟩, y0⟩, ⟨⟨3, ![1, A, B]⟩, y1⟩, ⟨⟨3, ![1, A, B]⟩, y2⟩] h (ix3 (2 : Fin 3) a b) 2 (by show (2 : ℕ) < 3; omega) _ y2 rfl rfl 2 rfl (ix3 (0 : Fin 1) a b)
    (fun c hc => match c with | ⟨0, _⟩ => absurd rfl hc | ⟨1, _⟩ => rfl | ⟨2, _⟩ => rfl) rfl

theorem rows3_at0 (y0 y1 y2 : (⟨2, ![1, B]⟩ : Shape).Idx → α)
    (h : Shape.Concatenates [(⟨2, ![1, B]⟩ : Shape), ⟨2, ![1, B]⟩, ⟨2, ![1, B]⟩] ⟨2, ![3, B]⟩ 0) (b : Fin B) :
    concatenate ⟨2, ![3, B]⟩ 0 [⟨⟨2, ![1, B]⟩, y0⟩, ⟨⟨2, ![1, B]⟩, y1⟩, ⟨⟨2, ![1, B]⟩, y2⟩] h (ix2 (0 : Fin 3) b)
      = y0 (ix2 (0 : Fin 1) b) :=
  concatenate_apply_piece (t := ⟨2, ![3, B]⟩) (0 : Fin 2) [⟨⟨2, ![1, B]⟩, y0⟩, ⟨⟨2, ![1, B]⟩, y1⟩, ⟨⟨2, ![1, B]⟩, y2⟩] h (ix2 (0 : Fin 3) b) 0 (by show (0 : ℕ) < 3; omega) _ y0 rfl rfl 0 rfl (ix2 (0 : Fin 1) b)
    (fun c hc => match c with | ⟨0, _⟩ => absurd rfl hc | ⟨1, _⟩ => rfl) rfl

theorem rows3_at1 (y0 y1 y2 : (⟨2, ![1, B]⟩ : Shape).Idx → α)
    (h : Shape.Concatenates [(⟨2, ![1, B]⟩ : Shape), ⟨2, ![1, B]⟩, ⟨2, ![1, B]⟩] ⟨2, ![3, B]⟩ 0) (b : Fin B) :
    concatenate ⟨2, ![3, B]⟩ 0 [⟨⟨2, ![1, B]⟩, y0⟩, ⟨⟨2, ![1, B]⟩, y1⟩, ⟨⟨2, ![1, B]⟩, y2⟩] h (ix2 (1 : Fin 3) b)
      = y1 (ix2 (0 : Fin 1) b) :=
  concatenate_apply_piece (t := ⟨2, ![3, B]⟩) (0 : Fin 2) [⟨⟨2, ![1, B]⟩, y0⟩, ⟨⟨2, ![1, B]⟩, y1⟩, ⟨⟨2, ![1, B]⟩, y2⟩] h (ix2 (1 : Fin 3) b) 1 (by show (1 : ℕ) < 3; omega) _ y1 rfl rfl 1 rfl (ix2 (0 : Fin 1) b)
    (fun c hc => match c with | ⟨0, _⟩ => absurd rfl hc | ⟨1, _⟩ => rfl) rfl

theorem rows3_at2 (y0 y1 y2 : (⟨2, ![1, B]⟩ : Shape).Idx → α)
    (h : Shape.Concatenates [(⟨2, ![1, B]⟩ : Shape), ⟨2, ![1, B]⟩, ⟨2, ![1, B]⟩] ⟨2, ![3, B]⟩ 0) (b : Fin B) :
    concatenate ⟨2, ![3, B]⟩ 0 [⟨⟨2, ![1, B]⟩, y0⟩, ⟨⟨2, ![1, B]⟩, y1⟩, ⟨⟨2, ![1, B]⟩, y2⟩] h (ix2 (2 : Fin 3) b)
      = y2 (ix2 (0 : Fin 1) b) :=
  concatenate_apply_piece (t := ⟨2, ![3, B]⟩) (0 : Fin 2) [⟨⟨2, ![1, B]⟩, y0⟩, ⟨⟨2, ![1, B]⟩, y1⟩, ⟨⟨2, ![1, B]⟩, y2⟩] h (ix2 (2 : Fin 3) b) 2 (by show (2 : ℕ) < 3; omega) _ y2 rfl rfl 2 rfl (ix2 (0 : Fin 1) b)
    (fun c hc => match c with | ⟨0, _⟩ => absurd rfl hc | ⟨1, _⟩ => rfl) rfl

/-- A matrix given a leading unit axis, read at (0, a, b). -/
theorem lead_apply (x : (⟨2, ![A, B]⟩ : Shape).Idx → α) (h : (⟨2, ![A, B]⟩ : Shape).BroadcastsInDim ⟨3, ![1, A, B]⟩ ![1, 2])
    (hA : A ≠ 1) (hB : B ≠ 1) (a : Fin A) (b : Fin B) :
    broadcastInDim ⟨3, ![1, A, B]⟩ ![1, 2] h x (ix3 (0 : Fin 1) a b) = x (ix2 a b) :=
  broadcastInDim_apply ![1, 2] h x (ix3 (0 : Fin 1) a b) (ix2 a b) fun c => by
    match c with
    | ⟨0, _⟩ => show a.val = if A = 1 then 0 else a.val; rw [if_neg hA]
    | ⟨1, _⟩ => show b.val = if B = 1 then 0 else b.val; rw [if_neg hB]

end Stack

variable (gu nu gv nv gy ny : FVec Ideal S400000x64 .f32) (Wu Wv Wy : FVec Ideal S128x64 .f32) (bu bv bw : FVec Ideal S64 .f32)

/-! ## Reading a plane of the result -/

theorem plane0_apply (G : FVec Ideal S3x400000x64 .bf16) (e : Fin 400000) (j : Fin 64) : plane0 G (ix2 e j) = G (ix3 (0 : Fin 3) e j) := by
  unfold plane0
  rw [extf_apply]
  refine (shapeCast_apply _ _ (ix2 e j) (ix3 (0 : Fin 1) e j) (by
    rw [Shape.rowMajor_val_three, Shape.rowMajor_val_two]; show (0 * 400000 + e.val) * 64 + j.val = e.val * 64 + j.val; omega)).trans ?_
  exact extractStridedSlice_apply _ G _ (ix3 (0 : Fin 1) e j) (ix3 (0 : Fin 3) e j) fun a => by
    match a with
    | ⟨0, _⟩ => rfl
    | ⟨1, _⟩ => show e.val = 0 + e.val; omega
    | ⟨2, _⟩ => show j.val = 0 + j.val; omega

theorem plane1_apply (G : FVec Ideal S3x400000x64 .bf16) (e : Fin 400000) (j : Fin 64) : plane1 G (ix2 e j) = G (ix3 (1 : Fin 3) e j) := by
  unfold plane1
  rw [extf_apply]
  refine (shapeCast_apply _ _ (ix2 e j) (ix3 (0 : Fin 1) e j) (by
    rw [Shape.rowMajor_val_three, Shape.rowMajor_val_two]; show (0 * 400000 + e.val) * 64 + j.val = e.val * 64 + j.val; omega)).trans ?_
  exact extractStridedSlice_apply _ G _ (ix3 (0 : Fin 1) e j) (ix3 (1 : Fin 3) e j) fun a => by
    match a with
    | ⟨0, _⟩ => rfl
    | ⟨1, _⟩ => show e.val = 0 + e.val; omega
    | ⟨2, _⟩ => show j.val = 0 + j.val; omega

theorem plane2_apply (G : FVec Ideal S3x400000x64 .bf16) (e : Fin 400000) (j : Fin 64) : plane2 G (ix2 e j) = G (ix3 (2 : Fin 3) e j) := by
  unfold plane2
  rw [extf_apply]
  refine (shapeCast_apply _ _ (ix2 e j) (ix3 (0 : Fin 1) e j) (by
    rw [Shape.rowMajor_val_three, Shape.rowMajor_val_two]; show (0 * 400000 + e.val) * 64 + j.val = e.val * 64 + j.val; omega)).trans ?_
  exact extractStridedSlice_apply _ G _ (ix3 (0 : Fin 1) e j) (ix3 (2 : Fin 3) e j) fun a => by
    match a with
    | ⟨0, _⟩ => rfl
    | ⟨1, _⟩ => show e.val = 0 + e.val; omega
    | ⟨2, _⟩ => show j.val = 0 + j.val; omega

/-! ## The stacked operands at a plane -/

/-- One plane's packed rows at (0, e, k): the edge's packed row at column k. -/
theorem packRows_apply (g n : FVec Ideal S400000x64 .f32) (e : Fin 400000) (k : Fin 128) :
    packRows g n (ix3 (0 : Fin 1) e k) = Cert.ReferenceIdeal.Gate.rowAt g n e k := by
  unfold packRows
  refine (lead_apply _ _ (by decide) (by decide) e k).trans ?_
  rw [truncf_apply]
  exact Cert.ReferenceIdeal.Gate.pack_apply g n e k

theorem catStack_at0 (e : Fin 400000) (k : Fin 128) :
    catStack gu nu gv nv gy ny (ix3 (0 : Fin 3) e k) = Cert.ReferenceIdeal.Gate.rowAt gu nu e k := by
  unfold catStack
  exact (stack3_at0 _ _ _ _ e k).trans (packRows_apply gu nu e k)
theorem catStack_at1 (e : Fin 400000) (k : Fin 128) :
    catStack gu nu gv nv gy ny (ix3 (1 : Fin 3) e k) = Cert.ReferenceIdeal.Gate.rowAt gv nv e k := by
  unfold catStack
  exact (stack3_at1 _ _ _ _ e k).trans (packRows_apply gv nv e k)
theorem catStack_at2 (e : Fin 400000) (k : Fin 128) :
    catStack gu nu gv nv gy ny (ix3 (2 : Fin 3) e k) = Cert.ReferenceIdeal.Gate.rowAt gy ny e k := by
  unfold catStack
  exact (stack3_at2 _ _ _ _ e k).trans (packRows_apply gy ny e k)

theorem wStack_at0 (k : Fin 128) (j : Fin 64) : wStack Wu Wv Wy (ix3 (0 : Fin 3) k j) = Wu (ix2 k j) := by
  unfold wStack
  exact (stack3_at0 _ _ _ _ k j).trans (lead_apply Wu _ (by decide) (by decide) k j)
theorem wStack_at1 (k : Fin 128) (j : Fin 64) : wStack Wu Wv Wy (ix3 (1 : Fin 3) k j) = Wv (ix2 k j) := by
  unfold wStack
  exact (stack3_at1 _ _ _ _ k j).trans (lead_apply Wv _ (by decide) (by decide) k j)
theorem wStack_at2 (k : Fin 128) (j : Fin 64) : wStack Wu Wv Wy (ix3 (2 : Fin 3) k j) = Wy (ix2 k j) := by
  unfold wStack
  exact (stack3_at2 _ _ _ _ k j).trans (lead_apply Wy _ (by decide) (by decide) k j)

/-- A bias vector laid as a one-row matrix, read at (0, j). -/
theorem biasLaid_apply (a : FVec Ideal S64 .f32) (j : Fin 64) :
    broadcastInDim S1x64 ![1] bcast_S64_S1x64_1 a (ix2 (0 : Fin 1) j) = a (ix1 j) :=
  broadcastInDim_apply ![1] bcast_S64_S1x64_1 a (ix2 (0 : Fin 1) j) (ix1 j) fun c => by
    match c with
    | ⟨0, _⟩ => rfl

theorem bStack_at0 (j : Fin 64) : bStack bu bv bw (ix3 (0 : Fin 3) (0 : Fin 1) j) = bu (ix1 j) := by
  unfold bStack
  refine (shapeCast_apply _ _ (ix3 (0 : Fin 3) (0 : Fin 1) j) (ix2 (0 : Fin 3) j) (by
    rw [Shape.rowMajor_val_three, Shape.rowMajor_val_two]; show 0 * 64 + j.val = (0 * 1 + 0) * 64 + j.val; omega)).trans ?_
  exact (rows3_at0 _ _ _ _ j).trans (biasLaid_apply bu j)
theorem bStack_at1 (j : Fin 64) : bStack bu bv bw (ix3 (1 : Fin 3) (0 : Fin 1) j) = bv (ix1 j) := by
  unfold bStack
  refine (shapeCast_apply _ _ (ix3 (1 : Fin 3) (0 : Fin 1) j) (ix2 (1 : Fin 3) j) (by
    rw [Shape.rowMajor_val_three, Shape.rowMajor_val_two]; show 1 * 64 + j.val = (1 * 1 + 0) * 64 + j.val; omega)).trans ?_
  exact (rows3_at1 _ _ _ _ j).trans (biasLaid_apply bv j)
theorem bStack_at2 (j : Fin 64) : bStack bu bv bw (ix3 (2 : Fin 3) (0 : Fin 1) j) = bw (ix1 j) := by
  unfold bStack
  refine (shapeCast_apply _ _ (ix3 (2 : Fin 3) (0 : Fin 1) j) (ix2 (2 : Fin 3) j) (by
    rw [Shape.rowMajor_val_three, Shape.rowMajor_val_two]; show 2 * 64 + j.val = (2 * 1 + 0) * 64 + j.val; omega)).trans ?_
  exact (rows3_at2 _ _ _ _ j).trans (biasLaid_apply bw j)

/-- Column 64 + j of an edge's packed row is its node feature j. -/
theorem rowAt_node (g n : FVec Ideal S400000x64 .f32) (e : Fin 400000) (j : Fin 64) :
    Cert.ReferenceIdeal.Gate.rowAt g n e (⟨64 + j.val, by omega⟩ : Fin 128) = n (ix2 e j) := by
  unfold Cert.ReferenceIdeal.Gate.rowAt
  have h : ¬ (64 + j.val < 64) := by omega
  rw [dif_neg h]
  refine congrArg n ?_
  refine congrArg (ix2 e) (Fin.ext ?_)
  show 64 + j.val - 64 = j.val
  omega

/-! ## Each plane of the gate on the stacked operands is the reference's gate on that plane's operands -/

theorem plane0_eq : plane0 (gated (catStack gu nu gv nv gy ny) (wStack Wu Wv Wy) (bStack bu bv bw))
    = Cert.ReferenceIdeal.Gate.refGate gu nu Wu bu := by
  funext i
  obtain ⟨e, j, rfl⟩ : ∃ (e : Fin 400000) (j : Fin 64), i = ix2 e j := ⟨i 0, i 1, eq_ix2 i⟩
  rw [plane0_apply, gated_apply]
  refine Eq.trans ?_ (Cert.ReferenceIdeal.Gate.refGate_apply gu nu Wu bu e j).symm
  unfold gatedAt
  rw [catStack_at0, bStack_at0, rowAt_node, Finset.sum_congr rfl fun k _ => by rw [catStack_at0, wStack_at0]]

theorem plane1_eq : plane1 (gated (catStack gu nu gv nv gy ny) (wStack Wu Wv Wy) (bStack bu bv bw))
    = Cert.ReferenceIdeal.Gate.refGate gv nv Wv bv := by
  funext i
  obtain ⟨e, j, rfl⟩ : ∃ (e : Fin 400000) (j : Fin 64), i = ix2 e j := ⟨i 0, i 1, eq_ix2 i⟩
  rw [plane1_apply, gated_apply]
  refine Eq.trans ?_ (Cert.ReferenceIdeal.Gate.refGate_apply gv nv Wv bv e j).symm
  unfold gatedAt
  rw [catStack_at1, bStack_at1, rowAt_node, Finset.sum_congr rfl fun k _ => by rw [catStack_at1, wStack_at1]]

theorem plane2_eq : plane2 (gated (catStack gu nu gv nv gy ny) (wStack Wu Wv Wy) (bStack bu bv bw))
    = Cert.ReferenceIdeal.Gate.refGate gy ny Wy bw := by
  funext i
  obtain ⟨e, j, rfl⟩ : ∃ (e : Fin 400000) (j : Fin 64), i = ix2 e j := ⟨i 0, i 1, eq_ix2 i⟩
  rw [plane2_apply, gated_apply]
  refine Eq.trans ?_ (Cert.ReferenceIdeal.Gate.refGate_apply gy ny Wy bw e j).symm
  unfold gatedAt
  rw [catStack_at2, bStack_at2, rowAt_node, Finset.sum_congr rfl fun k _ => by rw [catStack_at2, wStack_at2]]

end Cert.KernelIdeal.EdgeGate

end
-- ==== Proof.NodeMlpRef.lean ====
/-
  The reference's node network is `nodeNet`: its two host products with no accumulator, each plus its bias
  vector laid as a row and broadcast down the rows, under tanh, are the two layers; the bias vector laid as a
  one-row matrix by a broadcast along axis 1 is the same row as its reshape to [1, 64].
-/
import proofs.«154189_j4853313045170_2_alg».proof.Proof.Gen.ReferenceIdeal
import proofs.«154189_j4853313045170_2_alg».proof.Proof.HostSide
import proofs.«154189_j4853313045170_2_alg».proof.Proof.NodeNet

noncomputable section

namespace Cert.KernelIdeal.NodeMlp

open Cert.KernelIdeal.Gen
open Idealize.ShloMosaic Idealize.ShloMosaic.ValueIdx

/-- The reference's two products' dimension numbers are the plain rows-by-columns ones. -/
theorem rdot1_eq : Cert.ReferenceIdeal.dot_S50000x192_S192x64_S50000x64_1_0_0_1_n_n = DotDims.plain 50000 192 64 := rfl
theorem rdot2_eq : Cert.ReferenceIdeal.dot_S50000x64_S64x64_S50000x64_1_0_0_1_n_n = DotDims.plain 50000 64 64 := rfl

/-- THE REFERENCE'S NODE NETWORK, over any features `X`, weights `W1`, `W2` and bias vectors `a1`, `a2`, is `nodeNet` of
    them with each bias vector reshaped to a row. -/
theorem ref_nodeNet (X : FVec Ideal Cert.ReferenceIdeal.S50000x192 .f32) (W1 : FVec Ideal Cert.ReferenceIdeal.S192x64 .f32)
    (a1 : FVec Ideal Cert.ReferenceIdeal.S64 .f32) (W2 : FVec Ideal Cert.ReferenceIdeal.S64x64 .f32)
    (a2 : FVec Ideal Cert.ReferenceIdeal.S64 .f32) :
    Host.tanh (F := Ideal) (addf (F := Ideal)
        (Host.dotGeneral (F := Ideal) Cert.ReferenceIdeal.dot_S50000x64_S64x64_S50000x64_1_0_0_1_n_n none
          (Host.tanh (F := Ideal) (addf (F := Ideal)
            (Host.dotGeneral (F := Ideal) Cert.ReferenceIdeal.dot_S50000x192_S192x64_S50000x64_1_0_0_1_n_n none X W1)
            (broadcastInDim Cert.ReferenceIdeal.S50000x64 ![0, 1] Cert.ReferenceIdeal.Gen.bcast_S1x64_S50000x64_0_1
              (broadcastInDim Cert.ReferenceIdeal.S1x64 ![1] Cert.ReferenceIdeal.Gen.bcast_S64_S1x64_1 a1)))) W2)
        (broadcastInDim Cert.ReferenceIdeal.S50000x64 ![0, 1] Cert.ReferenceIdeal.Gen.bcast_S1x64_S50000x64_0_1
          (broadcastInDim Cert.ReferenceIdeal.S1x64 ![1] Cert.ReferenceIdeal.Gen.bcast_S64_S1x64_1 a2)))
      = nodeNet X W1 (Cert.KernelIdeal.HostSide.biasRow a1) W2 (Cert.KernelIdeal.HostSide.biasRow a2) := by
  unfold Cert.KernelIdeal.HostSide.biasRow
  rw [rdot1_eq, rdot2_eq,
    Cert.NodeNet.row_eq a1 Cert.ReferenceIdeal.Gen.bcast_S64_S1x64_1 shapeCasts_S64_S1x64,
    Cert.NodeNet.row_eq a2 Cert.ReferenceIdeal.Gen.bcast_S64_S1x64_1 shapeCasts_S64_S1x64,
    Cert.NodeNet.hostLayer_eq, Cert.NodeNet.hostLayer_eq]
  rfl

end Cert.KernelIdeal.NodeMlp

end
-- ==== Proof.Spec.lean ====
/-
  The function both programs compute, over whole arrays: the three planes' segment sums go through the node
  network; each plane's edges gather their plane feature and their node feature, pass the gate
  sigmoid([x, n]·W + b) ⊙ n, and the gated rows are averaged back onto the plane's hits; the three results are stacked.
-/
import proofs.«154189_j4853313045170_2_alg».proof.Proof.HostSide
import proofs.«154189_j4853313045170_2_alg».proof.Proof.NodeNet
import proofs.«154189_j4853313045170_2_alg».proof.Proof.RefGate

noncomputable section

namespace Cert.Spec

open Idealize.ShloMosaic Cert.KernelIdeal Cert.KernelIdeal.HostSide

/-- The node features of the graph. -/
def nodes (x0 x1 x2 : FVec Ideal S200000x64 .f32) (e0 e1 e2 : EdgeList) (w1 : FVec Ideal S192x64 .f32) (b1 : FVec Ideal S64 .f32)
    (w2 : FVec Ideal S64x64 .f32) (b2 : FVec Ideal S64 .f32) : FVec Ideal S50000x64 .f32 :=
  Cert.KernelIdeal.NodeMlp.nodeNet (nodeIn x0 x1 x2 e0 e1 e2) w1 (biasRow b1) w2 (biasRow b2)

/-- One plane's result: the gated node features of its edges averaged onto its hits. -/
def planeOut (x : FVec Ideal S200000x64 .f32) (e : EdgeList) (N : FVec Ideal S50000x64 .f32) (wd : FVec Ideal S128x64 .f32)
    (bd : FVec Ideal S64 .f32) : FVec Ideal S1x200000x64 .f32 :=
  meanOntoHits e (Cert.ReferenceIdeal.Gate.refGate (gatherHits x e) (gatherNodes N e) wd bd)

/-- The whole result. -/
def result (x0 x1 x2 : FVec Ideal S200000x64 .f32) (e0 e1 e2 : EdgeList) (w1 : FVec Ideal S192x64 .f32) (b1 : FVec Ideal S64 .f32)
    (w2 : FVec Ideal S64x64 .f32) (b2 : FVec Ideal S64 .f32) (wu : FVec Ideal S128x64 .f32) (bu : FVec Ideal S64 .f32)
    (wv : FVec Ideal S128x64 .f32) (bv : FVec Ideal S64 .f32) (wy : FVec Ideal S128x64 .f32) (bw : FVec Ideal S64 .f32) :
    FVec Ideal S3x200000x64 .f32 :=
  stackPlanes (planeOut x0 e0 (nodes x0 x1 x2 e0 e1 e2 w1 b1 w2 b2) wu bu)
    (planeOut x1 e1 (nodes x0 x1 x2 e0 e1 e2 w1 b1 w2 b2) wv bv)
    (planeOut x2 e2 (nodes x0 x1 x2 e0 e1 e2 w1 b1 w2 b2) wy bw)

end Cert.Spec

end
-- ==== Proof.RefResult.lean ====
/-
  The reference's whole result in the vocabulary of the kernel program's host side: the three planes' scatter-means
  of the gated edge rows, stacked, where each plane's gate reads the plane features gathered along its edges beside
  the node network's result gathered along them, and the node network reads the three planes' segment sums side by side.
  The two programs name the same literal dimension records and side conditions differently; each comparison below is
  between two terms with the same operations in the same order.
-/
import proofs.«154189_j4853313045170_2_alg».proof.Proof.Gen.ReferenceIdeal.Run
import proofs.«154189_j4853313045170_2_alg».proof.Proof.HostSide
import proofs.«154189_j4853313045170_2_alg».proof.Proof.NodeMlpRef
import proofs.«154189_j4853313045170_2_alg».proof.Proof.RefGate
import proofs.«154189_j4853313045170_2_alg».proof.Proof.Spec

set_option maxRecDepth 16384

noncomputable section

namespace Cert.RefResult

open Idealize.ShloMosaic Idealize.ShloMosaic.TcCoe Idealize.SL.Sem Idealize.ShloMosaic.StableHlo
open Cert.KernelIdeal.HostSide
open Cert.ReferenceIdeal.Value (res_main_v1 res_main_v15 res_main_v29 res_main_v52 res_main_v54 res_main_v63 res_main_v70
  res_main_v84 res_main_v97 res_main_v106 res_main_v113 res_main_v127 res_main_v140 res_main_v149 res_main_v156 res_main_v170
  res_main_v185)

variable (V0 : Valuation Cert.ReferenceIdeal.τ Cert.ReferenceIdeal.sig (Elt Ideal))

/-- The reference's arguments as the launch holds them: the three planes' hit features, -/
abbrev x0 : FVec Ideal Cert.KernelIdeal.S200000x64 .f32 := V0 (Proc.devRef .tc Cert.ReferenceIdeal.main_arg0)
abbrev x1 : FVec Ideal Cert.KernelIdeal.S200000x64 .f32 := V0 (Proc.devRef .tc Cert.ReferenceIdeal.main_arg1)
abbrev x2 : FVec Ideal Cert.KernelIdeal.S200000x64 .f32 := V0 (Proc.devRef .tc Cert.ReferenceIdeal.main_arg2)
/-- the three planes' edge lists, -/
abbrev e0 : EdgeList := V0 (Proc.devRef .tc Cert.ReferenceIdeal.main_arg4)
abbrev e1 : EdgeList := V0 (Proc.devRef .tc Cert.ReferenceIdeal.main_arg5)
abbrev e2 : EdgeList := V0 (Proc.devRef .tc Cert.ReferenceIdeal.main_arg6)
/-- the node network's weights and bias vectors, -/
abbrev w1 : FVec Ideal Cert.KernelIdeal.S192x64 .f32 := V0 (Proc.devRef .tc Cert.ReferenceIdeal.main_arg7)
abbrev c1 : FVec Ideal Cert.KernelIdeal.S64 .f32 := V0 (Proc.devRef .tc Cert.ReferenceIdeal.main_arg8)
abbrev w2 : FVec Ideal Cert.KernelIdeal.S64x64 .f32 := V0 (Proc.devRef .tc Cert.ReferenceIdeal.main_arg9)
abbrev c2 : FVec Ideal Cert.KernelIdeal.S64 .f32 := V0 (Proc.devRef .tc Cert.ReferenceIdeal.main_arg10)
/-- and each plane's gate weights and bias vector. -/
abbrev wd0 : FVec Ideal Cert.KernelIdeal.S128x64 .f32 := V0 (Proc.devRef .tc Cert.ReferenceIdeal.main_arg11)
abbrev bd0 : FVec Ideal Cert.KernelIdeal.S64 .f32 := V0 (Proc.devRef .tc Cert.ReferenceIdeal.main_arg12)
abbrev wd1 : FVec Ideal Cert.KernelIdeal.S128x64 .f32 := V0 (Proc.devRef .tc Cert.ReferenceIdeal.main_arg13)
abbrev bd1 : FVec Ideal Cert.KernelIdeal.S64 .f32 := V0 (Proc.devRef .tc Cert.ReferenceIdeal.main_arg14)
abbrev wd2 : FVec Ideal Cert.KernelIdeal.S128x64 .f32 := V0 (Proc.devRef .tc Cert.ReferenceIdeal.main_arg15)
abbrev bd2 : FVec Ideal Cert.KernelIdeal.S64 .f32 := V0 (Proc.devRef .tc Cert.ReferenceIdeal.main_arg16)

/-- The node network's result on the reference's arguments. -/
abbrev refNodes : FVec Ideal Cert.KernelIdeal.S50000x64 .f32 :=
  Cert.KernelIdeal.NodeMlp.nodeNet (nodeIn (x0 V0) (x1 V0) (x2 V0) (e0 V0) (e1 V0) (e2 V0)) (w1 V0) (biasRow (c1 V0)) (w2 V0) (biasRow (c2 V0))

/-! ## The edge lists' rows -/

theorem row_v1 : res_main_v1 V0 = row0 (e0 V0) := rfl
theorem row_v15 : res_main_v15 V0 = row0 (e1 V0) := rfl
theorem row_v29 : res_main_v29 V0 = row0 (e2 V0) := rfl
theorem row_v63 : res_main_v63 V0 = row1 (e0 V0) := rfl
theorem row_v106 : res_main_v106 V0 = row1 (e1 V0) := rfl
theorem row_v149 : res_main_v149 V0 = row1 (e2 V0) := rfl

/-! ## The node network's result -/

/-- The reference's node features are the node network of the three planes' segment sums side by side. -/
theorem nodes_eq : res_main_v52 V0 = refNodes V0 := by
  unfold res_main_v52
  rw [row_v1, row_v15, row_v29]
  exact Cert.KernelIdeal.NodeMlp.ref_nodeNet (nodeIn (x0 V0) (x1 V0) (x2 V0) (e0 V0) (e1 V0) (e2 V0)) (w1 V0) (c1 V0) (w2 V0) (c2 V0)

/-! ## The node features gathered along each plane's edges -/

theorem gathered_v70 : res_main_v70 V0 = gatherNodes (refNodes V0) (e0 V0) := by
  unfold res_main_v70
  rw [nodes_eq, row_v63]
  rfl
theorem gathered_v113 : res_main_v113 V0 = gatherNodes (refNodes V0) (e1 V0) := by
  unfold res_main_v113
  rw [nodes_eq, row_v106]
  rfl
theorem gathered_v156 : res_main_v156 V0 = gatherNodes (refNodes V0) (e2 V0) := by
  unfold res_main_v156
  rw [nodes_eq, row_v149]
  rfl

/-! ## The three planes, stacked -/

/-- The result with the gathered node features still by their names in the reference's run. -/
theorem stacked_eq : res_main_v185 V0
    = stackPlanes (meanOntoHits (e0 V0) (Cert.ReferenceIdeal.Gate.refGate (gatherHits (x0 V0) (e0 V0)) (res_main_v70 V0) (wd0 V0) (bd0 V0)))
        (meanOntoHits (e1 V0) (Cert.ReferenceIdeal.Gate.refGate (gatherHits (x1 V0) (e1 V0)) (res_main_v113 V0) (wd1 V0) (bd1 V0)))
        (meanOntoHits (e2 V0) (Cert.ReferenceIdeal.Gate.refGate (gatherHits (x2 V0) (e2 V0)) (res_main_v156 V0) (wd2 V0) (bd2 V0))) := rfl

/-- THE REFERENCE'S RESULT, written out: the three planes' scatter-means of the gated edge rows, stacked. -/
theorem ref_result : res_main_v185 V0
    = stackPlanes (meanOntoHits (e0 V0) (Cert.ReferenceIdeal.Gate.refGate (gatherHits (x0 V0) (e0 V0)) (gatherNodes (refNodes V0) (e0 V0)) (wd0 V0) (bd0 V0)))
        (meanOntoHits (e1 V0) (Cert.ReferenceIdeal.Gate.refGate (gatherHits (x1 V0) (e1 V0)) (gatherNodes (refNodes V0) (e1 V0)) (wd1 V0) (bd1 V0)))
        (meanOntoHits (e2 V0) (Cert.ReferenceIdeal.Gate.refGate (gatherHits (x2 V0) (e2 V0)) (gatherNodes (refNodes V0) (e2 V0)) (wd2 V0) (bd2 V0))) := by
  rw [stacked_eq, gathered_v70, gathered_v113, gathered_v156]

/-- THE REFERENCE'S RESULT is the function both programs compute, at the reference's arguments. -/
theorem ref_spec : res_main_v185 V0
    = Cert.Spec.result (x0 V0) (x1 V0) (x2 V0) (e0 V0) (e1 V0) (e2 V0) (w1 V0) (c1 V0) (w2 V0) (c2 V0)
        (wd0 V0) (bd0 V0) (wd1 V0) (bd1 V0) (wd2 V0) (bd2 V0) :=
  (ref_result V0).trans rfl

end Cert.RefResult

end
-- ==== Proof.Algebraic.lean ====
/-
  The two idealized programs compute one function. The kernel program's run ends with its result buffer at the
  fold of @main's boundaries, which is the specification's function of the argument arrays (the node network's
  launch read as one whole-array function, the edge gate's likewise, the host stretches read operation by
  operation); the reference's run ends with its result at the same function, its sigmoid spelt as
  1 / (1 + exp (−x)), which on the extended reals is the kernel's logistic. No law beyond reading both sides at an index is
  needed, and the precondition is not used: every step is an equation between sums and products taken in the
  same order.
-/
import proofs.«154189_j4853313045170_2_alg».proof.Defs
import proofs.«154189_j4853313045170_2_alg».proof.Proof.Gen.Pre_finite_inputs
import proofs.«154189_j4853313045170_2_alg».proof.Proof.Frames
import proofs.«154189_j4853313045170_2_alg».proof.Proof.KernelResult
import proofs.«154189_j4853313045170_2_alg».proof.Proof.EdgeGateGlue
import proofs.«154189_j4853313045170_2_alg».proof.Proof.RefResult
import proofs.«154189_j4853313045170_2_alg».proof.Proof.Spec
import proofs.«154189_j4853313045170_2_alg».proof.Proof.Gen.ReferenceIdeal.Run

set_option maxRecDepth 16384

noncomputable section

namespace Cert.Proof

open Idealize.ShloMosaic Idealize.ShloMosaic.TcCoe Idealize.SL.Sem

/-- The kernel program's result is the specification's function of its argument arrays. -/
theorem kernel_spec (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    Cert.KernelIdeal.Whole.W5 m ρ c (Proc.devRef .tc Cert.KernelIdeal.main_v150)
      = Cert.Spec.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) := by
  rw [Cert.KernelIdeal.Whole.kernel_result]
  unfold Cert.KernelIdeal.Whole.gates
  rw [Cert.KernelIdeal.EdgeGate.plane0_eq, Cert.KernelIdeal.EdgeGate.plane1_eq, Cert.KernelIdeal.EdgeGate.plane2_eq]
  rfl

theorem algebraic : Cert.algebraic_KernelIdeal_ReferenceIdeal := by
  intro m ρ m' ρ' _ hagree
  refine ⟨fun c => Cert.KernelIdeal.Whole.W5 m ρ c (Proc.devRef .tc Cert.KernelIdeal.main_v150), ?_, ?_⟩
  · exact (θ_run Cert.KernelIdeal.defs _ _).mono
      (fun r h c => ⟨Cert.KernelIdeal.Whole.read_final m ρ h c Cert.KernelIdeal.main_v150 (by decide), Cert.KernelIdeal.Whole.args_kept m ρ h c⟩)
      (Cert.KernelIdeal.Whole.run_all (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12, h13, h14, h15, h16⟩ := hagree c
    refine (Cert.RefResult.ref_spec _).trans (Eq.trans ?_ (kernel_spec m ρ c).symm)
    show Cert.Spec.result (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) = _
    rw [h0, h1, h2, h4, h5, h6, h7, h8, h9, h10, h11, h12, h13, h14, h15, h16]

end Cert.Proof

end
-- ==== Proof.lean ====
/-
  The certificate of the graph network's kernel program against its jnp reference.
  The program is host gathers and segment sums, a launch of the node network (two dense layers with tanh over row
  tiles), host gathers and packing, a launch of the edge gate (a dense layer, a sigmoid and a product over tiles
  of edges, for three planes), and host scatter-means. The three frames come from one run of @main per program,
  in which every unscoped buffer is followed from the launch memory through the host stretches and the two
  launches; the argument arrays are written by nothing on the way. The idealization rewrote nothing, so
  `preserves` is trivial. The value claim is Proof/Algebraic.lean.
-/
import proofs.«154189_j4853313045170_2_alg».proof.Defs
import proofs.«154189_j4853313045170_2_alg».proof.Proof.Gen.Kernel
import proofs.«154189_j4853313045170_2_alg».proof.Proof.Gen.Kernel.Skeleton
import proofs.«154189_j4853313045170_2_alg».proof.Proof.Gen.Kernel.Launch
import proofs.«154189_j4853313045170_2_alg».proof.Proof.Gen.Kernel.Regions
import proofs.«154189_j4853313045170_2_alg».proof.Proof.Gen.Kernel.Points
import proofs.«154189_j4853313045170_2_alg».proof.Proof.Gen.KernelIdeal
import proofs.«154189_j4853313045170_2_alg».proof.Proof.Gen.KernelIdeal.Skeleton
import proofs.«154189_j4853313045170_2_alg».proof.Proof.Gen.KernelIdeal.Launch
import proofs.«154189_j4853313045170_2_alg».proof.Proof.Gen.KernelIdeal.Regions
import proofs.«154189_j4853313045170_2_alg».proof.Proof.Gen.KernelIdeal.Points
import proofs.«154189_j4853313045170_2_alg».proof.Proof.Gen.ReferenceIdeal
import proofs.«154189_j4853313045170_2_alg».proof.Proof.Gen.Pre_finite_inputs
import proofs.«154189_j4853313045170_2_alg».proof.Proof.Gen.ReferenceIdeal.Run
import proofs.«154189_j4853313045170_2_alg».proof.Proof.Frames
import proofs.«154189_j4853313045170_2_alg».proof.Proof.KFrames
import proofs.«154189_j4853313045170_2_alg».proof.Proof.Algebraic
import Idealize.ShloMosaic.Adequacy
import Idealize.ShloMosaic.Init

noncomputable section

namespace Cert.Proof

open Idealize.ShloMosaic Idealize.SL.Sem

/-- The word-level program runs to the end and leaves its arguments as launched. -/
theorem frame_k : Cert.frame_Kernel := fun m ρ _ =>
  (θ_run Cert.Kernel.defs _ _).mono (fun r h c => Cert.Kernel.Whole.args_kept m ρ h c) (Cert.Kernel.Whole.run_all (F := Bits) m ρ)
/-- So does the idealized program. -/
theorem frame_ki : Cert.frame_KernelIdeal := fun m ρ _ =>
  (θ_run Cert.KernelIdeal.defs _ _).mono (fun r h c => Cert.KernelIdeal.Whole.args_kept m ρ h c) (Cert.KernelIdeal.Whole.run_all (F := Ideal) m ρ)
/-- The reference is host operations only: its run with the result dropped. -/
theorem frame_ri : Cert.frame_ReferenceIdeal := fun m ρ _ =>
  (θ_run Cert.ReferenceIdeal.defs _ _).mono (fun _ h c => (h c).2) (Cert.ReferenceIdeal.Value.run (F := Ideal) m ρ)
/-- The ideal pass rewrote no operation. -/
theorem preserves : Cert.preserves_Kernel_KernelIdeal := trivial

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
